-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x6 : Shape := ⟨2, ![4000000, 6]⟩
abbrev S4000000x4 : Shape := ⟨2, ![4000000, 4]⟩
abbrev S_ : Shape := ⟨0, ![]⟩

class Facts : Prop where
  bcast_S_S4000000x6 : S_.BroadcastsInDim S4000000x6 (![] : Fin 0 → Fin S4000000x6.rank)
  reducesTo_S4000000x6_S_d0_1 : S4000000x6.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_

variable [Facts]

def fn {F : FTy → Type} [FloatOps F] (main_arg0 : FVec F S4000000x6 .f32) (main_arg1 : FVec F S4000000x4 .f32) : IVec S_ 1 :=
  let main_v0 : FVec F S4000000x6 .f32 := Host.absf main_arg0
  let main_cst : FVec F S_ .f32 := constant S_ .f32 0x7F800000#32
  let main_v1 : FVec F S4000000x6 .f32 := broadcastInDim S4000000x6 ![] bcast_S_S4000000x6 main_cst
  let main_v2 : IVec S4000000x6 1 := cmpf .olt main_v0 main_v1
  let main_c : IVec S_ 1 := constantI S_ 1 1#1
  let main_v3 : IVec S_ 1 := (fun x v => Host.reduce IntOp.andi x v reducesTo_S4000000x6_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  main_v8
-- ==== Kernel.lean ====
abbrev S4000000x6 : Shape := ⟨2, ![4000000, 6]⟩
abbrev S4000000x4 : Shape := ⟨2, ![4000000, 4]⟩
abbrev S62500x384 : Shape := ⟨2, ![62500, 384]⟩
abbrev S62500x256 : Shape := ⟨2, ![62500, 256]⟩
abbrev S4096x384 : Shape := ⟨2, ![4096, 384]⟩
abbrev S4096x256 : Shape := ⟨2, ![4096, 256]⟩
abbrev S4096x6 : Shape := ⟨2, ![4096, 6]⟩
abbrev S4096x4 : Shape := ⟨2, ![4096, 4]⟩
abbrev S4096x1 : Shape := ⟨2, ![4096, 1]⟩
abbrev S4096x3 : Shape := ⟨2, ![4096, 3]⟩

abbrev nBuf : Space → Nat
  | .hbm => 6
  | .vmem => 6
  | .smem => 0
  | _ => 0

abbrev bufTy : (tb : Table) → Fin (tcTables nBuf tb) → BufTy
  | .hbm, ⟨0, _⟩ => ⟨S4000000x6, .f32⟩
  | .hbm, ⟨1, _⟩ => ⟨S4000000x4, .f32⟩
  | .hbm, ⟨2, _⟩ => ⟨S62500x384, .f32⟩
  | .hbm, ⟨3, _⟩ => ⟨S62500x256, .f32⟩
  | .hbm, ⟨4, _⟩ => ⟨S62500x384, .f32⟩
  | .hbm, ⟨5, _⟩ => ⟨S4000000x6, .f32⟩
  | .local _ .vmem, ⟨0, _⟩ => ⟨S4096x384, .f32⟩
  | .local _ .vmem, ⟨1, _⟩ => ⟨S4096x384, .f32⟩
  | .local _ .vmem, ⟨2, _⟩ => ⟨S4096x256, .f32⟩
  | .local _ .vmem, ⟨3, _⟩ => ⟨S4096x256, .f32⟩
  | .local _ .vmem, ⟨4, _⟩ => ⟨S4096x384, .f32⟩
  | .local _ .vmem, ⟨5, _⟩ => ⟨S4096x384, .f32⟩
  | _, _ => ⟨S4000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4000000x6_S62500x384 : S4000000x6.ShapeCasts S62500x384
  shapeCasts_S4000000x4_S62500x256 : S4000000x4.ShapeCasts S62500x256
  inb_S4096x384_S4096x6_0_0 : ∀ a, (![0, 0] : Fin 2 → Nat) a + S4096x6.size a ≤ S4096x384.size a
  h_S4096x6 : 0 < S4096x6.numel
  shapeCasts_S4096x6_S4096x6 : S4096x6.ShapeCasts S4096x6
  inb_S4096x256_S4096x4_0_0 : ∀ a, (![0, 0] : Fin 2 → Nat) a + S4096x4.size a ≤ S4096x256.size a
  h_S4096x4 : 0 < S4096x4.numel
  shapeCasts_S4096x4_S4096x4 : S4096x4.ShapeCasts S4096x4
  slices_S4096x4_o0_0_S4096x1 : S4096x4.Slices ![0, 0] S4096x1
  slices_S4096x4_o0_1_S4096x1 : S4096x4.Slices ![0, 1] S4096x1
  slices_S4096x4_o0_2_S4096x1 : S4096x4.Slices ![0, 2] S4096x1
  slices_S4096x4_o0_3_S4096x1 : S4096x4.Slices ![0, 3] S4096x1
  slices_S4096x6_o0_0_S4096x3 : S4096x6.Slices ![0, 0] S4096x3
  broadcasts_S4096x1_S4096x3 : S4096x1.Broadcasts S4096x3
  inb_S4096x384_S4096x3_0_0 : ∀ a, (![0, 0] : Fin 2 → Nat) a + S4096x3.size a ≤ S4096x384.size a
  h_S4096x3 : 0 < S4096x3.numel
  slices_S4096x6_o0_3_S4096x3 : S4096x6.Slices ![0, 3] S4096x3
  inb_S4096x384_S4096x3_0_3 : ∀ a, (![0, 3] : Fin 2 → Nat) a + S4096x3.size a ≤ S4096x384.size a
  inb_S4096x384_S4096x6_0_6 : ∀ a, (![0, 6] : Fin 2 → Nat) a + S4096x6.size a ≤ S4096x384.size a
  inb_S4096x256_S4096x4_0_4 : ∀ a, (![0, 4] : Fin 2 → Nat) a + S4096x4.size a ≤ S4096x256.size a
  inb_S4096x384_S4096x3_0_6 : ∀ a, (![0, 6] : Fin 2 → Nat) a + S4096x3.size a ≤ S4096x384.size a
  inb_S4096x384_S4096x3_0_9 : ∀ a, (![0, 9] : Fin 2 → Nat) a + S4096x3.size a ≤ S4096x384.size a
  inb_S4096x384_S4096x6_0_12 : ∀ a, (![0, 12] : Fin 2 → Nat) a + S4096x6.size a ≤ S4096x384.size a
  inb_S4096x256_S4096x4_0_8 : ∀ a, (![0, 8] : Fin 2 → Nat) a + S4096x4.size a ≤ S4096x256.size a
  inb_S4096x384_S4096x3_0_12 : ∀ a, (![0, 12] : Fin 2 → Nat) a + S4096x3.size a ≤ S4096x384.size a
  inb_S4096x384_S4096x3_0_15 : ∀ a, (![0, 15] : Fin 2 → Nat) a + S4096x3.size a ≤ S4096x384.size a
  inb_S4096x384_S4096x6_0_18 : ∀ a, (![0, 18] : Fin 2 → Nat) a + S4096x6.size a ≤ S4096x384.size a
  inb_S4096x256_S4096x4_0_12 : ∀ a, (![0, 12] : Fin 2 → Nat) a + S4096x4.size a ≤ S4096x256.size a
  inb_S4096x384_S4096x3_0_18 : ∀ a, (![0, 18] : Fin 2 → Nat) a + S4096x3.size a ≤ S4096x384.size a
  inb_S4096x384_S4096x3_0_21 : ∀ a, (![0, 21] : Fin 2 → Nat) a + S4096x3.size a ≤ S4096x384.size a
  inb_S4096x384_S4096x6_0_24 : ∀ a, (![0, 24] : Fin 2 → Nat) a + S4096x6.size a ≤ S4096x384.size a
  inb_S4096x256_S4096x4_0_16 : ∀ a, (![0, 16] : Fin 2 → Nat) a + S4096x4.size a ≤ S4096x256.size a
  inb_S4096x384_S4096x3_0_24 : ∀ a, (![0, 24] : Fin 2 → Nat) a + S4096x3.size a ≤ S4096x384.size a
  inb_S4096x384_S4096x3_0_27 : ∀ a, (![0, 27] : Fin 2 → Nat) a + S4096x3.size a ≤ S4096x384.size a
  inb_S4096x384_S4096x6_0_30 : ∀ a, (![0, 30] : Fin 2 → Nat) a + S4096x6.size a ≤ S4096x384.size a
  inb_S4096x256_S4096x4_0_20 : ∀ a, (![0, 20] : Fin 2 → Nat) a + S4096x4.size a ≤ S4096x256.size a
  inb_S4096x384_S4096x3_0_30 : ∀ a, (![0, 30] : Fin 2 → Nat) a + S4096x3.size a ≤ S4096x384.size a
  inb_S4096x384_S4096x3_0_33 : ∀ a, (![0, 33] : Fin 2 → Nat) a + S4096x3.size a ≤ S4096x384.size a
  inb_S4096x384_S4096x6_0_36 : ∀ a, (![0, 36] : Fin 2 → Nat) a + S4096x6.size a ≤ S4096x384.size a
  inb_S4096x256_S4096x4_0_24 : ∀ a, (![0, 24] : Fin 2 → Nat) a + S4096x4.size a ≤ S4096x256.size a
  inb_S4096x384_S4096x3_0_36 : ∀ a, (![0, 36] : Fin 2 → Nat) a + S4096x3.size a ≤ S4096x384.size a
  inb_S4096x384_S4096x3_0_39 : ∀ a, (![0, 39] : Fin 2 → Nat) a + S4096x3.size a ≤ S4096x384.size a
  inb_S4096x384_S4096x6_0_42 : ∀ a, (![0, 42] : Fin 2 → Nat) a + S4096x6.size a ≤ S4096x384.size a
  inb_S4096x256_S4096x4_0_28 : ∀ a, (![0, 28] : Fin 2 → Nat) a + S4096x4.size a ≤ S4096x256.size a
  inb_S4096x384_S4096x3_0_42 : ∀ a, (![0, 42] : Fin 2 → Nat) a + S4096x3.size a ≤ S4096x384.size a
  inb_S4096x384_S4096x3_0_45 : ∀ a, (![0, 45] : Fin 2 → Nat) a + S4096x3.size a ≤ S4096x384.size a
  inb_S4096x384_S4096x6_0_48 : ∀ a, (![0, 48] : Fin 2 → Nat) a + S4096x6.size a ≤ S4096x384.size a
  inb_S4096x256_S4096x4_0_32 : ∀ a, (![0, 32] : Fin 2 → Nat) a + S4096x4.size a ≤ S4096x256.size a
  inb_S4096x384_S4096x3_0_48 : ∀ a, (![0, 48] : Fin 2 → Nat) a + S4096x3.size a ≤ S4096x384.size a
  inb_S4096x384_S4096x3_0_51 : ∀ a, (![0, 51] : Fin 2 → Nat) a + S4096x3.size a ≤ S4096x384.size a
  inb_S4096x384_S4096x6_0_54 : ∀ a, (![0, 54] : Fin 2 → Nat) a + S4096x6.size a ≤ S4096x384.size a
  inb_S4096x256_S4096x4_0_36 : ∀ a, (![0, 36] : Fin 2 → Nat) a + S4096x4.size a ≤ S4096x256.size a
  inb_S4096x384_S4096x3_0_54 : ∀ a, (![0, 54] : Fin 2 → Nat) a + S4096x3.size a ≤ S4096x384.size a
  inb_S4096x384_S4096x3_0_57 : ∀ a, (![0, 57] : Fin 2 → Nat) a + S4096x3.size a ≤ S4096x384.size a
  inb_S4096x384_S4096x6_0_60 : ∀ a, (![0, 60] : Fin 2 → Nat) a + S4096x6.size a ≤ S4096x384.size a
  inb_S4096x256_S4096x4_0_40 : ∀ a, (![0, 40] : Fin 2 → Nat) a + S4096x4.size a ≤ S4096x256.size a
  inb_S4096x384_S4096x3_0_60 : ∀ a, (![0, 60] : Fin 2 → Nat) a + S4096x3.size a ≤ S4096x384.size a
  inb_S4096x384_S4096x3_0_63 : ∀ a, (![0, 63] : Fin 2 → Nat) a + S4096x3.size a ≤ S4096x384.size a
  inb_S4096x384_S4096x6_0_66 : ∀ a, (![0, 66] : Fin 2 → Nat) a + S4096x6.size a ≤ S4096x384.size a
  inb_S4096x256_S4096x4_0_44 : ∀ a, (![0, 44] : Fin 2 → Nat) a + S4096x4.size a ≤ S4096x256.size a
  inb_S4096x384_S4096x3_0_66 : ∀ a, (![0, 66] : Fin 2 → Nat) a + S4096x3.size a ≤ S4096x384.size a
  inb_S4096x384_S4096x3_0_69 : ∀ a, (![0, 69] : Fin 2 → Nat) a + S4096x3.size a ≤ S4096x384.size a
  inb_S4096x384_S4096x6_0_72 : ∀ a, (![0, 72] : Fin 2 → Nat) a + S4096x6.size a ≤ S4096x384.size a
  inb_S4096x256_S4096x4_0_48 : ∀ a, (![0, 48] : Fin 2 → Nat) a + S4096x4.size a ≤ S4096x256.size a
  inb_S4096x384_S4096x3_0_72 : ∀ a, (![0, 72] : Fin 2 → Nat) a + S4096x3.size a ≤ S4096x384.size a
  inb_S4096x384_S4096x3_0_75 : ∀ a, (![0, 75] : Fin 2 → Nat) a + S4096x3.size a ≤ S4096x384.size a
  inb_S4096x384_S4096x6_0_78 : ∀ a, (![0, 78] : Fin 2 → Nat) a + S4096x6.size a ≤ S4096x384.size a
  inb_S4096x256_S4096x4_0_52 : ∀ a, (![0, 52] : Fin 2 → Nat) a + S4096x4.size a ≤ S4096x256.size a
  inb_S4096x384_S4096x3_0_78 : ∀ a, (![0, 78] : Fin 2 → Nat) a + S4096x3.size a ≤ S4096x384.size a
  inb_S4096x384_S4096x3_0_81 : ∀ a, (![0, 81] : Fin 2 → Nat) a + S4096x3.size a ≤ S4096x384.size a
  inb_S4096x384_S4096x6_0_84 : ∀ a, (![0, 84] : Fin 2 → Nat) a + S4096x6.size a ≤ S4096x384.size a
  inb_S4096x256_S4096x4_0_56 : ∀ a, (![0, 56] : Fin 2 → Nat) a + S4096x4.size a ≤ S4096x256.size a
  inb_S4096x384_S4096x3_0_84 : ∀ a, (![0, 84] : Fin 2 → Nat) a + S4096x3.size a ≤ S4096x384.size a
  inb_S4096x384_S4096x3_0_87 : ∀ a, (![0, 87] : Fin 2 → Nat) a + S4096x3.size a ≤ S4096x384.size a
  inb_S4096x384_S4096x6_0_90 : ∀ a, (![0, 90] : Fin 2 → Nat) a + S4096x6.size a ≤ S4096x384.size a
  inb_S4096x256_S4096x4_0_60 : ∀ a, (![0, 60] : Fin 2 → Nat) a + S4096x4.size a ≤ S4096x256.size a
  inb_S4096x384_S4096x3_0_90 : ∀ a, (![0, 90] : Fin 2 → Nat) a + S4096x3.size a ≤ S4096x384.size a
  inb_S4096x384_S4096x3_0_93 : ∀ a, (![0, 93] : Fin 2 → Nat) a + S4096x3.size a ≤ S4096x384.size a
  inb_S4096x384_S4096x6_0_96 : ∀ a, (![0, 96] : Fin 2 → Nat) a + S4096x6.size a ≤ S4096x384.size a
  inb_S4096x256_S4096x4_0_64 : ∀ a, (![0, 64] : Fin 2 → Nat) a + S4096x4.size a ≤ S4096x256.size a
  inb_S4096x384_S4096x3_0_96 : ∀ a, (![0, 96] : Fin 2 → Nat) a + S4096x3.size a ≤ S4096x384.size a
  inb_S4096x384_S4096x3_0_99 : ∀ a, (![0, 99] : Fin 2 → Nat) a + S4096x3.size a ≤ S4096x384.size a
  inb_S4096x384_S4096x6_0_102 : ∀ a, (![0, 102] : Fin 2 → Nat) a + S4096x6.size a ≤ S4096x384.size a
  inb_S4096x256_S4096x4_0_68 : ∀ a, (![0, 68] : Fin 2 → Nat) a + S4096x4.size a ≤ S4096x256.size a
  inb_S4096x384_S4096x3_0_102 : ∀ a, (![0, 102] : Fin 2 → Nat) a + S4096x3.size a ≤ S4096x384.size a
  inb_S4096x384_S4096x3_0_105 : ∀ a, (![0, 105] : Fin 2 → Nat) a + S4096x3.size a ≤ S4096x384.size a
  inb_S4096x384_S4096x6_0_108 : ∀ a, (![0, 108] : Fin 2 → Nat) a + S4096x6.size a ≤ S4096x384.size a
  inb_S4096x256_S4096x4_0_72 : ∀ a, (![0, 72] : Fin 2 → Nat) a + S4096x4.size a ≤ S4096x256.size a
  inb_S4096x384_S4096x3_0_108 : ∀ a, (![0, 108] : Fin 2 → Nat) a + S4096x3.size a ≤ S4096x384.size a
  inb_S4096x384_S4096x3_0_111 : ∀ a, (![0, 111] : Fin 2 → Nat) a + S4096x3.size a ≤ S4096x384.size a
  inb_S4096x384_S4096x6_0_114 : ∀ a, (![0, 114] : Fin 2 → Nat) a + S4096x6.size a ≤ S4096x384.size a
  inb_S4096x256_S4096x4_0_76 : ∀ a, (![0, 76] : Fin 2 → Nat) a + S4096x4.size a ≤ S4096x256.size a
  inb_S4096x384_S4096x3_0_114 : ∀ a, (![0, 114] : Fin 2 → Nat) a + S4096x3.size a ≤ S4096x384.size a
  inb_S4096x384_S4096x3_0_117 : ∀ a, (![0, 117] : Fin 2 → Nat) a + S4096x3.size a ≤ S4096x384.size a
  inb_S4096x384_S4096x6_0_120 : ∀ a, (![0, 120] : Fin 2 → Nat) a + S4096x6.size a ≤ S4096x384.size a
  inb_S4096x256_S4096x4_0_80 : ∀ a, (![0, 80] : Fin 2 → Nat) a + S4096x4.size a ≤ S4096x256.size a
  inb_S4096x384_S4096x3_0_120 : ∀ a, (![0, 120] : Fin 2 → Nat) a + S4096x3.size a ≤ S4096x384.size a
  inb_S4096x384_S4096x3_0_123 : ∀ a, (![0, 123] : Fin 2 → Nat) a + S4096x3.size a ≤ S4096x384.size a
  inb_S4096x384_S4096x6_0_126 : ∀ a, (![0, 126] : Fin 2 → Nat) a + S4096x6.size a ≤ S4096x384.size a
  inb_S4096x256_S4096x4_0_84 : ∀ a, (![0, 84] : Fin 2 → Nat) a + S4096x4.size a ≤ S4096x256.size a
  inb_S4096x384_S4096x3_0_126 : ∀ a, (![0, 126] : Fin 2 → Nat) a + S4096x3.size a ≤ S4096x384.size a
  inb_S4096x384_S4096x3_0_129 : ∀ a, (![0, 129] : Fin 2 → Nat) a + S4096x3.size a ≤ S4096x384.size a
  inb_S4096x384_S4096x6_0_132 : ∀ a, (![0, 132] : Fin 2 → Nat) a + S4096x6.size a ≤ S4096x384.size a
  inb_S4096x256_S4096x4_0_88 : ∀ a, (![0, 88] : Fin 2 → Nat) a + S4096x4.size a ≤ S4096x256.size a
  inb_S4096x384_S4096x3_0_132 : ∀ a, (![0, 132] : Fin 2 → Nat) a + S4096x3.size a ≤ S4096x384.size a
  inb_S4096x384_S4096x3_0_135 : ∀ a, (![0, 135] : Fin 2 → Nat) a + S4096x3.size a ≤ S4096x384.size a
  inb_S4096x384_S4096x6_0_138 : ∀ a, (![0, 138] : Fin 2 → Nat) a + S4096x6.size a ≤ S4096x384.size a
  inb_S4096x256_S4096x4_0_92 : ∀ a, (![0, 92] : Fin 2 → Nat) a + S4096x4.size a ≤ S4096x256.size a
  inb_S4096x384_S4096x3_0_138 : ∀ a, (![0, 138] : Fin 2 → Nat) a + S4096x3.size a ≤ S4096x384.size a
  inb_S4096x384_S4096x3_0_141 : ∀ a, (![0, 141] : Fin 2 → Nat) a + S4096x3.size a ≤ S4096x384.size a
  inb_S4096x384_S4096x6_0_144 : ∀ a, (![0, 144] : Fin 2 → Nat) a + S4096x6.size a ≤ S4096x384.size a
  inb_S4096x256_S4096x4_0_96 : ∀ a, (![0, 96] : Fin 2 → Nat) a + S4096x4.size a ≤ S4096x256.size a
  inb_S4096x384_S4096x3_0_144 : ∀ a, (![0, 144] : Fin 2 → Nat) a + S4096x3.size a ≤ S4096x384.size a
  inb_S4096x384_S4096x3_0_147 : ∀ a, (![0, 147] : Fin 2 → Nat) a + S4096x3.size a ≤ S4096x384.size a
  inb_S4096x384_S4096x6_0_150 : ∀ a, (![0, 150] : Fin 2 → Nat) a + S4096x6.size a ≤ S4096x384.size a
  inb_S4096x256_S4096x4_0_100 : ∀ a, (![0, 100] : Fin 2 → Nat) a + S4096x4.size a ≤ S4096x256.size a
  inb_S4096x384_S4096x3_0_150 : ∀ a, (![0, 150] : Fin 2 → Nat) a + S4096x3.size a ≤ S4096x384.size a
  inb_S4096x384_S4096x3_0_153 : ∀ a, (![0, 153] : Fin 2 → Nat) a + S4096x3.size a ≤ S4096x384.size a
  inb_S4096x384_S4096x6_0_156 : ∀ a, (![0, 156] : Fin 2 → Nat) a + S4096x6.size a ≤ S4096x384.size a
  inb_S4096x256_S4096x4_0_104 : ∀ a, (![0, 104] : Fin 2 → Nat) a + S4096x4.size a ≤ S4096x256.size a
  inb_S4096x384_S4096x3_0_156 : ∀ a, (![0, 156] : Fin 2 → Nat) a + S4096x3.size a ≤ S4096x384.size a
  inb_S4096x384_S4096x3_0_159 : ∀ a, (![0, 159] : Fin 2 → Nat) a + S4096x3.size a ≤ S4096x384.size a
  inb_S4096x384_S4096x6_0_162 : ∀ a, (![0, 162] : Fin 2 → Nat) a + S4096x6.size a ≤ S4096x384.size a
  inb_S4096x256_S4096x4_0_108 : ∀ a, (![0, 108] : Fin 2 → Nat) a + S4096x4.size a ≤ S4096x256.size a
  inb_S4096x384_S4096x3_0_162 : ∀ a, (![0, 162] : Fin 2 → Nat) a + S4096x3.size a ≤ S4096x384.size a
  inb_S4096x384_S4096x3_0_165 : ∀ a, (![0, 165] : Fin 2 → Nat) a + S4096x3.size a ≤ S4096x384.size a
  inb_S4096x384_S4096x6_0_168 : ∀ a, (![0, 168] : Fin 2 → Nat) a + S4096x6.size a ≤ S4096x384.size a
  inb_S4096x256_S4096x4_0_112 : ∀ a, (![0, 112] : Fin 2 → Nat) a + S4096x4.size a ≤ S4096x256.size a
  inb_S4096x384_S4096x3_0_168 : ∀ a, (![0, 168] : Fin 2 → Nat) a + S4096x3.size a ≤ S4096x384.size a
  inb_S4096x384_S4096x3_0_171 : ∀ a, (![0, 171] : Fin 2 → Nat) a + S4096x3.size a ≤ S4096x384.size a
  inb_S4096x384_S4096x6_0_174 : ∀ a, (![0, 174] : Fin 2 → Nat) a + S4096x6.size a ≤ S4096x384.size a
  inb_S4096x256_S4096x4_0_116 : ∀ a, (![0, 116] : Fin 2 → Nat) a + S4096x4.size a ≤ S4096x256.size a
  inb_S4096x384_S4096x3_0_174 : ∀ a, (![0, 174] : Fin 2 → Nat) a + S4096x3.size a ≤ S4096x384.size a
  inb_S4096x384_S4096x3_0_177 : ∀ a, (![0, 177] : Fin 2 → Nat) a + S4096x3.size a ≤ S4096x384.size a
  inb_S4096x384_S4096x6_0_180 : ∀ a, (![0, 180] : Fin 2 → Nat) a + S4096x6.size a ≤ S4096x384.size a
  inb_S4096x256_S4096x4_0_120 : ∀ a, (![0, 120] : Fin 2 → Nat) a + S4096x4.size a ≤ S4096x256.size a
  inb_S4096x384_S4096x3_0_180 : ∀ a, (![0, 180] : Fin 2 → Nat) a + S4096x3.size a ≤ S4096x384.size a
  inb_S4096x384_S4096x3_0_183 : ∀ a, (![0, 183] : Fin 2 → Nat) a + S4096x3.size a ≤ S4096x384.size a
  inb_S4096x384_S4096x6_0_186 : ∀ a, (![0, 186] : Fin 2 → Nat) a + S4096x6.size a ≤ S4096x384.size a
  inb_S4096x256_S4096x4_0_124 : ∀ a, (![0, 124] : Fin 2 → Nat) a + S4096x4.size a ≤ S4096x256.size a
  inb_S4096x384_S4096x3_0_186 : ∀ a, (![0, 186] : Fin 2 → Nat) a + S4096x3.size a ≤ S4096x384.size a
  inb_S4096x384_S4096x3_0_189 : ∀ a, (![0, 189] : Fin 2 → Nat) a + S4096x3.size a ≤ S4096x384.size a
  inb_S4096x384_S4096x6_0_192 : ∀ a, (![0, 192] : Fin 2 → Nat) a + S4096x6.size a ≤ S4096x384.size a
  inb_S4096x256_S4096x4_0_128 : ∀ a, (![0, 128] : Fin 2 → Nat) a + S4096x4.size a ≤ S4096x256.size a
  inb_S4096x384_S4096x3_0_192 : ∀ a, (![0, 192] : Fin 2 → Nat) a + S4096x3.size a ≤ S4096x384.size a
  inb_S4096x384_S4096x3_0_195 : ∀ a, (![0, 195] : Fin 2 → Nat) a + S4096x3.size a ≤ S4096x384.size a
  inb_S4096x384_S4096x6_0_198 : ∀ a, (![0, 198] : Fin 2 → Nat) a + S4096x6.size a ≤ S4096x384.size a
  inb_S4096x256_S4096x4_0_132 : ∀ a, (![0, 132] : Fin 2 → Nat) a + S4096x4.size a ≤ S4096x256.size a
  inb_S4096x384_S4096x3_0_198 : ∀ a, (![0, 198] : Fin 2 → Nat) a + S4096x3.size a ≤ S4096x384.size a
  inb_S4096x384_S4096x3_0_201 : ∀ a, (![0, 201] : Fin 2 → Nat) a + S4096x3.size a ≤ S4096x384.size a
  inb_S4096x384_S4096x6_0_204 : ∀ a, (![0, 204] : Fin 2 → Nat) a + S4096x6.size a ≤ S4096x384.size a
  inb_S4096x256_S4096x4_0_136 : ∀ a, (![0, 136] : Fin 2 → Nat) a + S4096x4.size a ≤ S4096x256.size a
  inb_S4096x384_S4096x3_0_204 : ∀ a, (![0, 204] : Fin 2 → Nat) a + S4096x3.size a ≤ S4096x384.size a
  inb_S4096x384_S4096x3_0_207 : ∀ a, (![0, 207] : Fin 2 → Nat) a + S4096x3.size a ≤ S4096x384.size a
  inb_S4096x384_S4096x6_0_210 : ∀ a, (![0, 210] : Fin 2 → Nat) a + S4096x6.size a ≤ S4096x384.size a
  inb_S4096x256_S4096x4_0_140 : ∀ a, (![0, 140] : Fin 2 → Nat) a + S4096x4.size a ≤ S4096x256.size a
  inb_S4096x384_S4096x3_0_210 : ∀ a, (![0, 210] : Fin 2 → Nat) a + S4096x3.size a ≤ S4096x384.size a
  inb_S4096x384_S4096x3_0_213 : ∀ a, (![0, 213] : Fin 2 → Nat) a + S4096x3.size a ≤ S4096x384.size a
  inb_S4096x384_S4096x6_0_216 : ∀ a, (![0, 216] : Fin 2 → Nat) a + S4096x6.size a ≤ S4096x384.size a
  inb_S4096x256_S4096x4_0_144 : ∀ a, (![0, 144] : Fin 2 → Nat) a + S4096x4.size a ≤ S4096x256.size a
  inb_S4096x384_S4096x3_0_216 : ∀ a, (![0, 216] : Fin 2 → Nat) a + S4096x3.size a ≤ S4096x384.size a
  inb_S4096x384_S4096x3_0_219 : ∀ a, (![0, 219] : Fin 2 → Nat) a + S4096x3.size a ≤ S4096x384.size a
  inb_S4096x384_S4096x6_0_222 : ∀ a, (![0, 222] : Fin 2 → Nat) a + S4096x6.size a ≤ S4096x384.size a
  inb_S4096x256_S4096x4_0_148 : ∀ a, (![0, 148] : Fin 2 → Nat) a + S4096x4.size a ≤ S4096x256.size a
  inb_S4096x384_S4096x3_0_222 : ∀ a, (![0, 222] : Fin 2 → Nat) a + S4096x3.size a ≤ S4096x384.size a
  inb_S4096x384_S4096x3_0_225 : ∀ a, (![0, 225] : Fin 2 → Nat) a + S4096x3.size a ≤ S4096x384.size a
  inb_S4096x384_S4096x6_0_228 : ∀ a, (![0, 228] : Fin 2 → Nat) a + S4096x6.size a ≤ S4096x384.size a
  inb_S4096x256_S4096x4_0_152 : ∀ a, (![0, 152] : Fin 2 → Nat) a + S4096x4.size a ≤ S4096x256.size a
  inb_S4096x384_S4096x3_0_228 : ∀ a, (![0, 228] : Fin 2 → Nat) a + S4096x3.size a ≤ S4096x384.size a
  inb_S4096x384_S4096x3_0_231 : ∀ a, (![0, 231] : Fin 2 → Nat) a + S4096x3.size a ≤ S4096x384.size a
  inb_S4096x384_S4096x6_0_234 : ∀ a, (![0, 234] : Fin 2 → Nat) a + S4096x6.size a ≤ S4096x384.size a
  inb_S4096x256_S4096x4_0_156 : ∀ a, (![0, 156] : Fin 2 → Nat) a + S4096x4.size a ≤ S4096x256.size a
  inb_S4096x384_S4096x3_0_234 : ∀ a, (![0, 234] : Fin 2 → Nat) a + S4096x3.size a ≤ S4096x384.size a
  inb_S4096x384_S4096x3_0_237 : ∀ a, (![0, 237] : Fin 2 → Nat) a + S4096x3.size a ≤ S4096x384.size a
  inb_S4096x384_S4096x6_0_240 : ∀ a, (![0, 240] : Fin 2 → Nat) a + S4096x6.size a ≤ S4096x384.size a
  inb_S4096x256_S4096x4_0_160 : ∀ a, (![0, 160] : Fin 2 → Nat) a + S4096x4.size a ≤ S4096x256.size a
  inb_S4096x384_S4096x3_0_240 : ∀ a, (![0, 240] : Fin 2 → Nat) a + S4096x3.size a ≤ S4096x384.size a
  inb_S4096x384_S4096x3_0_243 : ∀ a, (![0, 243] : Fin 2 → Nat) a + S4096x3.size a ≤ S4096x384.size a
  inb_S4096x384_S4096x6_0_246 : ∀ a, (![0, 246] : Fin 2 → Nat) a + S4096x6.size a ≤ S4096x384.size a
  inb_S4096x256_S4096x4_0_164 : ∀ a, (![0, 164] : Fin 2 → Nat) a + S4096x4.size a ≤ S4096x256.size a
  inb_S4096x384_S4096x3_0_246 : ∀ a, (![0, 246] : Fin 2 → Nat) a + S4096x3.size a ≤ S4096x384.size a
  inb_S4096x384_S4096x3_0_249 : ∀ a, (![0, 249] : Fin 2 → Nat) a + S4096x3.size a ≤ S4096x384.size a
  inb_S4096x384_S4096x6_0_252 : ∀ a, (![0, 252] : Fin 2 → Nat) a + S4096x6.size a ≤ S4096x384.size a
  inb_S4096x256_S4096x4_0_168 : ∀ a, (![0, 168] : Fin 2 → Nat) a + S4096x4.size a ≤ S4096x256.size a
  inb_S4096x384_S4096x3_0_252 : ∀ a, (![0, 252] : Fin 2 → Nat) a + S4096x3.size a ≤ S4096x384.size a
  inb_S4096x384_S4096x3_0_255 : ∀ a, (![0, 255] : Fin 2 → Nat) a + S4096x3.size a ≤ S4096x384.size a
  inb_S4096x384_S4096x6_0_258 : ∀ a, (![0, 258] : Fin 2 → Nat) a + S4096x6.size a ≤ S4096x384.size a
  inb_S4096x256_S4096x4_0_172 : ∀ a, (![0, 172] : Fin 2 → Nat) a + S4096x4.size a ≤ S4096x256.size a
  inb_S4096x384_S4096x3_0_258 : ∀ a, (![0, 258] : Fin 2 → Nat) a + S4096x3.size a ≤ S4096x384.size a
  inb_S4096x384_S4096x3_0_261 : ∀ a, (![0, 261] : Fin 2 → Nat) a + S4096x3.size a ≤ S4096x384.size a
  inb_S4096x384_S4096x6_0_264 : ∀ a, (![0, 264] : Fin 2 → Nat) a + S4096x6.size a ≤ S4096x384.size a
  inb_S4096x256_S4096x4_0_176 : ∀ a, (![0, 176] : Fin 2 → Nat) a + S4096x4.size a ≤ S4096x256.size a
  inb_S4096x384_S4096x3_0_264 : ∀ a, (![0, 264] : Fin 2 → Nat) a + S4096x3.size a ≤ S4096x384.size a
  inb_S4096x384_S4096x3_0_267 : ∀ a, (![0, 267] : Fin 2 → Nat) a + S4096x3.size a ≤ S4096x384.size a
  inb_S4096x384_S4096x6_0_270 : ∀ a, (![0, 270] : Fin 2 → Nat) a + S4096x6.size a ≤ S4096x384.size a
  inb_S4096x256_S4096x4_0_180 : ∀ a, (![0, 180] : Fin 2 → Nat) a + S4096x4.size a ≤ S4096x256.size a
  inb_S4096x384_S4096x3_0_270 : ∀ a, (![0, 270] : Fin 2 → Nat) a + S4096x3.size a ≤ S4096x384.size a
  inb_S4096x384_S4096x3_0_273 : ∀ a, (![0, 273] : Fin 2 → Nat) a + S4096x3.size a ≤ S4096x384.size a
  inb_S4096x384_S4096x6_0_276 : ∀ a, (![0, 276] : Fin 2 → Nat) a + S4096x6.size a ≤ S4096x384.size a
  inb_S4096x256_S4096x4_0_184 : ∀ a, (![0, 184] : Fin 2 → Nat) a + S4096x4.size a ≤ S4096x256.size a
  inb_S4096x384_S4096x3_0_276 : ∀ a, (![0, 276] : Fin 2 → Nat) a + S4096x3.size a ≤ S4096x384.size a
  inb_S4096x384_S4096x3_0_279 : ∀ a, (![0, 279] : Fin 2 → Nat) a + S4096x3.size a ≤ S4096x384.size a
  inb_S4096x384_S4096x6_0_282 : ∀ a, (![0, 282] : Fin 2 → Nat) a + S4096x6.size a ≤ S4096x384.size a
  inb_S4096x256_S4096x4_0_188 : ∀ a, (![0, 188] : Fin 2 → Nat) a + S4096x4.size a ≤ S4096x256.size a
  inb_S4096x384_S4096x3_0_282 : ∀ a, (![0, 282] : Fin 2 → Nat) a + S4096x3.size a ≤ S4096x384.size a
  inb_S4096x384_S4096x3_0_285 : ∀ a, (![0, 285] : Fin 2 → Nat) a + S4096x3.size a ≤ S4096x384.size a
  inb_S4096x384_S4096x6_0_288 : ∀ a, (![0, 288] : Fin 2 → Nat) a + S4096x6.size a ≤ S4096x384.size a
  inb_S4096x256_S4096x4_0_192 : ∀ a, (![0, 192] : Fin 2 → Nat) a + S4096x4.size a ≤ S4096x256.size a
  inb_S4096x384_S4096x3_0_288 : ∀ a, (![0, 288] : Fin 2 → Nat) a + S4096x3.size a ≤ S4096x384.size a
  inb_S4096x384_S4096x3_0_291 : ∀ a, (![0, 291] : Fin 2 → Nat) a + S4096x3.size a ≤ S4096x384.size a
  inb_S4096x384_S4096x6_0_294 : ∀ a, (![0, 294] : Fin 2 → Nat) a + S4096x6.size a ≤ S4096x384.size a
  inb_S4096x256_S4096x4_0_196 : ∀ a, (![0, 196] : Fin 2 → Nat) a + S4096x4.size a ≤ S4096x256.size a
  inb_S4096x384_S4096x3_0_294 : ∀ a, (![0, 294] : Fin 2 → Nat) a + S4096x3.size a ≤ S4096x384.size a
  inb_S4096x384_S4096x3_0_297 : ∀ a, (![0, 297] : Fin 2 → Nat) a + S4096x3.size a ≤ S4096x384.size a
  inb_S4096x384_S4096x6_0_300 : ∀ a, (![0, 300] : Fin 2 → Nat) a + S4096x6.size a ≤ S4096x384.size a
  inb_S4096x256_S4096x4_0_200 : ∀ a, (![0, 200] : Fin 2 → Nat) a + S4096x4.size a ≤ S4096x256.size a
  inb_S4096x384_S4096x3_0_300 : ∀ a, (![0, 300] : Fin 2 → Nat) a + S4096x3.size a ≤ S4096x384.size a
  inb_S4096x384_S4096x3_0_303 : ∀ a, (![0, 303] : Fin 2 → Nat) a + S4096x3.size a ≤ S4096x384.size a
  inb_S4096x384_S4096x6_0_306 : ∀ a, (![0, 306] : Fin 2 → Nat) a + S4096x6.size a ≤ S4096x384.size a
  inb_S4096x256_S4096x4_0_204 : ∀ a, (![0, 204] : Fin 2 → Nat) a + S4096x4.size a ≤ S4096x256.size a
  inb_S4096x384_S4096x3_0_306 : ∀ a, (![0, 306] : Fin 2 → Nat) a + S4096x3.size a ≤ S4096x384.size a
  inb_S4096x384_S4096x3_0_309 : ∀ a, (![0, 309] : Fin 2 → Nat) a + S4096x3.size a ≤ S4096x384.size a
  inb_S4096x384_S4096x6_0_312 : ∀ a, (![0, 312] : Fin 2 → Nat) a + S4096x6.size a ≤ S4096x384.size a
  inb_S4096x256_S4096x4_0_208 : ∀ a, (![0, 208] : Fin 2 → Nat) a + S4096x4.size a ≤ S4096x256.size a
  inb_S4096x384_S4096x3_0_312 : ∀ a, (![0, 312] : Fin 2 → Nat) a + S4096x3.size a ≤ S4096x384.size a
  inb_S4096x384_S4096x3_0_315 : ∀ a, (![0, 315] : Fin 2 → Nat) a + S4096x3.size a ≤ S4096x384.size a
  inb_S4096x384_S4096x6_0_318 : ∀ a, (![0, 318] : Fin 2 → Nat) a + S4096x6.size a ≤ S4096x384.size a
  inb_S4096x256_S4096x4_0_212 : ∀ a, (![0, 212] : Fin 2 → Nat) a + S4096x4.size a ≤ S4096x256.size a
  inb_S4096x384_S4096x3_0_318 : ∀ a, (![0, 318] : Fin 2 → Nat) a + S4096x3.size a ≤ S4096x384.size a
  inb_S4096x384_S4096x3_0_321 : ∀ a, (![0, 321] : Fin 2 → Nat) a + S4096x3.size a ≤ S4096x384.size a
  inb_S4096x384_S4096x6_0_324 : ∀ a, (![0, 324] : Fin 2 → Nat) a + S4096x6.size a ≤ S4096x384.size a
  inb_S4096x256_S4096x4_0_216 : ∀ a, (![0, 216] : Fin 2 → Nat) a + S4096x4.size a ≤ S4096x256.size a
  inb_S4096x384_S4096x3_0_324 : ∀ a, (![0, 324] : Fin 2 → Nat) a + S4096x3.size a ≤ S4096x384.size a
  inb_S4096x384_S4096x3_0_327 : ∀ a, (![0, 327] : Fin 2 → Nat) a + S4096x3.size a ≤ S4096x384.size a
  inb_S4096x384_S4096x6_0_330 : ∀ a, (![0, 330] : Fin 2 → Nat) a + S4096x6.size a ≤ S4096x384.size a
  inb_S4096x256_S4096x4_0_220 : ∀ a, (![0, 220] : Fin 2 → Nat) a + S4096x4.size a ≤ S4096x256.size a
  inb_S4096x384_S4096x3_0_330 : ∀ a, (![0, 330] : Fin 2 → Nat) a + S4096x3.size a ≤ S4096x384.size a
  inb_S4096x384_S4096x3_0_333 : ∀ a, (![0, 333] : Fin 2 → Nat) a + S4096x3.size a ≤ S4096x384.size a
  inb_S4096x384_S4096x6_0_336 : ∀ a, (![0, 336] : Fin 2 → Nat) a + S4096x6.size a ≤ S4096x384.size a
  inb_S4096x256_S4096x4_0_224 : ∀ a, (![0, 224] : Fin 2 → Nat) a + S4096x4.size a ≤ S4096x256.size a
  inb_S4096x384_S4096x3_0_336 : ∀ a, (![0, 336] : Fin 2 → Nat) a + S4096x3.size a ≤ S4096x384.size a
  inb_S4096x384_S4096x3_0_339 : ∀ a, (![0, 339] : Fin 2 → Nat) a + S4096x3.size a ≤ S4096x384.size a
  inb_S4096x384_S4096x6_0_342 : ∀ a, (![0, 342] : Fin 2 → Nat) a + S4096x6.size a ≤ S4096x384.size a
  inb_S4096x256_S4096x4_0_228 : ∀ a, (![0, 228] : Fin 2 → Nat) a + S4096x4.size a ≤ S4096x256.size a
  inb_S4096x384_S4096x3_0_342 : ∀ a, (![0, 342] : Fin 2 → Nat) a + S4096x3.size a ≤ S4096x384.size a
  inb_S4096x384_S4096x3_0_345 : ∀ a, (![0, 345] : Fin 2 → Nat) a + S4096x3.size a ≤ S4096x384.size a
  inb_S4096x384_S4096x6_0_348 : ∀ a, (![0, 348] : Fin 2 → Nat) a + S4096x6.size a ≤ S4096x384.size a
  inb_S4096x256_S4096x4_0_232 : ∀ a, (![0, 232] : Fin 2 → Nat) a + S4096x4.size a ≤ S4096x256.size a
  inb_S4096x384_S4096x3_0_348 : ∀ a, (![0, 348] : Fin 2 → Nat) a + S4096x3.size a ≤ S4096x384.size a
  inb_S4096x384_S4096x3_0_351 : ∀ a, (![0, 351] : Fin 2 → Nat) a + S4096x3.size a ≤ S4096x384.size a
  inb_S4096x384_S4096x6_0_354 : ∀ a, (![0, 354] : Fin 2 → Nat) a + S4096x6.size a ≤ S4096x384.size a
  inb_S4096x256_S4096x4_0_236 : ∀ a, (![0, 236] : Fin 2 → Nat) a + S4096x4.size a ≤ S4096x256.size a
  inb_S4096x384_S4096x3_0_354 : ∀ a, (![0, 354] : Fin 2 → Nat) a + S4096x3.size a ≤ S4096x384.size a
  inb_S4096x384_S4096x3_0_357 : ∀ a, (![0, 357] : Fin 2 → Nat) a + S4096x3.size a ≤ S4096x384.size a
  inb_S4096x384_S4096x6_0_360 : ∀ a, (![0, 360] : Fin 2 → Nat) a + S4096x6.size a ≤ S4096x384.size a
  inb_S4096x256_S4096x4_0_240 : ∀ a, (![0, 240] : Fin 2 → Nat) a + S4096x4.size a ≤ S4096x256.size a
  inb_S4096x384_S4096x3_0_360 : ∀ a, (![0, 360] : Fin 2 → Nat) a + S4096x3.size a ≤ S4096x384.size a
  inb_S4096x384_S4096x3_0_363 : ∀ a, (![0, 363] : Fin 2 → Nat) a + S4096x3.size a ≤ S4096x384.size a
  inb_S4096x384_S4096x6_0_366 : ∀ a, (![0, 366] : Fin 2 → Nat) a + S4096x6.size a ≤ S4096x384.size a
  inb_S4096x256_S4096x4_0_244 : ∀ a, (![0, 244] : Fin 2 → Nat) a + S4096x4.size a ≤ S4096x256.size a
  inb_S4096x384_S4096x3_0_366 : ∀ a, (![0, 366] : Fin 2 → Nat) a + S4096x3.size a ≤ S4096x384.size a
  inb_S4096x384_S4096x3_0_369 : ∀ a, (![0, 369] : Fin 2 → Nat) a + S4096x3.size a ≤ S4096x384.size a
  inb_S4096x384_S4096x6_0_372 : ∀ a, (![0, 372] : Fin 2 → Nat) a + S4096x6.size a ≤ S4096x384.size a
  inb_S4096x256_S4096x4_0_248 : ∀ a, (![0, 248] : Fin 2 → Nat) a + S4096x4.size a ≤ S4096x256.size a
  inb_S4096x384_S4096x3_0_372 : ∀ a, (![0, 372] : Fin 2 → Nat) a + S4096x3.size a ≤ S4096x384.size a
  inb_S4096x384_S4096x3_0_375 : ∀ a, (![0, 375] : Fin 2 → Nat) a + S4096x3.size a ≤ S4096x384.size a
  inb_S4096x384_S4096x6_0_378 : ∀ a, (![0, 378] : Fin 2 → Nat) a + S4096x6.size a ≤ S4096x384.size a
  inb_S4096x256_S4096x4_0_252 : ∀ a, (![0, 252] : Fin 2 → Nat) a + S4096x4.size a ≤ S4096x256.size a
  inb_S4096x384_S4096x3_0_378 : ∀ a, (![0, 378] : Fin 2 → Nat) a + S4096x3.size a ≤ S4096x384.size a
  inb_S4096x384_S4096x3_0_381 : ∀ a, (![0, 381] : Fin 2 → Nat) a + S4096x3.size a ≤ S4096x384.size a
  shapeCasts_S62500x384_S4000000x6 : S62500x384.ShapeCasts S4000000x6
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x384.size a < S62500x384.size a
  hwx0_0 : ∀ i : grid0.Coords, EltTy.bits .f32 = 32 ∨ (Rect.unit (s := S62500x384) (fun a => cc0_transform_0 i a * S4096x384.size a) (fun a => (Pipeline.Clip.of (cc0_transform_0 i a) (S4096x384.size a) (S62500x384.size a)).extent (S4096x384.size a)) fun a => Pipeline.Clip.inb (Pipeline.Clip.ok_of (hstart0_0 i a))).WholeWords (EltTy.packing .f32)
  hwxs0_0 : ∀ i : grid0.Coords, EltTy.bits .f32 = 32 ∨ (Rect.unit (s := S4096x384) (fun _ => 0) (fun a => (Pipeline.Clip.of (cc0_transform_0 i a) (S4096x384.size a) (S62500x384.size a)).extent (S4096x384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x256.size a < S62500x256.size a
  hwx0_1 : ∀ i : grid0.Coords, EltTy.bits .f32 = 32 ∨ (Rect.unit (s := S62500x256) (fun a => cc0_transform_1 i a * S4096x256.size a) (fun a => (Pipeline.Clip.of (cc0_transform_1 i a) (S4096x256.size a) (S62500x256.size a)).extent (S4096x256.size a)) fun a => Pipeline.Clip.inb (Pipeline.Clip.ok_of (hstart0_1 i a))).WholeWords (EltTy.packing .f32)
  hwxs0_1 : ∀ i : grid0.Coords, EltTy.bits .f32 = 32 ∨ (Rect.unit (s := S4096x256) (fun _ => 0) (fun a => (Pipeline.Clip.of (cc0_transform_1 i a) (S4096x256.size a) (S62500x256.size a)).extent (S4096x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x384.size a < S62500x384.size a
  hwx0_2 : ∀ i : grid0.Coords, EltTy.bits .f32 = 32 ∨ (Rect.unit (s := S62500x384) (fun a => cc0_transform_2 i a * S4096x384.size a) (fun a => (Pipeline.Clip.of (cc0_transform_2 i a) (S4096x384.size a) (S62500x384.size a)).extent (S4096x384.size a)) fun a => Pipeline.Clip.inb (Pipeline.Clip.ok_of (hstart0_2 i a))).WholeWords (EltTy.packing .f32)
  hwxs0_2 : ∀ i : grid0.Coords, EltTy.bits .f32 = 32 ∨ (Rect.unit (s := S4096x384) (fun _ => 0) (fun a => (Pipeline.Clip.of (cc0_transform_2 i a) (S4096x384.size a) (S62500x384.size a)).extent (S4096x384.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_v0) S4096x384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S4096x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S4096x384.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x6 : Shape := ⟨2, ![4000000, 6]⟩
abbrev S4000000x4 : Shape := ⟨2, ![4000000, 4]⟩
abbrev S4000000x1 : Shape := ⟨2, ![4000000, 1]⟩
abbrev S4000000x3 : Shape := ⟨2, ![4000000, 3]⟩

abbrev nBuf : Space → Nat
  | .hbm => 17
  | .vmem => 0
  | .smem => 0
  | _ => 0

abbrev bufTy : (tb : Table) → Fin (tcTables nBuf tb) → BufTy
  | .hbm, ⟨0, _⟩ => ⟨S4000000x6, .f32⟩
  | .hbm, ⟨1, _⟩ => ⟨S4000000x4, .f32⟩
  | .hbm, ⟨2, _⟩ => ⟨S4000000x1, .f32⟩
  | .hbm, ⟨3, _⟩ => ⟨S4000000x1, .f32⟩
  | .hbm, ⟨4, _⟩ => ⟨S4000000x1, .f32⟩
  | .hbm, ⟨5, _⟩ => ⟨S4000000x1, .f32⟩
  | .hbm, ⟨6, _⟩ => ⟨S4000000x3, .f32⟩
  | .hbm, ⟨7, _⟩ => ⟨S4000000x3, .f32⟩
  | .hbm, ⟨8, _⟩ => ⟨S4000000x3, .f32⟩
  | .hbm, ⟨9, _⟩ => ⟨S4000000x3, .f32⟩
  | .hbm, ⟨10, _⟩ => ⟨S4000000x3, .f32⟩
  | .hbm, ⟨11, _⟩ => ⟨S4000000x3, .f32⟩
  | .hbm, ⟨12, _⟩ => ⟨S4000000x3, .f32⟩
  | .hbm, ⟨13, _⟩ => ⟨S4000000x3, .f32⟩
  | .hbm, ⟨14, _⟩ => ⟨S4000000x3, .f32⟩
  | .hbm, ⟨15, _⟩ => ⟨S4000000x3, .f32⟩
  | .hbm, ⟨16, _⟩ => ⟨S4000000x6, .f32⟩
  | _, _ => ⟨S4000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v5 : Ref sig .tc := ⟨.hbm, 10, rfl⟩
abbrev main_v6 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  slices_S4000000x4_S4000000x1_0_0 : S4000000x4.Slices ![0, 0] S4000000x1
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  slices_S4000000x6_S4000000x3_0_0 : S4000000x6.Slices ![0, 0] S4000000x3
  bcast_S4000000x1_S4000000x3_0_1 : S4000000x1.BroadcastsInDim S4000000x3 (![0, 1] : Fin 2 → Fin S4000000x3.rank)
  slices_S4000000x6_S4000000x3_0_3 : S4000000x6.Slices ![0, 3] S4000000x3
  concatenates_S4000000x3_S4000000x3_S4000000x6_d1 : Shape.Concatenates [S4000000x3, S4000000x3] S4000000x6 1

variable [Facts₀]

class Facts : Prop extends Facts₀ where

variable [Facts]
-- ==== Proof.KPieces.lean ====
/-
  What the clamp body leaves in its result block, as data: the body reads, for each of the 64 groups g of a packed line,
  six value columns [6g, 6g+6) and four bound columns [4g, 4g+4) of all 4096 lines of its blocks, and stores two strips
  of three columns, [6g, 6g+3) and [6g+3, 6g+6). The 128 strips tile the 4096 × 384 block, so what the block holds
  afterwards is the overlay of the 128 stored strips whatever it held before.
-/
import proofs.«178242_j27358941676275_2_alg».proof.Proof.Gen.Kernel.Skeleton
import Idealize.ShloMosaic.Lib.Pipeline.FrameBody
import Idealize.ShloMosaic.Lib.Writes

set_option maxRecDepth 16384

noncomputable section

namespace Cert.Kernel.Body

open Cert.Kernel Cert.Kernel.Gen
open Idealize.ShloMosaic Idealize.SL.Sem

variable {F : FTy → Type} [FloatOps F]

/-! ## The rectangles the body reads and writes, group by group -/

abbrev ry0 : Rect S4096x384 := Rect.unit (s := S4096x384) ![0, 0] S4096x6.size inb_S4096x384_S4096x6_0_0
abbrev rc0 : Rect S4096x256 := Rect.unit (s := S4096x256) ![0, 0] S4096x4.size inb_S4096x256_S4096x4_0_0
abbrev rl0 : Rect S4096x384 := Rect.unit (s := S4096x384) ![0, 0] S4096x3.size inb_S4096x384_S4096x3_0_0
abbrev rh0 : Rect S4096x384 := Rect.unit (s := S4096x384) ![0, 3] S4096x3.size inb_S4096x384_S4096x3_0_3
abbrev ry1 : Rect S4096x384 := Rect.unit (s := S4096x384) ![0, 6] S4096x6.size inb_S4096x384_S4096x6_0_6
abbrev rc1 : Rect S4096x256 := Rect.unit (s := S4096x256) ![0, 4] S4096x4.size inb_S4096x256_S4096x4_0_4
abbrev rl1 : Rect S4096x384 := Rect.unit (s := S4096x384) ![0, 6] S4096x3.size inb_S4096x384_S4096x3_0_6
abbrev rh1 : Rect S4096x384 := Rect.unit (s := S4096x384) ![0, 9] S4096x3.size inb_S4096x384_S4096x3_0_9
abbrev ry2 : Rect S4096x384 := Rect.unit (s := S4096x384) ![0, 12] S4096x6.size inb_S4096x384_S4096x6_0_12
abbrev rc2 : Rect S4096x256 := Rect.unit (s := S4096x256) ![0, 8] S4096x4.size inb_S4096x256_S4096x4_0_8
abbrev rl2 : Rect S4096x384 := Rect.unit (s := S4096x384) ![0, 12] S4096x3.size inb_S4096x384_S4096x3_0_12
abbrev rh2 : Rect S4096x384 := Rect.unit (s := S4096x384) ![0, 15] S4096x3.size inb_S4096x384_S4096x3_0_15
abbrev ry3 : Rect S4096x384 := Rect.unit (s := S4096x384) ![0, 18] S4096x6.size inb_S4096x384_S4096x6_0_18
abbrev rc3 : Rect S4096x256 := Rect.unit (s := S4096x256) ![0, 12] S4096x4.size inb_S4096x256_S4096x4_0_12
abbrev rl3 : Rect S4096x384 := Rect.unit (s := S4096x384) ![0, 18] S4096x3.size inb_S4096x384_S4096x3_0_18
abbrev rh3 : Rect S4096x384 := Rect.unit (s := S4096x384) ![0, 21] S4096x3.size inb_S4096x384_S4096x3_0_21
abbrev ry4 : Rect S4096x384 := Rect.unit (s := S4096x384) ![0, 24] S4096x6.size inb_S4096x384_S4096x6_0_24
abbrev rc4 : Rect S4096x256 := Rect.unit (s := S4096x256) ![0, 16] S4096x4.size inb_S4096x256_S4096x4_0_16
abbrev rl4 : Rect S4096x384 := Rect.unit (s := S4096x384) ![0, 24] S4096x3.size inb_S4096x384_S4096x3_0_24
abbrev rh4 : Rect S4096x384 := Rect.unit (s := S4096x384) ![0, 27] S4096x3.size inb_S4096x384_S4096x3_0_27
abbrev ry5 : Rect S4096x384 := Rect.unit (s := S4096x384) ![0, 30] S4096x6.size inb_S4096x384_S4096x6_0_30
abbrev rc5 : Rect S4096x256 := Rect.unit (s := S4096x256) ![0, 20] S4096x4.size inb_S4096x256_S4096x4_0_20
abbrev rl5 : Rect S4096x384 := Rect.unit (s := S4096x384) ![0, 30] S4096x3.size inb_S4096x384_S4096x3_0_30
abbrev rh5 : Rect S4096x384 := Rect.unit (s := S4096x384) ![0, 33] S4096x3.size inb_S4096x384_S4096x3_0_33
abbrev ry6 : Rect S4096x384 := Rect.unit (s := S4096x384) ![0, 36] S4096x6.size inb_S4096x384_S4096x6_0_36
abbrev rc6 : Rect S4096x256 := Rect.unit (s := S4096x256) ![0, 24] S4096x4.size inb_S4096x256_S4096x4_0_24
abbrev rl6 : Rect S4096x384 := Rect.unit (s := S4096x384) ![0, 36] S4096x3.size inb_S4096x384_S4096x3_0_36
abbrev rh6 : Rect S4096x384 := Rect.unit (s := S4096x384) ![0, 39] S4096x3.size inb_S4096x384_S4096x3_0_39
abbrev ry7 : Rect S4096x384 := Rect.unit (s := S4096x384) ![0, 42] S4096x6.size inb_S4096x384_S4096x6_0_42
abbrev rc7 : Rect S4096x256 := Rect.unit (s := S4096x256) ![0, 28] S4096x4.size inb_S4096x256_S4096x4_0_28
abbrev rl7 : Rect S4096x384 := Rect.unit (s := S4096x384) ![0, 42] S4096x3.size inb_S4096x384_S4096x3_0_42
abbrev rh7 : Rect S4096x384 := Rect.unit (s := S4096x384) ![0, 45] S4096x3.size inb_S4096x384_S4096x3_0_45
abbrev ry8 : Rect S4096x384 := Rect.unit (s := S4096x384) ![0, 48] S4096x6.size inb_S4096x384_S4096x6_0_48
abbrev rc8 : Rect S4096x256 := Rect.unit (s := S4096x256) ![0, 32] S4096x4.size inb_S4096x256_S4096x4_0_32
abbrev rl8 : Rect S4096x384 := Rect.unit (s := S4096x384) ![0, 48] S4096x3.size inb_S4096x384_S4096x3_0_48
abbrev rh8 : Rect S4096x384 := Rect.unit (s := S4096x384) ![0, 51] S4096x3.size inb_S4096x384_S4096x3_0_51
abbrev ry9 : Rect S4096x384 := Rect.unit (s := S4096x384) ![0, 54] S4096x6.size inb_S4096x384_S4096x6_0_54
abbrev rc9 : Rect S4096x256 := Rect.unit (s := S4096x256) ![0, 36] S4096x4.size inb_S4096x256_S4096x4_0_36
abbrev rl9 : Rect S4096x384 := Rect.unit (s := S4096x384) ![0, 54] S4096x3.size inb_S4096x384_S4096x3_0_54
abbrev rh9 : Rect S4096x384 := Rect.unit (s := S4096x384) ![0, 57] S4096x3.size inb_S4096x384_S4096x3_0_57
abbrev ry10 : Rect S4096x384 := Rect.unit (s := S4096x384) ![0, 60] S4096x6.size inb_S4096x384_S4096x6_0_60
abbrev rc10 : Rect S4096x256 := Rect.unit (s := S4096x256) ![0, 40] S4096x4.size inb_S4096x256_S4096x4_0_40
abbrev rl10 : Rect S4096x384 := Rect.unit (s := S4096x384) ![0, 60] S4096x3.size inb_S4096x384_S4096x3_0_60
abbrev rh10 : Rect S4096x384 := Rect.unit (s := S4096x384) ![0, 63] S4096x3.size inb_S4096x384_S4096x3_0_63
abbrev ry11 : Rect S4096x384 := Rect.unit (s := S4096x384) ![0, 66] S4096x6.size inb_S4096x384_S4096x6_0_66
abbrev rc11 : Rect S4096x256 := Rect.unit (s := S4096x256) ![0, 44] S4096x4.size inb_S4096x256_S4096x4_0_44
abbrev rl11 : Rect S4096x384 := Rect.unit (s := S4096x384) ![0, 66] S4096x3.size inb_S4096x384_S4096x3_0_66
abbrev rh11 : Rect S4096x384 := Rect.unit (s := S4096x384) ![0, 69] S4096x3.size inb_S4096x384_S4096x3_0_69
abbrev ry12 : Rect S4096x384 := Rect.unit (s := S4096x384) ![0, 72] S4096x6.size inb_S4096x384_S4096x6_0_72
abbrev rc12 : Rect S4096x256 := Rect.unit (s := S4096x256) ![0, 48] S4096x4.size inb_S4096x256_S4096x4_0_48
abbrev rl12 : Rect S4096x384 := Rect.unit (s := S4096x384) ![0, 72] S4096x3.size inb_S4096x384_S4096x3_0_72
abbrev rh12 : Rect S4096x384 := Rect.unit (s := S4096x384) ![0, 75] S4096x3.size inb_S4096x384_S4096x3_0_75
abbrev ry13 : Rect S4096x384 := Rect.unit (s := S4096x384) ![0, 78] S4096x6.size inb_S4096x384_S4096x6_0_78
abbrev rc13 : Rect S4096x256 := Rect.unit (s := S4096x256) ![0, 52] S4096x4.size inb_S4096x256_S4096x4_0_52
abbrev rl13 : Rect S4096x384 := Rect.unit (s := S4096x384) ![0, 78] S4096x3.size inb_S4096x384_S4096x3_0_78
abbrev rh13 : Rect S4096x384 := Rect.unit (s := S4096x384) ![0, 81] S4096x3.size inb_S4096x384_S4096x3_0_81
abbrev ry14 : Rect S4096x384 := Rect.unit (s := S4096x384) ![0, 84] S4096x6.size inb_S4096x384_S4096x6_0_84
abbrev rc14 : Rect S4096x256 := Rect.unit (s := S4096x256) ![0, 56] S4096x4.size inb_S4096x256_S4096x4_0_56
abbrev rl14 : Rect S4096x384 := Rect.unit (s := S4096x384) ![0, 84] S4096x3.size inb_S4096x384_S4096x3_0_84
abbrev rh14 : Rect S4096x384 := Rect.unit (s := S4096x384) ![0, 87] S4096x3.size inb_S4096x384_S4096x3_0_87
abbrev ry15 : Rect S4096x384 := Rect.unit (s := S4096x384) ![0, 90] S4096x6.size inb_S4096x384_S4096x6_0_90
abbrev rc15 : Rect S4096x256 := Rect.unit (s := S4096x256) ![0, 60] S4096x4.size inb_S4096x256_S4096x4_0_60
abbrev rl15 : Rect S4096x384 := Rect.unit (s := S4096x384) ![0, 90] S4096x3.size inb_S4096x384_S4096x3_0_90
abbrev rh15 : Rect S4096x384 := Rect.unit (s := S4096x384) ![0, 93] S4096x3.size inb_S4096x384_S4096x3_0_93
abbrev ry16 : Rect S4096x384 := Rect.unit (s := S4096x384) ![0, 96] S4096x6.size inb_S4096x384_S4096x6_0_96
abbrev rc16 : Rect S4096x256 := Rect.unit (s := S4096x256) ![0, 64] S4096x4.size inb_S4096x256_S4096x4_0_64
abbrev rl16 : Rect S4096x384 := Rect.unit (s := S4096x384) ![0, 96] S4096x3.size inb_S4096x384_S4096x3_0_96
abbrev rh16 : Rect S4096x384 := Rect.unit (s := S4096x384) ![0, 99] S4096x3.size inb_S4096x384_S4096x3_0_99
abbrev ry17 : Rect S4096x384 := Rect.unit (s := S4096x384) ![0, 102] S4096x6.size inb_S4096x384_S4096x6_0_102
abbrev rc17 : Rect S4096x256 := Rect.unit (s := S4096x256) ![0, 68] S4096x4.size inb_S4096x256_S4096x4_0_68
abbrev rl17 : Rect S4096x384 := Rect.unit (s := S4096x384) ![0, 102] S4096x3.size inb_S4096x384_S4096x3_0_102
abbrev rh17 : Rect S4096x384 := Rect.unit (s := S4096x384) ![0, 105] S4096x3.size inb_S4096x384_S4096x3_0_105
abbrev ry18 : Rect S4096x384 := Rect.unit (s := S4096x384) ![0, 108] S4096x6.size inb_S4096x384_S4096x6_0_108
abbrev rc18 : Rect S4096x256 := Rect.unit (s := S4096x256) ![0, 72] S4096x4.size inb_S4096x256_S4096x4_0_72
abbrev rl18 : Rect S4096x384 := Rect.unit (s := S4096x384) ![0, 108] S4096x3.size inb_S4096x384_S4096x3_0_108
abbrev rh18 : Rect S4096x384 := Rect.unit (s := S4096x384) ![0, 111] S4096x3.size inb_S4096x384_S4096x3_0_111
abbrev ry19 : Rect S4096x384 := Rect.unit (s := S4096x384) ![0, 114] S4096x6.size inb_S4096x384_S4096x6_0_114
abbrev rc19 : Rect S4096x256 := Rect.unit (s := S4096x256) ![0, 76] S4096x4.size inb_S4096x256_S4096x4_0_76
abbrev rl19 : Rect S4096x384 := Rect.unit (s := S4096x384) ![0, 114] S4096x3.size inb_S4096x384_S4096x3_0_114
abbrev rh19 : Rect S4096x384 := Rect.unit (s := S4096x384) ![0, 117] S4096x3.size inb_S4096x384_S4096x3_0_117
abbrev ry20 : Rect S4096x384 := Rect.unit (s := S4096x384) ![0, 120] S4096x6.size inb_S4096x384_S4096x6_0_120
abbrev rc20 : Rect S4096x256 := Rect.unit (s := S4096x256) ![0, 80] S4096x4.size inb_S4096x256_S4096x4_0_80
abbrev rl20 : Rect S4096x384 := Rect.unit (s := S4096x384) ![0, 120] S4096x3.size inb_S4096x384_S4096x3_0_120
abbrev rh20 : Rect S4096x384 := Rect.unit (s := S4096x384) ![0, 123] S4096x3.size inb_S4096x384_S4096x3_0_123
abbrev ry21 : Rect S4096x384 := Rect.unit (s := S4096x384) ![0, 126] S4096x6.size inb_S4096x384_S4096x6_0_126
abbrev rc21 : Rect S4096x256 := Rect.unit (s := S4096x256) ![0, 84] S4096x4.size inb_S4096x256_S4096x4_0_84
abbrev rl21 : Rect S4096x384 := Rect.unit (s := S4096x384) ![0, 126] S4096x3.size inb_S4096x384_S4096x3_0_126
abbrev rh21 : Rect S4096x384 := Rect.unit (s := S4096x384) ![0, 129] S4096x3.size inb_S4096x384_S4096x3_0_129
abbrev ry22 : Rect S4096x384 := Rect.unit (s := S4096x384) ![0, 132] S4096x6.size inb_S4096x384_S4096x6_0_132
abbrev rc22 : Rect S4096x256 := Rect.unit (s := S4096x256) ![0, 88] S4096x4.size inb_S4096x256_S4096x4_0_88
abbrev rl22 : Rect S4096x384 := Rect.unit (s := S4096x384) ![0, 132] S4096x3.size inb_S4096x384_S4096x3_0_132
abbrev rh22 : Rect S4096x384 := Rect.unit (s := S4096x384) ![0, 135] S4096x3.size inb_S4096x384_S4096x3_0_135
abbrev ry23 : Rect S4096x384 := Rect.unit (s := S4096x384) ![0, 138] S4096x6.size inb_S4096x384_S4096x6_0_138
abbrev rc23 : Rect S4096x256 := Rect.unit (s := S4096x256) ![0, 92] S4096x4.size inb_S4096x256_S4096x4_0_92
abbrev rl23 : Rect S4096x384 := Rect.unit (s := S4096x384) ![0, 138] S4096x3.size inb_S4096x384_S4096x3_0_138
abbrev rh23 : Rect S4096x384 := Rect.unit (s := S4096x384) ![0, 141] S4096x3.size inb_S4096x384_S4096x3_0_141
abbrev ry24 : Rect S4096x384 := Rect.unit (s := S4096x384) ![0, 144] S4096x6.size inb_S4096x384_S4096x6_0_144
abbrev rc24 : Rect S4096x256 := Rect.unit (s := S4096x256) ![0, 96] S4096x4.size inb_S4096x256_S4096x4_0_96
abbrev rl24 : Rect S4096x384 := Rect.unit (s := S4096x384) ![0, 144] S4096x3.size inb_S4096x384_S4096x3_0_144
abbrev rh24 : Rect S4096x384 := Rect.unit (s := S4096x384) ![0, 147] S4096x3.size inb_S4096x384_S4096x3_0_147
abbrev ry25 : Rect S4096x384 := Rect.unit (s := S4096x384) ![0, 150] S4096x6.size inb_S4096x384_S4096x6_0_150
abbrev rc25 : Rect S4096x256 := Rect.unit (s := S4096x256) ![0, 100] S4096x4.size inb_S4096x256_S4096x4_0_100
abbrev rl25 : Rect S4096x384 := Rect.unit (s := S4096x384) ![0, 150] S4096x3.size inb_S4096x384_S4096x3_0_150
abbrev rh25 : Rect S4096x384 := Rect.unit (s := S4096x384) ![0, 153] S4096x3.size inb_S4096x384_S4096x3_0_153
abbrev ry26 : Rect S4096x384 := Rect.unit (s := S4096x384) ![0, 156] S4096x6.size inb_S4096x384_S4096x6_0_156
abbrev rc26 : Rect S4096x256 := Rect.unit (s := S4096x256) ![0, 104] S4096x4.size inb_S4096x256_S4096x4_0_104
abbrev rl26 : Rect S4096x384 := Rect.unit (s := S4096x384) ![0, 156] S4096x3.size inb_S4096x384_S4096x3_0_156
abbrev rh26 : Rect S4096x384 := Rect.unit (s := S4096x384) ![0, 159] S4096x3.size inb_S4096x384_S4096x3_0_159
abbrev ry27 : Rect S4096x384 := Rect.unit (s := S4096x384) ![0, 162] S4096x6.size inb_S4096x384_S4096x6_0_162
abbrev rc27 : Rect S4096x256 := Rect.unit (s := S4096x256) ![0, 108] S4096x4.size inb_S4096x256_S4096x4_0_108
abbrev rl27 : Rect S4096x384 := Rect.unit (s := S4096x384) ![0, 162] S4096x3.size inb_S4096x384_S4096x3_0_162
abbrev rh27 : Rect S4096x384 := Rect.unit (s := S4096x384) ![0, 165] S4096x3.size inb_S4096x384_S4096x3_0_165
abbrev ry28 : Rect S4096x384 := Rect.unit (s := S4096x384) ![0, 168] S4096x6.size inb_S4096x384_S4096x6_0_168
abbrev rc28 : Rect S4096x256 := Rect.unit (s := S4096x256) ![0, 112] S4096x4.size inb_S4096x256_S4096x4_0_112
abbrev rl28 : Rect S4096x384 := Rect.unit (s := S4096x384) ![0, 168] S4096x3.size inb_S4096x384_S4096x3_0_168
abbrev rh28 : Rect S4096x384 := Rect.unit (s := S4096x384) ![0, 171] S4096x3.size inb_S4096x384_S4096x3_0_171
abbrev ry29 : Rect S4096x384 := Rect.unit (s := S4096x384) ![0, 174] S4096x6.size inb_S4096x384_S4096x6_0_174
abbrev rc29 : Rect S4096x256 := Rect.unit (s := S4096x256) ![0, 116] S4096x4.size inb_S4096x256_S4096x4_0_116
abbrev rl29 : Rect S4096x384 := Rect.unit (s := S4096x384) ![0, 174] S4096x3.size inb_S4096x384_S4096x3_0_174
abbrev rh29 : Rect S4096x384 := Rect.unit (s := S4096x384) ![0, 177] S4096x3.size inb_S4096x384_S4096x3_0_177
abbrev ry30 : Rect S4096x384 := Rect.unit (s := S4096x384) ![0, 180] S4096x6.size inb_S4096x384_S4096x6_0_180
abbrev rc30 : Rect S4096x256 := Rect.unit (s := S4096x256) ![0, 120] S4096x4.size inb_S4096x256_S4096x4_0_120
abbrev rl30 : Rect S4096x384 := Rect.unit (s := S4096x384) ![0, 180] S4096x3.size inb_S4096x384_S4096x3_0_180
abbrev rh30 : Rect S4096x384 := Rect.unit (s := S4096x384) ![0, 183] S4096x3.size inb_S4096x384_S4096x3_0_183
abbrev ry31 : Rect S4096x384 := Rect.unit (s := S4096x384) ![0, 186] S4096x6.size inb_S4096x384_S4096x6_0_186
abbrev rc31 : Rect S4096x256 := Rect.unit (s := S4096x256) ![0, 124] S4096x4.size inb_S4096x256_S4096x4_0_124
abbrev rl31 : Rect S4096x384 := Rect.unit (s := S4096x384) ![0, 186] S4096x3.size inb_S4096x384_S4096x3_0_186
abbrev rh31 : Rect S4096x384 := Rect.unit (s := S4096x384) ![0, 189] S4096x3.size inb_S4096x384_S4096x3_0_189
abbrev ry32 : Rect S4096x384 := Rect.unit (s := S4096x384) ![0, 192] S4096x6.size inb_S4096x384_S4096x6_0_192
abbrev rc32 : Rect S4096x256 := Rect.unit (s := S4096x256) ![0, 128] S4096x4.size inb_S4096x256_S4096x4_0_128
abbrev rl32 : Rect S4096x384 := Rect.unit (s := S4096x384) ![0, 192] S4096x3.size inb_S4096x384_S4096x3_0_192
abbrev rh32 : Rect S4096x384 := Rect.unit (s := S4096x384) ![0, 195] S4096x3.size inb_S4096x384_S4096x3_0_195
abbrev ry33 : Rect S4096x384 := Rect.unit (s := S4096x384) ![0, 198] S4096x6.size inb_S4096x384_S4096x6_0_198
abbrev rc33 : Rect S4096x256 := Rect.unit (s := S4096x256) ![0, 132] S4096x4.size inb_S4096x256_S4096x4_0_132
abbrev rl33 : Rect S4096x384 := Rect.unit (s := S4096x384) ![0, 198] S4096x3.size inb_S4096x384_S4096x3_0_198
abbrev rh33 : Rect S4096x384 := Rect.unit (s := S4096x384) ![0, 201] S4096x3.size inb_S4096x384_S4096x3_0_201
abbrev ry34 : Rect S4096x384 := Rect.unit (s := S4096x384) ![0, 204] S4096x6.size inb_S4096x384_S4096x6_0_204
abbrev rc34 : Rect S4096x256 := Rect.unit (s := S4096x256) ![0, 136] S4096x4.size inb_S4096x256_S4096x4_0_136
abbrev rl34 : Rect S4096x384 := Rect.unit (s := S4096x384) ![0, 204] S4096x3.size inb_S4096x384_S4096x3_0_204
abbrev rh34 : Rect S4096x384 := Rect.unit (s := S4096x384) ![0, 207] S4096x3.size inb_S4096x384_S4096x3_0_207
abbrev ry35 : Rect S4096x384 := Rect.unit (s := S4096x384) ![0, 210] S4096x6.size inb_S4096x384_S4096x6_0_210
abbrev rc35 : Rect S4096x256 := Rect.unit (s := S4096x256) ![0, 140] S4096x4.size inb_S4096x256_S4096x4_0_140
abbrev rl35 : Rect S4096x384 := Rect.unit (s := S4096x384) ![0, 210] S4096x3.size inb_S4096x384_S4096x3_0_210
abbrev rh35 : Rect S4096x384 := Rect.unit (s := S4096x384) ![0, 213] S4096x3.size inb_S4096x384_S4096x3_0_213
abbrev ry36 : Rect S4096x384 := Rect.unit (s := S4096x384) ![0, 216] S4096x6.size inb_S4096x384_S4096x6_0_216
abbrev rc36 : Rect S4096x256 := Rect.unit (s := S4096x256) ![0, 144] S4096x4.size inb_S4096x256_S4096x4_0_144
abbrev rl36 : Rect S4096x384 := Rect.unit (s := S4096x384) ![0, 216] S4096x3.size inb_S4096x384_S4096x3_0_216
abbrev rh36 : Rect S4096x384 := Rect.unit (s := S4096x384) ![0, 219] S4096x3.size inb_S4096x384_S4096x3_0_219
abbrev ry37 : Rect S4096x384 := Rect.unit (s := S4096x384) ![0, 222] S4096x6.size inb_S4096x384_S4096x6_0_222
abbrev rc37 : Rect S4096x256 := Rect.unit (s := S4096x256) ![0, 148] S4096x4.size inb_S4096x256_S4096x4_0_148
abbrev rl37 : Rect S4096x384 := Rect.unit (s := S4096x384) ![0, 222] S4096x3.size inb_S4096x384_S4096x3_0_222
abbrev rh37 : Rect S4096x384 := Rect.unit (s := S4096x384) ![0, 225] S4096x3.size inb_S4096x384_S4096x3_0_225
abbrev ry38 : Rect S4096x384 := Rect.unit (s := S4096x384) ![0, 228] S4096x6.size inb_S4096x384_S4096x6_0_228
abbrev rc38 : Rect S4096x256 := Rect.unit (s := S4096x256) ![0, 152] S4096x4.size inb_S4096x256_S4096x4_0_152
abbrev rl38 : Rect S4096x384 := Rect.unit (s := S4096x384) ![0, 228] S4096x3.size inb_S4096x384_S4096x3_0_228
abbrev rh38 : Rect S4096x384 := Rect.unit (s := S4096x384) ![0, 231] S4096x3.size inb_S4096x384_S4096x3_0_231
abbrev ry39 : Rect S4096x384 := Rect.unit (s := S4096x384) ![0, 234] S4096x6.size inb_S4096x384_S4096x6_0_234
abbrev rc39 : Rect S4096x256 := Rect.unit (s := S4096x256) ![0, 156] S4096x4.size inb_S4096x256_S4096x4_0_156
abbrev rl39 : Rect S4096x384 := Rect.unit (s := S4096x384) ![0, 234] S4096x3.size inb_S4096x384_S4096x3_0_234
abbrev rh39 : Rect S4096x384 := Rect.unit (s := S4096x384) ![0, 237] S4096x3.size inb_S4096x384_S4096x3_0_237
abbrev ry40 : Rect S4096x384 := Rect.unit (s := S4096x384) ![0, 240] S4096x6.size inb_S4096x384_S4096x6_0_240
abbrev rc40 : Rect S4096x256 := Rect.unit (s := S4096x256) ![0, 160] S4096x4.size inb_S4096x256_S4096x4_0_160
abbrev rl40 : Rect S4096x384 := Rect.unit (s := S4096x384) ![0, 240] S4096x3.size inb_S4096x384_S4096x3_0_240
abbrev rh40 : Rect S4096x384 := Rect.unit (s := S4096x384) ![0, 243] S4096x3.size inb_S4096x384_S4096x3_0_243
abbrev ry41 : Rect S4096x384 := Rect.unit (s := S4096x384) ![0, 246] S4096x6.size inb_S4096x384_S4096x6_0_246
abbrev rc41 : Rect S4096x256 := Rect.unit (s := S4096x256) ![0, 164] S4096x4.size inb_S4096x256_S4096x4_0_164
abbrev rl41 : Rect S4096x384 := Rect.unit (s := S4096x384) ![0, 246] S4096x3.size inb_S4096x384_S4096x3_0_246
abbrev rh41 : Rect S4096x384 := Rect.unit (s := S4096x384) ![0, 249] S4096x3.size inb_S4096x384_S4096x3_0_249
abbrev ry42 : Rect S4096x384 := Rect.unit (s := S4096x384) ![0, 252] S4096x6.size inb_S4096x384_S4096x6_0_252
abbrev rc42 : Rect S4096x256 := Rect.unit (s := S4096x256) ![0, 168] S4096x4.size inb_S4096x256_S4096x4_0_168
abbrev rl42 : Rect S4096x384 := Rect.unit (s := S4096x384) ![0, 252] S4096x3.size inb_S4096x384_S4096x3_0_252
abbrev rh42 : Rect S4096x384 := Rect.unit (s := S4096x384) ![0, 255] S4096x3.size inb_S4096x384_S4096x3_0_255
abbrev ry43 : Rect S4096x384 := Rect.unit (s := S4096x384) ![0, 258] S4096x6.size inb_S4096x384_S4096x6_0_258
abbrev rc43 : Rect S4096x256 := Rect.unit (s := S4096x256) ![0, 172] S4096x4.size inb_S4096x256_S4096x4_0_172
abbrev rl43 : Rect S4096x384 := Rect.unit (s := S4096x384) ![0, 258] S4096x3.size inb_S4096x384_S4096x3_0_258
abbrev rh43 : Rect S4096x384 := Rect.unit (s := S4096x384) ![0, 261] S4096x3.size inb_S4096x384_S4096x3_0_261
abbrev ry44 : Rect S4096x384 := Rect.unit (s := S4096x384) ![0, 264] S4096x6.size inb_S4096x384_S4096x6_0_264
abbrev rc44 : Rect S4096x256 := Rect.unit (s := S4096x256) ![0, 176] S4096x4.size inb_S4096x256_S4096x4_0_176
abbrev rl44 : Rect S4096x384 := Rect.unit (s := S4096x384) ![0, 264] S4096x3.size inb_S4096x384_S4096x3_0_264
abbrev rh44 : Rect S4096x384 := Rect.unit (s := S4096x384) ![0, 267] S4096x3.size inb_S4096x384_S4096x3_0_267
abbrev ry45 : Rect S4096x384 := Rect.unit (s := S4096x384) ![0, 270] S4096x6.size inb_S4096x384_S4096x6_0_270
abbrev rc45 : Rect S4096x256 := Rect.unit (s := S4096x256) ![0, 180] S4096x4.size inb_S4096x256_S4096x4_0_180
abbrev rl45 : Rect S4096x384 := Rect.unit (s := S4096x384) ![0, 270] S4096x3.size inb_S4096x384_S4096x3_0_270
abbrev rh45 : Rect S4096x384 := Rect.unit (s := S4096x384) ![0, 273] S4096x3.size inb_S4096x384_S4096x3_0_273
abbrev ry46 : Rect S4096x384 := Rect.unit (s := S4096x384) ![0, 276] S4096x6.size inb_S4096x384_S4096x6_0_276
abbrev rc46 : Rect S4096x256 := Rect.unit (s := S4096x256) ![0, 184] S4096x4.size inb_S4096x256_S4096x4_0_184
abbrev rl46 : Rect S4096x384 := Rect.unit (s := S4096x384) ![0, 276] S4096x3.size inb_S4096x384_S4096x3_0_276
abbrev rh46 : Rect S4096x384 := Rect.unit (s := S4096x384) ![0, 279] S4096x3.size inb_S4096x384_S4096x3_0_279
abbrev ry47 : Rect S4096x384 := Rect.unit (s := S4096x384) ![0, 282] S4096x6.size inb_S4096x384_S4096x6_0_282
abbrev rc47 : Rect S4096x256 := Rect.unit (s := S4096x256) ![0, 188] S4096x4.size inb_S4096x256_S4096x4_0_188
abbrev rl47 : Rect S4096x384 := Rect.unit (s := S4096x384) ![0, 282] S4096x3.size inb_S4096x384_S4096x3_0_282
abbrev rh47 : Rect S4096x384 := Rect.unit (s := S4096x384) ![0, 285] S4096x3.size inb_S4096x384_S4096x3_0_285
abbrev ry48 : Rect S4096x384 := Rect.unit (s := S4096x384) ![0, 288] S4096x6.size inb_S4096x384_S4096x6_0_288
abbrev rc48 : Rect S4096x256 := Rect.unit (s := S4096x256) ![0, 192] S4096x4.size inb_S4096x256_S4096x4_0_192
abbrev rl48 : Rect S4096x384 := Rect.unit (s := S4096x384) ![0, 288] S4096x3.size inb_S4096x384_S4096x3_0_288
abbrev rh48 : Rect S4096x384 := Rect.unit (s := S4096x384) ![0, 291] S4096x3.size inb_S4096x384_S4096x3_0_291
abbrev ry49 : Rect S4096x384 := Rect.unit (s := S4096x384) ![0, 294] S4096x6.size inb_S4096x384_S4096x6_0_294
abbrev rc49 : Rect S4096x256 := Rect.unit (s := S4096x256) ![0, 196] S4096x4.size inb_S4096x256_S4096x4_0_196
abbrev rl49 : Rect S4096x384 := Rect.unit (s := S4096x384) ![0, 294] S4096x3.size inb_S4096x384_S4096x3_0_294
abbrev rh49 : Rect S4096x384 := Rect.unit (s := S4096x384) ![0, 297] S4096x3.size inb_S4096x384_S4096x3_0_297
abbrev ry50 : Rect S4096x384 := Rect.unit (s := S4096x384) ![0, 300] S4096x6.size inb_S4096x384_S4096x6_0_300
abbrev rc50 : Rect S4096x256 := Rect.unit (s := S4096x256) ![0, 200] S4096x4.size inb_S4096x256_S4096x4_0_200
abbrev rl50 : Rect S4096x384 := Rect.unit (s := S4096x384) ![0, 300] S4096x3.size inb_S4096x384_S4096x3_0_300
abbrev rh50 : Rect S4096x384 := Rect.unit (s := S4096x384) ![0, 303] S4096x3.size inb_S4096x384_S4096x3_0_303
abbrev ry51 : Rect S4096x384 := Rect.unit (s := S4096x384) ![0, 306] S4096x6.size inb_S4096x384_S4096x6_0_306
abbrev rc51 : Rect S4096x256 := Rect.unit (s := S4096x256) ![0, 204] S4096x4.size inb_S4096x256_S4096x4_0_204
abbrev rl51 : Rect S4096x384 := Rect.unit (s := S4096x384) ![0, 306] S4096x3.size inb_S4096x384_S4096x3_0_306
abbrev rh51 : Rect S4096x384 := Rect.unit (s := S4096x384) ![0, 309] S4096x3.size inb_S4096x384_S4096x3_0_309
abbrev ry52 : Rect S4096x384 := Rect.unit (s := S4096x384) ![0, 312] S4096x6.size inb_S4096x384_S4096x6_0_312
abbrev rc52 : Rect S4096x256 := Rect.unit (s := S4096x256) ![0, 208] S4096x4.size inb_S4096x256_S4096x4_0_208
abbrev rl52 : Rect S4096x384 := Rect.unit (s := S4096x384) ![0, 312] S4096x3.size inb_S4096x384_S4096x3_0_312
abbrev rh52 : Rect S4096x384 := Rect.unit (s := S4096x384) ![0, 315] S4096x3.size inb_S4096x384_S4096x3_0_315
abbrev ry53 : Rect S4096x384 := Rect.unit (s := S4096x384) ![0, 318] S4096x6.size inb_S4096x384_S4096x6_0_318
abbrev rc53 : Rect S4096x256 := Rect.unit (s := S4096x256) ![0, 212] S4096x4.size inb_S4096x256_S4096x4_0_212
abbrev rl53 : Rect S4096x384 := Rect.unit (s := S4096x384) ![0, 318] S4096x3.size inb_S4096x384_S4096x3_0_318
abbrev rh53 : Rect S4096x384 := Rect.unit (s := S4096x384) ![0, 321] S4096x3.size inb_S4096x384_S4096x3_0_321
abbrev ry54 : Rect S4096x384 := Rect.unit (s := S4096x384) ![0, 324] S4096x6.size inb_S4096x384_S4096x6_0_324
abbrev rc54 : Rect S4096x256 := Rect.unit (s := S4096x256) ![0, 216] S4096x4.size inb_S4096x256_S4096x4_0_216
abbrev rl54 : Rect S4096x384 := Rect.unit (s := S4096x384) ![0, 324] S4096x3.size inb_S4096x384_S4096x3_0_324
abbrev rh54 : Rect S4096x384 := Rect.unit (s := S4096x384) ![0, 327] S4096x3.size inb_S4096x384_S4096x3_0_327
abbrev ry55 : Rect S4096x384 := Rect.unit (s := S4096x384) ![0, 330] S4096x6.size inb_S4096x384_S4096x6_0_330
abbrev rc55 : Rect S4096x256 := Rect.unit (s := S4096x256) ![0, 220] S4096x4.size inb_S4096x256_S4096x4_0_220
abbrev rl55 : Rect S4096x384 := Rect.unit (s := S4096x384) ![0, 330] S4096x3.size inb_S4096x384_S4096x3_0_330
abbrev rh55 : Rect S4096x384 := Rect.unit (s := S4096x384) ![0, 333] S4096x3.size inb_S4096x384_S4096x3_0_333
abbrev ry56 : Rect S4096x384 := Rect.unit (s := S4096x384) ![0, 336] S4096x6.size inb_S4096x384_S4096x6_0_336
abbrev rc56 : Rect S4096x256 := Rect.unit (s := S4096x256) ![0, 224] S4096x4.size inb_S4096x256_S4096x4_0_224
abbrev rl56 : Rect S4096x384 := Rect.unit (s := S4096x384) ![0, 336] S4096x3.size inb_S4096x384_S4096x3_0_336
abbrev rh56 : Rect S4096x384 := Rect.unit (s := S4096x384) ![0, 339] S4096x3.size inb_S4096x384_S4096x3_0_339
abbrev ry57 : Rect S4096x384 := Rect.unit (s := S4096x384) ![0, 342] S4096x6.size inb_S4096x384_S4096x6_0_342
abbrev rc57 : Rect S4096x256 := Rect.unit (s := S4096x256) ![0, 228] S4096x4.size inb_S4096x256_S4096x4_0_228
abbrev rl57 : Rect S4096x384 := Rect.unit (s := S4096x384) ![0, 342] S4096x3.size inb_S4096x384_S4096x3_0_342
abbrev rh57 : Rect S4096x384 := Rect.unit (s := S4096x384) ![0, 345] S4096x3.size inb_S4096x384_S4096x3_0_345
abbrev ry58 : Rect S4096x384 := Rect.unit (s := S4096x384) ![0, 348] S4096x6.size inb_S4096x384_S4096x6_0_348
abbrev rc58 : Rect S4096x256 := Rect.unit (s := S4096x256) ![0, 232] S4096x4.size inb_S4096x256_S4096x4_0_232
abbrev rl58 : Rect S4096x384 := Rect.unit (s := S4096x384) ![0, 348] S4096x3.size inb_S4096x384_S4096x3_0_348
abbrev rh58 : Rect S4096x384 := Rect.unit (s := S4096x384) ![0, 351] S4096x3.size inb_S4096x384_S4096x3_0_351
abbrev ry59 : Rect S4096x384 := Rect.unit (s := S4096x384) ![0, 354] S4096x6.size inb_S4096x384_S4096x6_0_354
abbrev rc59 : Rect S4096x256 := Rect.unit (s := S4096x256) ![0, 236] S4096x4.size inb_S4096x256_S4096x4_0_236
abbrev rl59 : Rect S4096x384 := Rect.unit (s := S4096x384) ![0, 354] S4096x3.size inb_S4096x384_S4096x3_0_354
abbrev rh59 : Rect S4096x384 := Rect.unit (s := S4096x384) ![0, 357] S4096x3.size inb_S4096x384_S4096x3_0_357
abbrev ry60 : Rect S4096x384 := Rect.unit (s := S4096x384) ![0, 360] S4096x6.size inb_S4096x384_S4096x6_0_360
abbrev rc60 : Rect S4096x256 := Rect.unit (s := S4096x256) ![0, 240] S4096x4.size inb_S4096x256_S4096x4_0_240
abbrev rl60 : Rect S4096x384 := Rect.unit (s := S4096x384) ![0, 360] S4096x3.size inb_S4096x384_S4096x3_0_360
abbrev rh60 : Rect S4096x384 := Rect.unit (s := S4096x384) ![0, 363] S4096x3.size inb_S4096x384_S4096x3_0_363
abbrev ry61 : Rect S4096x384 := Rect.unit (s := S4096x384) ![0, 366] S4096x6.size inb_S4096x384_S4096x6_0_366
abbrev rc61 : Rect S4096x256 := Rect.unit (s := S4096x256) ![0, 244] S4096x4.size inb_S4096x256_S4096x4_0_244
abbrev rl61 : Rect S4096x384 := Rect.unit (s := S4096x384) ![0, 366] S4096x3.size inb_S4096x384_S4096x3_0_366
abbrev rh61 : Rect S4096x384 := Rect.unit (s := S4096x384) ![0, 369] S4096x3.size inb_S4096x384_S4096x3_0_369
abbrev ry62 : Rect S4096x384 := Rect.unit (s := S4096x384) ![0, 372] S4096x6.size inb_S4096x384_S4096x6_0_372
abbrev rc62 : Rect S4096x256 := Rect.unit (s := S4096x256) ![0, 248] S4096x4.size inb_S4096x256_S4096x4_0_248
abbrev rl62 : Rect S4096x384 := Rect.unit (s := S4096x384) ![0, 372] S4096x3.size inb_S4096x384_S4096x3_0_372
abbrev rh62 : Rect S4096x384 := Rect.unit (s := S4096x384) ![0, 375] S4096x3.size inb_S4096x384_S4096x3_0_375
abbrev ry63 : Rect S4096x384 := Rect.unit (s := S4096x384) ![0, 378] S4096x6.size inb_S4096x384_S4096x6_0_378
abbrev rc63 : Rect S4096x256 := Rect.unit (s := S4096x256) ![0, 252] S4096x4.size inb_S4096x256_S4096x4_0_252
abbrev rl63 : Rect S4096x384 := Rect.unit (s := S4096x384) ![0, 378] S4096x3.size inb_S4096x384_S4096x3_0_378
abbrev rh63 : Rect S4096x384 := Rect.unit (s := S4096x384) ![0, 381] S4096x3.size inb_S4096x384_S4096x3_0_381

/-! ## The stored strips -/

/-- The body's 128 stores as pieces, the LAST store first: group g's second strip then its first, g from 63 down to 0;
    each payload is the clamp of the group's three value columns between the group's bound columns. -/
def pieces (x0 : Vec F S4096x384 .f32) (x1 : Vec F S4096x256 .f32) : List (View.Piece (Elt F) S4096x384 .f32) :=
  [⟨rh63, k0_pay256 (View.ld x0 ry63) (View.ld x1 rc63)⟩,
   ⟨rl63, k0_pay255 (View.ld x0 ry63) (View.ld x1 rc63)⟩,
   ⟨rh62, k0_pay252 (View.ld x0 ry62) (View.ld x1 rc62)⟩,
   ⟨rl62, k0_pay251 (View.ld x0 ry62) (View.ld x1 rc62)⟩,
   ⟨rh61, k0_pay248 (View.ld x0 ry61) (View.ld x1 rc61)⟩,
   ⟨rl61, k0_pay247 (View.ld x0 ry61) (View.ld x1 rc61)⟩,
   ⟨rh60, k0_pay244 (View.ld x0 ry60) (View.ld x1 rc60)⟩,
   ⟨rl60, k0_pay243 (View.ld x0 ry60) (View.ld x1 rc60)⟩,
   ⟨rh59, k0_pay240 (View.ld x0 ry59) (View.ld x1 rc59)⟩,
   ⟨rl59, k0_pay239 (View.ld x0 ry59) (View.ld x1 rc59)⟩,
   ⟨rh58, k0_pay236 (View.ld x0 ry58) (View.ld x1 rc58)⟩,
   ⟨rl58, k0_pay235 (View.ld x0 ry58) (View.ld x1 rc58)⟩,
   ⟨rh57, k0_pay232 (View.ld x0 ry57) (View.ld x1 rc57)⟩,
   ⟨rl57, k0_pay231 (View.ld x0 ry57) (View.ld x1 rc57)⟩,
   ⟨rh56, k0_pay228 (View.ld x0 ry56) (View.ld x1 rc56)⟩,
   ⟨rl56, k0_pay227 (View.ld x0 ry56) (View.ld x1 rc56)⟩,
   ⟨rh55, k0_pay224 (View.ld x0 ry55) (View.ld x1 rc55)⟩,
   ⟨rl55, k0_pay223 (View.ld x0 ry55) (View.ld x1 rc55)⟩,
   ⟨rh54, k0_pay220 (View.ld x0 ry54) (View.ld x1 rc54)⟩,
   ⟨rl54, k0_pay219 (View.ld x0 ry54) (View.ld x1 rc54)⟩,
   ⟨rh53, k0_pay216 (View.ld x0 ry53) (View.ld x1 rc53)⟩,
   ⟨rl53, k0_pay215 (View.ld x0 ry53) (View.ld x1 rc53)⟩,
   ⟨rh52, k0_pay212 (View.ld x0 ry52) (View.ld x1 rc52)⟩,
   ⟨rl52, k0_pay211 (View.ld x0 ry52) (View.ld x1 rc52)⟩,
   ⟨rh51, k0_pay208 (View.ld x0 ry51) (View.ld x1 rc51)⟩,
   ⟨rl51, k0_pay207 (View.ld x0 ry51) (View.ld x1 rc51)⟩,
   ⟨rh50, k0_pay204 (View.ld x0 ry50) (View.ld x1 rc50)⟩,
   ⟨rl50, k0_pay203 (View.ld x0 ry50) (View.ld x1 rc50)⟩,
   ⟨rh49, k0_pay200 (View.ld x0 ry49) (View.ld x1 rc49)⟩,
   ⟨rl49, k0_pay199 (View.ld x0 ry49) (View.ld x1 rc49)⟩,
   ⟨rh48, k0_pay196 (View.ld x0 ry48) (View.ld x1 rc48)⟩,
   ⟨rl48, k0_pay195 (View.ld x0 ry48) (View.ld x1 rc48)⟩,
   ⟨rh47, k0_pay192 (View.ld x0 ry47) (View.ld x1 rc47)⟩,
   ⟨rl47, k0_pay191 (View.ld x0 ry47) (View.ld x1 rc47)⟩,
   ⟨rh46, k0_pay188 (View.ld x0 ry46) (View.ld x1 rc46)⟩,
   ⟨rl46, k0_pay187 (View.ld x0 ry46) (View.ld x1 rc46)⟩,
   ⟨rh45, k0_pay184 (View.ld x0 ry45) (View.ld x1 rc45)⟩,
   ⟨rl45, k0_pay183 (View.ld x0 ry45) (View.ld x1 rc45)⟩,
   ⟨rh44, k0_pay180 (View.ld x0 ry44) (View.ld x1 rc44)⟩,
   ⟨rl44, k0_pay179 (View.ld x0 ry44) (View.ld x1 rc44)⟩,
   ⟨rh43, k0_pay176 (View.ld x0 ry43) (View.ld x1 rc43)⟩,
   ⟨rl43, k0_pay175 (View.ld x0 ry43) (View.ld x1 rc43)⟩,
   ⟨rh42, k0_pay172 (View.ld x0 ry42) (View.ld x1 rc42)⟩,
   ⟨rl42, k0_pay171 (View.ld x0 ry42) (View.ld x1 rc42)⟩,
   ⟨rh41, k0_pay168 (View.ld x0 ry41) (View.ld x1 rc41)⟩,
   ⟨rl41, k0_pay167 (View.ld x0 ry41) (View.ld x1 rc41)⟩,
   ⟨rh40, k0_pay164 (View.ld x0 ry40) (View.ld x1 rc40)⟩,
   ⟨rl40, k0_pay163 (View.ld x0 ry40) (View.ld x1 rc40)⟩,
   ⟨rh39, k0_pay160 (View.ld x0 ry39) (View.ld x1 rc39)⟩,
   ⟨rl39, k0_pay159 (View.ld x0 ry39) (View.ld x1 rc39)⟩,
   ⟨rh38, k0_pay156 (View.ld x0 ry38) (View.ld x1 rc38)⟩,
   ⟨rl38, k0_pay155 (View.ld x0 ry38) (View.ld x1 rc38)⟩,
   ⟨rh37, k0_pay152 (View.ld x0 ry37) (View.ld x1 rc37)⟩,
   ⟨rl37, k0_pay151 (View.ld x0 ry37) (View.ld x1 rc37)⟩,
   ⟨rh36, k0_pay148 (View.ld x0 ry36) (View.ld x1 rc36)⟩,
   ⟨rl36, k0_pay147 (View.ld x0 ry36) (View.ld x1 rc36)⟩,
   ⟨rh35, k0_pay144 (View.ld x0 ry35) (View.ld x1 rc35)⟩,
   ⟨rl35, k0_pay143 (View.ld x0 ry35) (View.ld x1 rc35)⟩,
   ⟨rh34, k0_pay140 (View.ld x0 ry34) (View.ld x1 rc34)⟩,
   ⟨rl34, k0_pay139 (View.ld x0 ry34) (View.ld x1 rc34)⟩,
   ⟨rh33, k0_pay136 (View.ld x0 ry33) (View.ld x1 rc33)⟩,
   ⟨rl33, k0_pay135 (View.ld x0 ry33) (View.ld x1 rc33)⟩,
   ⟨rh32, k0_pay132 (View.ld x0 ry32) (View.ld x1 rc32)⟩,
   ⟨rl32, k0_pay131 (View.ld x0 ry32) (View.ld x1 rc32)⟩,
   ⟨rh31, k0_pay128 (View.ld x0 ry31) (View.ld x1 rc31)⟩,
   ⟨rl31, k0_pay127 (View.ld x0 ry31) (View.ld x1 rc31)⟩,
   ⟨rh30, k0_pay124 (View.ld x0 ry30) (View.ld x1 rc30)⟩,
   ⟨rl30, k0_pay123 (View.ld x0 ry30) (View.ld x1 rc30)⟩,
   ⟨rh29, k0_pay120 (View.ld x0 ry29) (View.ld x1 rc29)⟩,
   ⟨rl29, k0_pay119 (View.ld x0 ry29) (View.ld x1 rc29)⟩,
   ⟨rh28, k0_pay116 (View.ld x0 ry28) (View.ld x1 rc28)⟩,
   ⟨rl28, k0_pay115 (View.ld x0 ry28) (View.ld x1 rc28)⟩,
   ⟨rh27, k0_pay112 (View.ld x0 ry27) (View.ld x1 rc27)⟩,
   ⟨rl27, k0_pay111 (View.ld x0 ry27) (View.ld x1 rc27)⟩,
   ⟨rh26, k0_pay108 (View.ld x0 ry26) (View.ld x1 rc26)⟩,
   ⟨rl26, k0_pay107 (View.ld x0 ry26) (View.ld x1 rc26)⟩,
   ⟨rh25, k0_pay104 (View.ld x0 ry25) (View.ld x1 rc25)⟩,
   ⟨rl25, k0_pay103 (View.ld x0 ry25) (View.ld x1 rc25)⟩,
   ⟨rh24, k0_pay100 (View.ld x0 ry24) (View.ld x1 rc24)⟩,
   ⟨rl24, k0_pay99 (View.ld x0 ry24) (View.ld x1 rc24)⟩,
   ⟨rh23, k0_pay96 (View.ld x0 ry23) (View.ld x1 rc23)⟩,
   ⟨rl23, k0_pay95 (View.ld x0 ry23) (View.ld x1 rc23)⟩,
   ⟨rh22, k0_pay92 (View.ld x0 ry22) (View.ld x1 rc22)⟩,
   ⟨rl22, k0_pay91 (View.ld x0 ry22) (View.ld x1 rc22)⟩,
   ⟨rh21, k0_pay88 (View.ld x0 ry21) (View.ld x1 rc21)⟩,
   ⟨rl21, k0_pay87 (View.ld x0 ry21) (View.ld x1 rc21)⟩,
   ⟨rh20, k0_pay84 (View.ld x0 ry20) (View.ld x1 rc20)⟩,
   ⟨rl20, k0_pay83 (View.ld x0 ry20) (View.ld x1 rc20)⟩,
   ⟨rh19, k0_pay80 (View.ld x0 ry19) (View.ld x1 rc19)⟩,
   ⟨rl19, k0_pay79 (View.ld x0 ry19) (View.ld x1 rc19)⟩,
   ⟨rh18, k0_pay76 (View.ld x0 ry18) (View.ld x1 rc18)⟩,
   ⟨rl18, k0_pay75 (View.ld x0 ry18) (View.ld x1 rc18)⟩,
   ⟨rh17, k0_pay72 (View.ld x0 ry17) (View.ld x1 rc17)⟩,
   ⟨rl17, k0_pay71 (View.ld x0 ry17) (View.ld x1 rc17)⟩,
   ⟨rh16, k0_pay68 (View.ld x0 ry16) (View.ld x1 rc16)⟩,
   ⟨rl16, k0_pay67 (View.ld x0 ry16) (View.ld x1 rc16)⟩,
   ⟨rh15, k0_pay64 (View.ld x0 ry15) (View.ld x1 rc15)⟩,
   ⟨rl15, k0_pay63 (View.ld x0 ry15) (View.ld x1 rc15)⟩,
   ⟨rh14, k0_pay60 (View.ld x0 ry14) (View.ld x1 rc14)⟩,
   ⟨rl14, k0_pay59 (View.ld x0 ry14) (View.ld x1 rc14)⟩,
   ⟨rh13, k0_pay56 (View.ld x0 ry13) (View.ld x1 rc13)⟩,
   ⟨rl13, k0_pay55 (View.ld x0 ry13) (View.ld x1 rc13)⟩,
   ⟨rh12, k0_pay52 (View.ld x0 ry12) (View.ld x1 rc12)⟩,
   ⟨rl12, k0_pay51 (View.ld x0 ry12) (View.ld x1 rc12)⟩,
   ⟨rh11, k0_pay48 (View.ld x0 ry11) (View.ld x1 rc11)⟩,
   ⟨rl11, k0_pay47 (View.ld x0 ry11) (View.ld x1 rc11)⟩,
   ⟨rh10, k0_pay44 (View.ld x0 ry10) (View.ld x1 rc10)⟩,
   ⟨rl10, k0_pay43 (View.ld x0 ry10) (View.ld x1 rc10)⟩,
   ⟨rh9, k0_pay40 (View.ld x0 ry9) (View.ld x1 rc9)⟩,
   ⟨rl9, k0_pay39 (View.ld x0 ry9) (View.ld x1 rc9)⟩,
   ⟨rh8, k0_pay36 (View.ld x0 ry8) (View.ld x1 rc8)⟩,
   ⟨rl8, k0_pay35 (View.ld x0 ry8) (View.ld x1 rc8)⟩,
   ⟨rh7, k0_pay32 (View.ld x0 ry7) (View.ld x1 rc7)⟩,
   ⟨rl7, k0_pay31 (View.ld x0 ry7) (View.ld x1 rc7)⟩,
   ⟨rh6, k0_pay28 (View.ld x0 ry6) (View.ld x1 rc6)⟩,
   ⟨rl6, k0_pay27 (View.ld x0 ry6) (View.ld x1 rc6)⟩,
   ⟨rh5, k0_pay24 (View.ld x0 ry5) (View.ld x1 rc5)⟩,
   ⟨rl5, k0_pay23 (View.ld x0 ry5) (View.ld x1 rc5)⟩,
   ⟨rh4, k0_pay20 (View.ld x0 ry4) (View.ld x1 rc4)⟩,
   ⟨rl4, k0_pay19 (View.ld x0 ry4) (View.ld x1 rc4)⟩,
   ⟨rh3, k0_pay16 (View.ld x0 ry3) (View.ld x1 rc3)⟩,
   ⟨rl3, k0_pay15 (View.ld x0 ry3) (View.ld x1 rc3)⟩,
   ⟨rh2, k0_pay12 (View.ld x0 ry2) (View.ld x1 rc2)⟩,
   ⟨rl2, k0_pay11 (View.ld x0 ry2) (View.ld x1 rc2)⟩,
   ⟨rh1, k0_pay8 (View.ld x0 ry1) (View.ld x1 rc1)⟩,
   ⟨rl1, k0_pay7 (View.ld x0 ry1) (View.ld x1 rc1)⟩,
   ⟨rh0, k0_pay4 (View.ld x0 ry0) (View.ld x1 rc0)⟩,
   ⟨rl0, k0_pay3 (View.ld x0 ry0) (View.ld x1 rc0)⟩]

/-- The result block after the body, as a function of the two input blocks. -/
def out0_2 (x0 : Vec F S4096x384 .f32) (x1 : Vec F S4096x256 .f32) : Vec F S4096x384 .f32 :=
  View.canon (pieces x0 x1)

/-- The 128 strips tile the block (the offsets and sizes are compared, the payloads never looked at), so they cover it. -/
theorem cover0_2 (x0 : Vec F S4096x384 .f32) (x1 : Vec F S4096x256 .f32) (y : S4096x384.Idx) :
    ∃ pc ∈ pieces x0 x1, y ∈ pc.1.set :=
  View.cover_of_tiled (pieces x0 x1) S4096x3.size (by rfl) y

end Cert.Kernel.Body

end
-- ==== Proof.KKernelRun.lean ====
/-
  The clamp body as a triple: on whole staging blocks — the values' holding `x0`, the bounds' holding `x1`, the
  result's holding anything — the body terminates without a fault, leaves the two input blocks as they were, and
  leaves the result block at the overlay of its 128 stored strips (`out0_2 x0 x1`): every load reads an input block
  through a literal rectangle, every store writes a strip of the result block, and the strips cover it.
-/
import proofs.«178242_j27358941676275_2_alg».proof.Proof.KPieces
import proofs.«178242_j27358941676275_2_alg».proof.Proof.Gen.Kernel.Frame
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body on whole staging memrefs: inputs at `x0`, `x1`, the result's at anything; it runs to the continuation
    holding the inputs as they were and the result's block at `out0_2 x0 x1`. -/
theorem sound_kernel (c : Dev nD) (E : Set ℕ) (i : grid0.Coords)
    (arg1 : Memref sig .tc .vmem S4096x384 .f32) (harg1 : arg1.IsWhole)
    (arg2 : Memref sig .tc .vmem S4096x256 .f32) (harg2 : arg2.IsWhole)
    (arg3 : Memref sig .tc .vmem S4096x384 .f32) (harg3 : arg3.IsWhole)
    (x0 : Vec F S4096x384 .f32) (x1 : Vec F S4096x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__clamp_kernel i arg1 harg1 arg2 harg2 arg3 harg3) K := by
  simp only [cc0__clamp_kernel_eq_skeleton]; unfold cc0__clamp_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

end Cert.Kernel.Body

end
-- ==== Proof.KData.lean ====
/-
  The proof data of the clamp kernel's pipeline. At each of the 16 grid points the pipeline fetches 4096 packed lines of
  the values and of the bounds into staging blocks, runs the body, and writes the result block back; the last point's
  blocks overhang the 62500-line arrays (16 · 4096 = 65536), so its transfers move only the first lines of a block and
  the staging lines past the arrays' end hold words nothing names. Stated here: the part of each input block inside its
  array, the same filled out to a whole block, what each staging block holds after the body, and what the body finds.
-/
import proofs.«178242_j27358941676275_2_alg».proof.Proof.KPieces
import proofs.«178242_j27358941676275_2_alg».proof.Proof.Gen.Kernel.Frame
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The part of the values' block at point `t` that lies inside the packed array, as the fetch reads it; -/
def yblk (c : Dev nD) (t : Fin cfg0.N) : (win0_0.xblock (grid0.coords t)).Idx → Elt F .f32 :=
  (win0_0.blk t).view.read (Elt F) (V m c (Pipeline.arrRef spec0 0))
/-- the bounds' likewise. -/
def cblk (c : Dev nD) (t : Fin cfg0.N) : (win0_1.xblock (grid0.coords t)).Idx → Elt F .f32 :=
  (win0_1.blk t).view.read (Elt F) (V m c (Pipeline.arrRef spec0 1))

/-- Those parts filled out to whole 4096-line blocks with the zero word on the lines past the array's end (lines the
    transfers never move and nothing reads). -/
def y8 (c : Dev nD) (t : Fin cfg0.N) : S4096x384.Idx → Elt F .f32 :=
  win0_0.fill (grid0.coords t) (fun _ => Scalar.ofBits .f32 0#32) (yblk m c t)
def c8 (c : Dev nD) (t : Fin cfg0.N) : S4096x256.Idx → Elt F .f32 :=
  win0_1.fill (grid0.coords t) (fun _ => Scalar.ofBits .f32 0#32) (cblk m c t)

/-- The proof data of the one pipeline on core `c`: the arrays as the region finds them; after the body the inputs'
    staging blocks at their filled-out blocks and the result's at the clamp of the two; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => y8 m c t
    | ⟨1, _⟩ => c8 m c t
    | ⟨2, _⟩ => out0_2 (y8 m c t) (c8 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = y8 m c t := by dsimp only [dats]
theorem after0_1 (c : Dev nD) (t : Fin cfg0.N) : (dats m 0 c).after 1 t = c8 m c t := by dsimp only [dats]
theorem after0_2 (c : Dev nD) (t : Fin cfg0.N) : (dats m 0 c).after 2 t = out0_2 (y8 m c t) (c8 m c t) := by dsimp only [dats]

/-- The result's window is never fetched. -/
theorem fetch0_2 : ∀ t : Fin cfg0.N, (cfg0.win 2).fetch t = false :=
  (by decide +kernel : ∀ t : Fin grid0.N, win0_2.fetch t = false)

/-- What the body finds: the two inputs' blocks just fetched — the array's part on the moved lines, `d` elsewhere —, -/
theorem before_0 (c : Dev nD) (t : Fin cfg0.N) (d) :
    (dats m 0 c).before (0 : Fin 3) t d = win0_0.fill (grid0.coords t) d (yblk m c t) := by
  unfold Dat.before; rw [if_pos (fetch0_0 t)]; rfl
theorem before_1 (c : Dev nD) (t : Fin cfg0.N) (d) :
    (dats m 0 c).before (1 : Fin 3) t d = win0_1.fill (grid0.coords t) d (cblk m c t) := by
  unfold Dat.before; rw [if_pos (fetch0_1 t)]; rfl
/-- and the result's block at contents nothing names (it was written back at the point before, or never filled). -/
theorem before_2 (c : Dev nD) (t : Fin cfg0.N) (d) : (dats m 0 c).before (2 : Fin 3) t d = d := by
  by_cases ht : t.val = 0
  · unfold Dat.before
    rw [if_neg (by rw [fetch0_2 t]; exact Bool.false_ne_true), if_pos ht]
  · rw [(dats m 0 c).before_of_pos (2 : Fin 3) t ht (fetch0_2 t) d, if_pos (flush0_2 _)]

end Cert.Kernel.Body

end
-- ==== Proof.ClampSpec.lean ====
/-
  The specification both programs are compared with: every row of six values is held between bounds read from the
  matching row of four — the first three values between that row's entries 0 (lower) and 1 (upper), the last three
  between its entries 2 (lower) and 3 (upper) —, each value clamped as min (upper, max (lower, value)). Stated over any
  float instance, so that it reads the same at the extended reals and at the machine's words.
-/
import Idealize.ShloMosaic.PureOps
import Idealize.ShloMosaic.Lib.ValueIdx

noncomputable section

namespace Cert.ClampSpec

open Idealize.ShloMosaic Idealize.ShloMosaic.ValueIdx

variable {F : FTy → Type} [FloatOps F]

/-- One value held between a lower and an upper bound: min (hi, max (lo, y)), the upper bound applied last. -/
def clamp1 (lo hi y : F .f32) : F .f32 := FloatOps.minimumf hi (FloatOps.maximumf lo y)

/-- The rows of six and the rows of four, as shapes. -/
abbrev SY : Shape := ⟨2, ![4000000, 6]⟩
abbrev SC : Shape := ⟨2, ![4000000, 4]⟩

/-- The whole result: entry (n, k) is y (n, k) clamped between c (n, 0), c (n, 1) when k < 3 and between
    c (n, 2), c (n, 3) when k ≥ 3. -/
def G (y : SY.Idx → F .f32) (c : SC.Idx → F .f32) : SY.Idx → F .f32 := fun i =>
  if (i 1).val < 3 then clamp1 (c (ix2 (i 0) (0 : Fin 4))) (c (ix2 (i 0) (1 : Fin 4))) (y i)
  else clamp1 (c (ix2 (i 0) (2 : Fin 4))) (c (ix2 (i 0) (3 : Fin 4))) (y i)

/-- The same rows packed sixty-four to a line: a line of 384 values holds 64 consecutive rows of six, a line of 256
    bounds the matching 64 rows of four. -/
abbrev PY : Shape := ⟨2, ![62500, 384]⟩
abbrev PC : Shape := ⟨2, ![62500, 256]⟩

/-- Column `q` of a packed line belongs to group `q / 6`, whose four bounds sit at columns `4 * (q / 6) + 0..3`. -/
def bcol (q : Fin 384) (b : Nat) (hb : b < 4) : Fin 256 := ⟨4 * (q.val / 6) + b, by have := q.isLt; omega⟩

/-- The packed result: entry (R, q) is y (R, q) clamped between the bounds of its group, the first pair when
    `q % 6 < 3` and the second pair otherwise. Generic in the number of lines, so that one block of lines and the
    whole packed array are instances of one function. -/
def GP {n : Nat} (y : (⟨2, ![n, 384]⟩ : Shape).Idx → F .f32) (c : (⟨2, ![n, 256]⟩ : Shape).Idx → F .f32) :
    (⟨2, ![n, 384]⟩ : Shape).Idx → F .f32 := fun i =>
  if (i 1).val % 6 < 3 then clamp1 (c (ix2 (i 0) (bcol (i 1) 0 (by omega)))) (c (ix2 (i 0) (bcol (i 1) 1 (by omega)))) (y i)
  else clamp1 (c (ix2 (i 0) (bcol (i 1) 2 (by omega)))) (c (ix2 (i 0) (bcol (i 1) 3 (by omega)))) (y i)

end Cert.ClampSpec

end
-- ==== Proof.KBlockValue.lean ====
/-
  The result block in closed form. The body stores, for each of the 64 groups g of a packed line, two strips of three
  columns: columns [6g, 6g+3) hold min (c[:, 4g+1], max (c[:, 4g], y[:, 6g .. 6g+3))) and columns [6g+3, 6g+6) hold
  min (c[:, 4g+3], max (c[:, 4g+2], y[:, 6g+3 .. 6g+6))), the single bound columns broadcast across the three. Column
  q = 6g + j of a strip has q / 6 = g and q % 6 = j (first strip, j < 3) or 3 + j (second strip), so every stored strip
  is the packed clamp of the specification read on the strip's rectangle; the strips tile the block, hence the block is
  the packed clamp.
-/
import proofs.«178242_j27358941676275_2_alg».proof.Proof.KPieces
import proofs.«178242_j27358941676275_2_alg».proof.Proof.ClampSpec
import Idealize.ShloMosaic.Lib.Pipeline.Value
import Idealize.ShloMosaic.Lib.ValueIdx

set_option maxRecDepth 16384

noncomputable section

namespace Cert.Kernel.Body

open Cert.Kernel Cert.Kernel.Gen Cert.ClampSpec
open Idealize.ShloMosaic Idealize.SL.Sem Idealize.ShloMosaic.ValueIdx

variable {F : FTy → Type} [FloatOps F]

/-! ## One group's two payloads at an entry -/

/-- The first strip's payload at (r, j): the value (r, j) held between the bounds (r, 0) and (r, 1). -/
theorem pay3_at (v0 : Vec F S4096x6 .f32) (v2 : Vec F S4096x4 .f32) (r : Fin 4096) (j : Fin 3) :
    k0_pay3 v0 v2 (ix2 r j)
      = clamp1 (v2 (ix2 r (0 : Fin 4))) (v2 (ix2 r (1 : Fin 4))) (v0 (ix2 r (⟨j.val, by omega⟩ : Fin 6))) := by
  unfold k0_pay3 k0_pay2 k0_pay1
  simp only [shapeCast_self]
  show FloatOps.minimumf (broadcastTo S4096x3 _ _ (ix2 r j))
      (FloatOps.maximumf (broadcastTo S4096x3 _ _ (ix2 r j)) (extractStridedSlice S4096x3 _ _ _ (ix2 r j))) = _
  rw [broadcastTo_apply _ broadcasts_S4096x1_S4096x3 (ix2 r j) (ix2 r (0 : Fin 1)) (fun a => match a with
      | ⟨0, _⟩ => by show r.val = if (4096 : Nat) = 1 then 0 else r.val; rw [if_neg (by decide)]
      | ⟨1, _⟩ => by show 0 = if (1 : Nat) = 1 then 0 else _; rw [if_pos rfl]),
    broadcastTo_apply _ broadcasts_S4096x1_S4096x3 (ix2 r j) (ix2 r (0 : Fin 1)) (fun a => match a with
      | ⟨0, _⟩ => by show r.val = if (4096 : Nat) = 1 then 0 else r.val; rw [if_neg (by decide)]
      | ⟨1, _⟩ => by show 0 = if (1 : Nat) = 1 then 0 else _; rw [if_pos rfl]),
    extractStridedSlice_apply ![0, 1] v2 slices_S4096x4_o0_1_S4096x1 (ix2 r (0 : Fin 1)) (ix2 r (1 : Fin 4)) (fun a => match a with
      | ⟨0, _⟩ => by show r.val = 0 + r.val; omega
      | ⟨1, _⟩ => by show 1 = 1 + 0; rfl),
    extractStridedSlice_apply ![0, 0] v2 slices_S4096x4_o0_0_S4096x1 (ix2 r (0 : Fin 1)) (ix2 r (0 : Fin 4)) (fun a => match a with
      | ⟨0, _⟩ => by show r.val = 0 + r.val; omega
      | ⟨1, _⟩ => by show 0 = 0 + 0; rfl),
    extractStridedSlice_apply ![0, 0] v0 slices_S4096x6_o0_0_S4096x3 (ix2 r j) (ix2 r (⟨j.val, by omega⟩ : Fin 6)) (fun a => match a with
      | ⟨0, _⟩ => by show r.val = 0 + r.val; omega
      | ⟨1, _⟩ => by show j.val = 0 + j.val; omega)]
  rfl

/-- The second strip's payload at (r, j): the value (r, 3 + j) held between the bounds (r, 2) and (r, 3). -/
theorem pay4_at (v0 : Vec F S4096x6 .f32) (v2 : Vec F S4096x4 .f32) (r : Fin 4096) (j : Fin 3) :
    k0_pay4 v0 v2 (ix2 r j)
      = clamp1 (v2 (ix2 r (2 : Fin 4))) (v2 (ix2 r (3 : Fin 4))) (v0 (ix2 r (⟨3 + j.val, by omega⟩ : Fin 6))) := by
  unfold k0_pay4 k0_pay2 k0_pay1
  simp only [shapeCast_self]
  show FloatOps.minimumf (broadcastTo S4096x3 _ _ (ix2 r j))
      (FloatOps.maximumf (broadcastTo S4096x3 _ _ (ix2 r j)) (extractStridedSlice S4096x3 _ _ _ (ix2 r j))) = _
  rw [broadcastTo_apply _ broadcasts_S4096x1_S4096x3 (ix2 r j) (ix2 r (0 : Fin 1)) (fun a => match a with
      | ⟨0, _⟩ => by show r.val = if (4096 : Nat) = 1 then 0 else r.val; rw [if_neg (by decide)]
      | ⟨1, _⟩ => by show 0 = if (1 : Nat) = 1 then 0 else _; rw [if_pos rfl]),
    broadcastTo_apply _ broadcasts_S4096x1_S4096x3 (ix2 r j) (ix2 r (0 : Fin 1)) (fun a => match a with
      | ⟨0, _⟩ => by show r.val = if (4096 : Nat) = 1 then 0 else r.val; rw [if_neg (by decide)]
      | ⟨1, _⟩ => by show 0 = if (1 : Nat) = 1 then 0 else _; rw [if_pos rfl]),
    extractStridedSlice_apply ![0, 3] v2 slices_S4096x4_o0_3_S4096x1 (ix2 r (0 : Fin 1)) (ix2 r (3 : Fin 4)) (fun a => match a with
      | ⟨0, _⟩ => by show r.val = 0 + r.val; omega
      | ⟨1, _⟩ => by show 3 = 3 + 0; rfl),
    extractStridedSlice_apply ![0, 2] v2 slices_S4096x4_o0_2_S4096x1 (ix2 r (0 : Fin 1)) (ix2 r (2 : Fin 4)) (fun a => match a with
      | ⟨0, _⟩ => by show r.val = 0 + r.val; omega
      | ⟨1, _⟩ => by show 2 = 2 + 0; rfl),
    extractStridedSlice_apply ![0, 3] v0 slices_S4096x6_o0_3_S4096x3 (ix2 r j) (ix2 r (⟨3 + j.val, by omega⟩ : Fin 6)) (fun a => match a with
      | ⟨0, _⟩ => by show r.val = 0 + r.val; omega
      | ⟨1, _⟩ => by show 3 + j.val = 3 + j.val; omega)]
  rfl

/-! ## The rectangles of group g, from its number -/

/-- Group g's six value columns [6g, 6g+6) of all 4096 lines. -/
abbrev ryG (g : Nat) (hg : g < 64) : Rect S4096x384 :=
  Rect.unit (s := S4096x384) ![0, 6 * g] S4096x6.size (fun a => match a with
    | ⟨0, _⟩ => by show 0 + 4096 ≤ 4096; omega
    | ⟨1, _⟩ => by show 6 * g + 6 ≤ 384; omega)
/-- Group g's four bound columns [4g, 4g+4) of all 4096 lines. -/
abbrev rcG (g : Nat) (hg : g < 64) : Rect S4096x256 :=
  Rect.unit (s := S4096x256) ![0, 4 * g] S4096x4.size (fun a => match a with
    | ⟨0, _⟩ => by show 0 + 4096 ≤ 4096; omega
    | ⟨1, _⟩ => by show 4 * g + 4 ≤ 256; omega)
/-- Group g's first strip, columns [6g, 6g+3). -/
abbrev rlG (g : Nat) (hg : g < 64) : Rect S4096x384 :=
  Rect.unit (s := S4096x384) ![0, 6 * g] S4096x3.size (fun a => match a with
    | ⟨0, _⟩ => by show 0 + 4096 ≤ 4096; omega
    | ⟨1, _⟩ => by show 6 * g + 3 ≤ 384; omega)
/-- Group g's second strip, columns [6g+3, 6g+6). -/
abbrev rhG (g : Nat) (hg : g < 64) : Rect S4096x384 :=
  Rect.unit (s := S4096x384) ![0, 6 * g + 3] S4096x3.size (fun a => match a with
    | ⟨0, _⟩ => by show 0 + 4096 ≤ 4096; omega
    | ⟨1, _⟩ => by show 6 * g + 3 + 3 ≤ 384; omega)

/-- Equal bounds and equal values clamp alike. -/
theorem clamp1_congr {lo lo' hi hi' y y' : F .f32} (h1 : lo = lo') (h2 : hi = hi') (h3 : y = y') :
    clamp1 lo hi y = clamp1 lo' hi' y' := by rw [h1, h2, h3]

/-! ## One group's two strips are the packed clamp on their rectangles -/

/-- Column 6g + j, j < 3, is in group g at place j: its bounds are columns 4g and 4g + 1. -/
theorem lo_at (g : Nat) (hg : g < 64) (x0 : Vec F S4096x384 .f32) (x1 : Vec F S4096x256 .f32) (x : S4096x3.Idx) :
    k0_pay3 (View.ld x0 (ryG g hg)) (View.ld x1 (rcG g hg)) x = GP (n := 4096) x0 x1 ((rlG g hg).emb x) := by
  obtain ⟨r, j, rfl⟩ : ∃ (r : Fin 4096) (j : Fin 3), x = ix2 r j := ⟨x 0, x 1, eq_ix2 x⟩
  have hj := j.isLt
  rw [pay3_at]
  unfold GP
  have hlt : (((rlG g hg).emb (ix2 r j)) 1).val % 6 < 3 := by
    show (6 * g + 1 * j.val) % 6 < 3; omega
  rw [if_pos hlt]
  refine clamp1_congr (congrArg x1 (funext fun a => ?_)) (congrArg x1 (funext fun a => ?_)) (congrArg x0 (funext fun a => ?_))
  · match a with
    | ⟨0, _⟩ => exact Fin.ext (by show 0 + 1 * r.val = 0 + 1 * r.val; rfl)
    | ⟨1, _⟩ => exact Fin.ext (by show 4 * g + 1 * 0 = 4 * ((6 * g + 1 * j.val) / 6) + 0; omega)
  · match a with
    | ⟨0, _⟩ => exact Fin.ext (by show 0 + 1 * r.val = 0 + 1 * r.val; rfl)
    | ⟨1, _⟩ => exact Fin.ext (by show 4 * g + 1 * 1 = 4 * ((6 * g + 1 * j.val) / 6) + 1; omega)
  · match a with
    | ⟨0, _⟩ => exact Fin.ext (by show 0 + 1 * r.val = 0 + 1 * r.val; rfl)
    | ⟨1, _⟩ => exact Fin.ext (by show 6 * g + 1 * j.val = 6 * g + 1 * j.val; rfl)

/-- Column 6g + 3 + j, j < 3, is in group g at place 3 + j: its bounds are columns 4g + 2 and 4g + 3. -/
theorem hi_at (g : Nat) (hg : g < 64) (x0 : Vec F S4096x384 .f32) (x1 : Vec F S4096x256 .f32) (x : S4096x3.Idx) :
    k0_pay4 (View.ld x0 (ryG g hg)) (View.ld x1 (rcG g hg)) x = GP (n := 4096) x0 x1 ((rhG g hg).emb x) := by
  obtain ⟨r, j, rfl⟩ : ∃ (r : Fin 4096) (j : Fin 3), x = ix2 r j := ⟨x 0, x 1, eq_ix2 x⟩
  have hj := j.isLt
  rw [pay4_at]
  unfold GP
  have hge : ¬ (((rhG g hg).emb (ix2 r j)) 1).val % 6 < 3 := by
    show ¬ (6 * g + 3 + 1 * j.val) % 6 < 3; omega
  rw [if_neg hge]
  refine clamp1_congr (congrArg x1 (funext fun a => ?_)) (congrArg x1 (funext fun a => ?_)) (congrArg x0 (funext fun a => ?_))
  · match a with
    | ⟨0, _⟩ => exact Fin.ext (by show 0 + 1 * r.val = 0 + 1 * r.val; rfl)
    | ⟨1, _⟩ => exact Fin.ext (by show 4 * g + 1 * 2 = 4 * ((6 * g + 3 + 1 * j.val) / 6) + 2; omega)
  · match a with
    | ⟨0, _⟩ => exact Fin.ext (by show 0 + 1 * r.val = 0 + 1 * r.val; rfl)
    | ⟨1, _⟩ => exact Fin.ext (by show 4 * g + 1 * 3 = 4 * ((6 * g + 3 + 1 * j.val) / 6) + 3; omega)
  · match a with
    | ⟨0, _⟩ => exact Fin.ext (by show 0 + 1 * r.val = 0 + 1 * r.val; rfl)
    | ⟨1, _⟩ => exact Fin.ext (by show 6 * g + 1 * (3 + j.val) = 6 * g + 3 + 1 * j.val; omega)

/-! ## The 128 stored strips, and the block -/

/-- Every stored strip is the packed clamp read on the strip's rectangle: the strips of group g, g from 63 down to 0,
    are the two strips above at that g (the literal offsets 6g, 6g + 3, 4g are those products computed). -/
theorem pieces_agree (x0 : Vec F S4096x384 .f32) (x1 : Vec F S4096x256 .f32) :
    ∀ p ∈ pieces x0 x1, ∀ x : p.1.shape.Idx, p.2 x = GP (n := 4096) x0 x1 (p.1.emb x) := by
  unfold pieces
  refine List.forall_mem_cons.2 ⟨fun x => hi_at 63 (by omega) x0 x1 x, ?_⟩
  refine List.forall_mem_cons.2 ⟨fun x => lo_at 63 (by omega) x0 x1 x, ?_⟩
  refine List.forall_mem_cons.2 ⟨fun x => hi_at 62 (by omega) x0 x1 x, ?_⟩
  refine List.forall_mem_cons.2 ⟨fun x => lo_at 62 (by omega) x0 x1 x, ?_⟩
  refine List.forall_mem_cons.2 ⟨fun x => hi_at 61 (by omega) x0 x1 x, ?_⟩
  refine List.forall_mem_cons.2 ⟨fun x => lo_at 61 (by omega) x0 x1 x, ?_⟩
  refine List.forall_mem_cons.2 ⟨fun x => hi_at 60 (by omega) x0 x1 x, ?_⟩
  refine List.forall_mem_cons.2 ⟨fun x => lo_at 60 (by omega) x0 x1 x, ?_⟩
  refine List.forall_mem_cons.2 ⟨fun x => hi_at 59 (by omega) x0 x1 x, ?_⟩
  refine List.forall_mem_cons.2 ⟨fun x => lo_at 59 (by omega) x0 x1 x, ?_⟩
  refine List.forall_mem_cons.2 ⟨fun x => hi_at 58 (by omega) x0 x1 x, ?_⟩
  refine List.forall_mem_cons.2 ⟨fun x => lo_at 58 (by omega) x0 x1 x, ?_⟩
  refine List.forall_mem_cons.2 ⟨fun x => hi_at 57 (by omega) x0 x1 x, ?_⟩
  refine List.forall_mem_cons.2 ⟨fun x => lo_at 57 (by omega) x0 x1 x, ?_⟩
  refine List.forall_mem_cons.2 ⟨fun x => hi_at 56 (by omega) x0 x1 x, ?_⟩
  refine List.forall_mem_cons.2 ⟨fun x => lo_at 56 (by omega) x0 x1 x, ?_⟩
  refine List.forall_mem_cons.2 ⟨fun x => hi_at 55 (by omega) x0 x1 x, ?_⟩
  refine List.forall_mem_cons.2 ⟨fun x => lo_at 55 (by omega) x0 x1 x, ?_⟩
  refine List.forall_mem_cons.2 ⟨fun x => hi_at 54 (by omega) x0 x1 x, ?_⟩
  refine List.forall_mem_cons.2 ⟨fun x => lo_at 54 (by omega) x0 x1 x, ?_⟩
  refine List.forall_mem_cons.2 ⟨fun x => hi_at 53 (by omega) x0 x1 x, ?_⟩
  refine List.forall_mem_cons.2 ⟨fun x => lo_at 53 (by omega) x0 x1 x, ?_⟩
  refine List.forall_mem_cons.2 ⟨fun x => hi_at 52 (by omega) x0 x1 x, ?_⟩
  refine List.forall_mem_cons.2 ⟨fun x => lo_at 52 (by omega) x0 x1 x, ?_⟩
  refine List.forall_mem_cons.2 ⟨fun x => hi_at 51 (by omega) x0 x1 x, ?_⟩
  refine List.forall_mem_cons.2 ⟨fun x => lo_at 51 (by omega) x0 x1 x, ?_⟩
  refine List.forall_mem_cons.2 ⟨fun x => hi_at 50 (by omega) x0 x1 x, ?_⟩
  refine List.forall_mem_cons.2 ⟨fun x => lo_at 50 (by omega) x0 x1 x, ?_⟩
  refine List.forall_mem_cons.2 ⟨fun x => hi_at 49 (by omega) x0 x1 x, ?_⟩
  refine List.forall_mem_cons.2 ⟨fun x => lo_at 49 (by omega) x0 x1 x, ?_⟩
  refine List.forall_mem_cons.2 ⟨fun x => hi_at 48 (by omega) x0 x1 x, ?_⟩
  refine List.forall_mem_cons.2 ⟨fun x => lo_at 48 (by omega) x0 x1 x, ?_⟩
  refine List.forall_mem_cons.2 ⟨fun x => hi_at 47 (by omega) x0 x1 x, ?_⟩
  refine List.forall_mem_cons.2 ⟨fun x => lo_at 47 (by omega) x0 x1 x, ?_⟩
  refine List.forall_mem_cons.2 ⟨fun x => hi_at 46 (by omega) x0 x1 x, ?_⟩
  refine List.forall_mem_cons.2 ⟨fun x => lo_at 46 (by omega) x0 x1 x, ?_⟩
  refine List.forall_mem_cons.2 ⟨fun x => hi_at 45 (by omega) x0 x1 x, ?_⟩
  refine List.forall_mem_cons.2 ⟨fun x => lo_at 45 (by omega) x0 x1 x, ?_⟩
  refine List.forall_mem_cons.2 ⟨fun x => hi_at 44 (by omega) x0 x1 x, ?_⟩
  refine List.forall_mem_cons.2 ⟨fun x => lo_at 44 (by omega) x0 x1 x, ?_⟩
  refine List.forall_mem_cons.2 ⟨fun x => hi_at 43 (by omega) x0 x1 x, ?_⟩
  refine List.forall_mem_cons.2 ⟨fun x => lo_at 43 (by omega) x0 x1 x, ?_⟩
  refine List.forall_mem_cons.2 ⟨fun x => hi_at 42 (by omega) x0 x1 x, ?_⟩
  refine List.forall_mem_cons.2 ⟨fun x => lo_at 42 (by omega) x0 x1 x, ?_⟩
  refine List.forall_mem_cons.2 ⟨fun x => hi_at 41 (by omega) x0 x1 x, ?_⟩
  refine List.forall_mem_cons.2 ⟨fun x => lo_at 41 (by omega) x0 x1 x, ?_⟩
  refine List.forall_mem_cons.2 ⟨fun x => hi_at 40 (by omega) x0 x1 x, ?_⟩
  refine List.forall_mem_cons.2 ⟨fun x => lo_at 40 (by omega) x0 x1 x, ?_⟩
  refine List.forall_mem_cons.2 ⟨fun x => hi_at 39 (by omega) x0 x1 x, ?_⟩
  refine List.forall_mem_cons.2 ⟨fun x => lo_at 39 (by omega) x0 x1 x, ?_⟩
  refine List.forall_mem_cons.2 ⟨fun x => hi_at 38 (by omega) x0 x1 x, ?_⟩
  refine List.forall_mem_cons.2 ⟨fun x => lo_at 38 (by omega) x0 x1 x, ?_⟩
  refine List.forall_mem_cons.2 ⟨fun x => hi_at 37 (by omega) x0 x1 x, ?_⟩
  refine List.forall_mem_cons.2 ⟨fun x => lo_at 37 (by omega) x0 x1 x, ?_⟩
  refine List.forall_mem_cons.2 ⟨fun x => hi_at 36 (by omega) x0 x1 x, ?_⟩
  refine List.forall_mem_cons.2 ⟨fun x => lo_at 36 (by omega) x0 x1 x, ?_⟩
  refine List.forall_mem_cons.2 ⟨fun x => hi_at 35 (by omega) x0 x1 x, ?_⟩
  refine List.forall_mem_cons.2 ⟨fun x => lo_at 35 (by omega) x0 x1 x, ?_⟩
  refine List.forall_mem_cons.2 ⟨fun x => hi_at 34 (by omega) x0 x1 x, ?_⟩
  refine List.forall_mem_cons.2 ⟨fun x => lo_at 34 (by omega) x0 x1 x, ?_⟩
  refine List.forall_mem_cons.2 ⟨fun x => hi_at 33 (by omega) x0 x1 x, ?_⟩
  refine List.forall_mem_cons.2 ⟨fun x => lo_at 33 (by omega) x0 x1 x, ?_⟩
  refine List.forall_mem_cons.2 ⟨fun x => hi_at 32 (by omega) x0 x1 x, ?_⟩
  refine List.forall_mem_cons.2 ⟨fun x => lo_at 32 (by omega) x0 x1 x, ?_⟩
  refine List.forall_mem_cons.2 ⟨fun x => hi_at 31 (by omega) x0 x1 x, ?_⟩
  refine List.forall_mem_cons.2 ⟨fun x => lo_at 31 (by omega) x0 x1 x, ?_⟩
  refine List.forall_mem_cons.2 ⟨fun x => hi_at 30 (by omega) x0 x1 x, ?_⟩
  refine List.forall_mem_cons.2 ⟨fun x => lo_at 30 (by omega) x0 x1 x, ?_⟩
  refine List.forall_mem_cons.2 ⟨fun x => hi_at 29 (by omega) x0 x1 x, ?_⟩
  refine List.forall_mem_cons.2 ⟨fun x => lo_at 29 (by omega) x0 x1 x, ?_⟩
  refine List.forall_mem_cons.2 ⟨fun x => hi_at 28 (by omega) x0 x1 x, ?_⟩
  refine List.forall_mem_cons.2 ⟨fun x => lo_at 28 (by omega) x0 x1 x, ?_⟩
  refine List.forall_mem_cons.2 ⟨fun x => hi_at 27 (by omega) x0 x1 x, ?_⟩
  refine List.forall_mem_cons.2 ⟨fun x => lo_at 27 (by omega) x0 x1 x, ?_⟩
  refine List.forall_mem_cons.2 ⟨fun x => hi_at 26 (by omega) x0 x1 x, ?_⟩
  refine List.forall_mem_cons.2 ⟨fun x => lo_at 26 (by omega) x0 x1 x, ?_⟩
  refine List.forall_mem_cons.2 ⟨fun x => hi_at 25 (by omega) x0 x1 x, ?_⟩
  refine List.forall_mem_cons.2 ⟨fun x => lo_at 25 (by omega) x0 x1 x, ?_⟩
  refine List.forall_mem_cons.2 ⟨fun x => hi_at 24 (by omega) x0 x1 x, ?_⟩
  refine List.forall_mem_cons.2 ⟨fun x => lo_at 24 (by omega) x0 x1 x, ?_⟩
  refine List.forall_mem_cons.2 ⟨fun x => hi_at 23 (by omega) x0 x1 x, ?_⟩
  refine List.forall_mem_cons.2 ⟨fun x => lo_at 23 (by omega) x0 x1 x, ?_⟩
  refine List.forall_mem_cons.2 ⟨fun x => hi_at 22 (by omega) x0 x1 x, ?_⟩
  refine List.forall_mem_cons.2 ⟨fun x => lo_at 22 (by omega) x0 x1 x, ?_⟩
  refine List.forall_mem_cons.2 ⟨fun x => hi_at 21 (by omega) x0 x1 x, ?_⟩
  refine List.forall_mem_cons.2 ⟨fun x => lo_at 21 (by omega) x0 x1 x, ?_⟩
  refine List.forall_mem_cons.2 ⟨fun x => hi_at 20 (by omega) x0 x1 x, ?_⟩
  refine List.forall_mem_cons.2 ⟨fun x => lo_at 20 (by omega) x0 x1 x, ?_⟩
  refine List.forall_mem_cons.2 ⟨fun x => hi_at 19 (by omega) x0 x1 x, ?_⟩
  refine List.forall_mem_cons.2 ⟨fun x => lo_at 19 (by omega) x0 x1 x, ?_⟩
  refine List.forall_mem_cons.2 ⟨fun x => hi_at 18 (by omega) x0 x1 x, ?_⟩
  refine List.forall_mem_cons.2 ⟨fun x => lo_at 18 (by omega) x0 x1 x, ?_⟩
  refine List.forall_mem_cons.2 ⟨fun x => hi_at 17 (by omega) x0 x1 x, ?_⟩
  refine List.forall_mem_cons.2 ⟨fun x => lo_at 17 (by omega) x0 x1 x, ?_⟩
  refine List.forall_mem_cons.2 ⟨fun x => hi_at 16 (by omega) x0 x1 x, ?_⟩
  refine List.forall_mem_cons.2 ⟨fun x => lo_at 16 (by omega) x0 x1 x, ?_⟩
  refine List.forall_mem_cons.2 ⟨fun x => hi_at 15 (by omega) x0 x1 x, ?_⟩
  refine List.forall_mem_cons.2 ⟨fun x => lo_at 15 (by omega) x0 x1 x, ?_⟩
  refine List.forall_mem_cons.2 ⟨fun x => hi_at 14 (by omega) x0 x1 x, ?_⟩
  refine List.forall_mem_cons.2 ⟨fun x => lo_at 14 (by omega) x0 x1 x, ?_⟩
  refine List.forall_mem_cons.2 ⟨fun x => hi_at 13 (by omega) x0 x1 x, ?_⟩
  refine List.forall_mem_cons.2 ⟨fun x => lo_at 13 (by omega) x0 x1 x, ?_⟩
  refine List.forall_mem_cons.2 ⟨fun x => hi_at 12 (by omega) x0 x1 x, ?_⟩
  refine List.forall_mem_cons.2 ⟨fun x => lo_at 12 (by omega) x0 x1 x, ?_⟩
  refine List.forall_mem_cons.2 ⟨fun x => hi_at 11 (by omega) x0 x1 x, ?_⟩
  refine List.forall_mem_cons.2 ⟨fun x => lo_at 11 (by omega) x0 x1 x, ?_⟩
  refine List.forall_mem_cons.2 ⟨fun x => hi_at 10 (by omega) x0 x1 x, ?_⟩
  refine List.forall_mem_cons.2 ⟨fun x => lo_at 10 (by omega) x0 x1 x, ?_⟩
  refine List.forall_mem_cons.2 ⟨fun x => hi_at 9 (by omega) x0 x1 x, ?_⟩
  refine List.forall_mem_cons.2 ⟨fun x => lo_at 9 (by omega) x0 x1 x, ?_⟩
  refine List.forall_mem_cons.2 ⟨fun x => hi_at 8 (by omega) x0 x1 x, ?_⟩
  refine List.forall_mem_cons.2 ⟨fun x => lo_at 8 (by omega) x0 x1 x, ?_⟩
  refine List.forall_mem_cons.2 ⟨fun x => hi_at 7 (by omega) x0 x1 x, ?_⟩
  refine List.forall_mem_cons.2 ⟨fun x => lo_at 7 (by omega) x0 x1 x, ?_⟩
  refine List.forall_mem_cons.2 ⟨fun x => hi_at 6 (by omega) x0 x1 x, ?_⟩
  refine List.forall_mem_cons.2 ⟨fun x => lo_at 6 (by omega) x0 x1 x, ?_⟩
  refine List.forall_mem_cons.2 ⟨fun x => hi_at 5 (by omega) x0 x1 x, ?_⟩
  refine List.forall_mem_cons.2 ⟨fun x => lo_at 5 (by omega) x0 x1 x, ?_⟩
  refine List.forall_mem_cons.2 ⟨fun x => hi_at 4 (by omega) x0 x1 x, ?_⟩
  refine List.forall_mem_cons.2 ⟨fun x => lo_at 4 (by omega) x0 x1 x, ?_⟩
  refine List.forall_mem_cons.2 ⟨fun x => hi_at 3 (by omega) x0 x1 x, ?_⟩
  refine List.forall_mem_cons.2 ⟨fun x => lo_at 3 (by omega) x0 x1 x, ?_⟩
  refine List.forall_mem_cons.2 ⟨fun x => hi_at 2 (by omega) x0 x1 x, ?_⟩
  refine List.forall_mem_cons.2 ⟨fun x => lo_at 2 (by omega) x0 x1 x, ?_⟩
  refine List.forall_mem_cons.2 ⟨fun x => hi_at 1 (by omega) x0 x1 x, ?_⟩
  refine List.forall_mem_cons.2 ⟨fun x => lo_at 1 (by omega) x0 x1 x, ?_⟩
  refine List.forall_mem_cons.2 ⟨fun x => hi_at 0 (by omega) x0 x1 x, ?_⟩
  refine List.forall_mem_cons.2 ⟨fun x => lo_at 0 (by omega) x0 x1 x, ?_⟩
  exact fun _ h => absurd h List.not_mem_nil

/-- **The result block is the packed clamp of the two input blocks**: the strips agree with it and cover the block. -/
theorem out0_2_eq (x0 : Vec F S4096x384 .f32) (x1 : Vec F S4096x256 .f32) :
    out0_2 x0 x1 = Cert.ClampSpec.GP (n := 4096) x0 x1 := by
  funext y
  exact View.canon_apply_of_pieces (Cert.ClampSpec.GP (n := 4096) x0 x1) (pieces x0 x1) (pieces_agree x0 x1) y
    (cover0_2 x0 x1 y)

end Cert.Kernel.Body

end
-- ==== Proof.KFrame.lean ====
/-
  The frame of the clamp kernel's program. The clamp acts line by line, so on the lines a transfer moves the result
  block depends only on the moved lines of the inputs: that is all the body owes for windows whose last blocks overhang
  their arrays. With the body's triple this gives the pipeline's body obligation, the run of the whole program, and its
  frame: it terminates, faults nowhere, and leaves its argument arrays as launched.
-/
import proofs.«178242_j27358941676275_2_alg».proof.Proof.KKernelRun
import proofs.«178242_j27358941676275_2_alg».proof.Proof.KData
import proofs.«178242_j27358941676275_2_alg».proof.Proof.KBlockValue
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The clamp is line by line -/

/-- Two pairs of blocks that agree at an index's own entry (values) and along its whole line (bounds) clamp alike
    there: an entry of the packed clamp reads its own value and four bounds of the same line. -/
theorem GP_congr_line (x0 x0' : S4096x384.Idx → F .f32) (x1 x1' : S4096x256.Idx → F .f32) (k : S4096x384.Idx)
    (e0 : x0 k = x0' k) (e1 : ∀ col : Fin 256, x1 (ValueIdx.ix2 (k 0) col) = x1' (ValueIdx.ix2 (k 0) col)) :
    Cert.ClampSpec.GP (n := 4096) x0 x1 k = Cert.ClampSpec.GP (n := 4096) x0' x1' k := by
  unfold Cert.ClampSpec.GP
  simp only [e0, e1]

/-- At an index the transfer moves, a filled block holds the fetched part whatever filled the rest. -/
theorem fill_eq_of_moved {G : Pipeline.Grid} {α : Type} (w : Pipeline.Window sig G) (i : G.Coords) (d d' : w.block.Idx → α)
    (g : (w.xblock i).Idx → α) (k : w.block.Idx) (hk : w.moved i k = true) : w.fill i d g k = w.fill i d' g k := by
  unfold Pipeline.Window.fill; rw [dif_pos hk, dif_pos hk]

/-- On the lines the transfer at `i` moves, the clamp of two filled blocks does not depend on what filled the lines
    past the array's end: the three windows cut their blocks alike, along the lines only. -/
theorem cut_out_fill (i : grid0.Coords) (d0 d0' : S4096x384.Idx → Elt F .f32) (d1 d1' : S4096x256.Idx → Elt F .f32)
    (g0 : (win0_0.xblock i).Idx → Elt F .f32) (g1 : (win0_1.xblock i).Idx → Elt F .f32) :
    win0_2.cut i (out0_2 (win0_0.fill i d0 g0) (win0_1.fill i d1 g1))
      = win0_2.cut i (out0_2 (win0_0.fill i d0' g0) (win0_1.fill i d1' g1)) := by
  funext j
  show out0_2 _ _ (win0_2.xinj i j) = out0_2 _ _ (win0_2.xinj i j)
  rw [out0_2_eq, out0_2_eq]
  have h0 : win0_0.moved i (win0_2.xinj i j) = true := (win0_0.moved_iff i _).mpr fun a => (j a).isLt
  have h1 : ∀ col : Fin 256, win0_1.moved i (ValueIdx.ix2 (win0_2.xinj i j 0) col : S4096x256.Idx) = true := fun col =>
    (win0_1.moved_iff i _).mpr fun a => match a with
      | ⟨0, _⟩ => (j 0).isLt
      | ⟨1, _⟩ => col.isLt
  exact GP_congr_line _ _ _ _ _ (fill_eq_of_moved win0_0 i d0 d0' g0 _ h0)
    (fun col => fill_eq_of_moved win0_1 i d1 d1' g1 _ (h1 col))

/-! ## The body obligation -/

/-- The library's body obligation in its form for cut windows: the inputs' blocks arrive holding the arrays' parts on
    the moved lines and anything past them, the result's holding anything; the inputs leave as they came and the result
    leaves at the clamp of what came, which on the moved lines is the clamp of the arrays' parts. -/
theorem body_obligation (c : Dev nD) :
    BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := F) c Set.univ (grid0.coords t) _ _ _ _ _ _
    (win0_0.fill (grid0.coords t) d0 (yblk m c t)) (win0_1.fill (grid0.coords t) d1 (cblk m c t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (y8 m c t)))
    rw [show win0_0.cut (grid0.coords t) (y8 m c t) = yblk m c t from win0_0.cut_fill _ _ _]
    try iexact H0
  isplitl [H1]
  · iexists d1
    change _ ⊢ owns (c : Thread nD τ) (stage0_1 (cfg0.slots t 1)) fullShare
      (win0_1.fill (grid0.coords t) d1 (win0_1.cut (grid0.coords t) (c8 m c t)))
    rw [show win0_1.cut (grid0.coords t) (c8 m c t) = cblk m c t from win0_1.cut_fill _ _ _]
    try iexact H1
  · rw [after0_2 m c t]
    iexists out0_2 (win0_0.fill (grid0.coords t) d0 (yblk m c t)) (win0_1.fill (grid0.coords t) d1 (cblk m c t))
    have h : (win0 2).cut (grid0.coords t) (out0_2 (win0_0.fill (grid0.coords t) d0 (yblk m c t)) (win0_1.fill (grid0.coords t) d1 (cblk m c t)))
        = (win0 2).cut (grid0.coords t) (out0_2 (y8 m c t) (c8 m c t)) :=
      cut_out_fill (grid0.coords t) d0 _ d1 _ (yblk m c t) (cblk m c t)
    rw [(win0 2).fill_congr_cut (grid0.coords t) h]
    try iexact H2

/-! ## The run and the frame -/

set_option backward.isDefEq.respectTransparency.types false in
/-- For any values, from any memory with zero counters: every weakly fair execution of the program terminates, and every
    final state has every array of the pipeline at what the proof data computes and every other unscoped buffer as the
    host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIPieces.lean ====
/-
  What the clamp body leaves in its result block, as data: the body reads, for each of the 64 groups g of a packed line,
  six value columns [6g, 6g+6) and four bound columns [4g, 4g+4) of all 4096 lines of its blocks, and stores two strips
  of three columns, [6g, 6g+3) and [6g+3, 6g+6). The 128 strips tile the 4096 × 384 block, so what the block holds
  afterwards is the overlay of the 128 stored strips whatever it held before.
-/
import proofs.«178242_j27358941676275_2_alg».proof.Proof.Gen.KernelIdeal.Skeleton
import Idealize.ShloMosaic.Lib.Pipeline.FrameBody
import Idealize.ShloMosaic.Lib.Writes

set_option maxRecDepth 16384

noncomputable section

namespace Cert.KernelIdeal.Body

open Cert.KernelIdeal Cert.KernelIdeal.Gen
open Idealize.ShloMosaic Idealize.SL.Sem

variable {F : FTy → Type} [FloatOps F]

/-! ## The rectangles the body reads and writes, group by group -/

abbrev ry0 : Rect S4096x384 := Rect.unit (s := S4096x384) ![0, 0] S4096x6.size inb_S4096x384_S4096x6_0_0
abbrev rc0 : Rect S4096x256 := Rect.unit (s := S4096x256) ![0, 0] S4096x4.size inb_S4096x256_S4096x4_0_0
abbrev rl0 : Rect S4096x384 := Rect.unit (s := S4096x384) ![0, 0] S4096x3.size inb_S4096x384_S4096x3_0_0
abbrev rh0 : Rect S4096x384 := Rect.unit (s := S4096x384) ![0, 3] S4096x3.size inb_S4096x384_S4096x3_0_3
abbrev ry1 : Rect S4096x384 := Rect.unit (s := S4096x384) ![0, 6] S4096x6.size inb_S4096x384_S4096x6_0_6
abbrev rc1 : Rect S4096x256 := Rect.unit (s := S4096x256) ![0, 4] S4096x4.size inb_S4096x256_S4096x4_0_4
abbrev rl1 : Rect S4096x384 := Rect.unit (s := S4096x384) ![0, 6] S4096x3.size inb_S4096x384_S4096x3_0_6
abbrev rh1 : Rect S4096x384 := Rect.unit (s := S4096x384) ![0, 9] S4096x3.size inb_S4096x384_S4096x3_0_9
abbrev ry2 : Rect S4096x384 := Rect.unit (s := S4096x384) ![0, 12] S4096x6.size inb_S4096x384_S4096x6_0_12
abbrev rc2 : Rect S4096x256 := Rect.unit (s := S4096x256) ![0, 8] S4096x4.size inb_S4096x256_S4096x4_0_8
abbrev rl2 : Rect S4096x384 := Rect.unit (s := S4096x384) ![0, 12] S4096x3.size inb_S4096x384_S4096x3_0_12
abbrev rh2 : Rect S4096x384 := Rect.unit (s := S4096x384) ![0, 15] S4096x3.size inb_S4096x384_S4096x3_0_15
abbrev ry3 : Rect S4096x384 := Rect.unit (s := S4096x384) ![0, 18] S4096x6.size inb_S4096x384_S4096x6_0_18
abbrev rc3 : Rect S4096x256 := Rect.unit (s := S4096x256) ![0, 12] S4096x4.size inb_S4096x256_S4096x4_0_12
abbrev rl3 : Rect S4096x384 := Rect.unit (s := S4096x384) ![0, 18] S4096x3.size inb_S4096x384_S4096x3_0_18
abbrev rh3 : Rect S4096x384 := Rect.unit (s := S4096x384) ![0, 21] S4096x3.size inb_S4096x384_S4096x3_0_21
abbrev ry4 : Rect S4096x384 := Rect.unit (s := S4096x384) ![0, 24] S4096x6.size inb_S4096x384_S4096x6_0_24
abbrev rc4 : Rect S4096x256 := Rect.unit (s := S4096x256) ![0, 16] S4096x4.size inb_S4096x256_S4096x4_0_16
abbrev rl4 : Rect S4096x384 := Rect.unit (s := S4096x384) ![0, 24] S4096x3.size inb_S4096x384_S4096x3_0_24
abbrev rh4 : Rect S4096x384 := Rect.unit (s := S4096x384) ![0, 27] S4096x3.size inb_S4096x384_S4096x3_0_27
abbrev ry5 : Rect S4096x384 := Rect.unit (s := S4096x384) ![0, 30] S4096x6.size inb_S4096x384_S4096x6_0_30
abbrev rc5 : Rect S4096x256 := Rect.unit (s := S4096x256) ![0, 20] S4096x4.size inb_S4096x256_S4096x4_0_20
abbrev rl5 : Rect S4096x384 := Rect.unit (s := S4096x384) ![0, 30] S4096x3.size inb_S4096x384_S4096x3_0_30
abbrev rh5 : Rect S4096x384 := Rect.unit (s := S4096x384) ![0, 33] S4096x3.size inb_S4096x384_S4096x3_0_33
abbrev ry6 : Rect S4096x384 := Rect.unit (s := S4096x384) ![0, 36] S4096x6.size inb_S4096x384_S4096x6_0_36
abbrev rc6 : Rect S4096x256 := Rect.unit (s := S4096x256) ![0, 24] S4096x4.size inb_S4096x256_S4096x4_0_24
abbrev rl6 : Rect S4096x384 := Rect.unit (s := S4096x384) ![0, 36] S4096x3.size inb_S4096x384_S4096x3_0_36
abbrev rh6 : Rect S4096x384 := Rect.unit (s := S4096x384) ![0, 39] S4096x3.size inb_S4096x384_S4096x3_0_39
abbrev ry7 : Rect S4096x384 := Rect.unit (s := S4096x384) ![0, 42] S4096x6.size inb_S4096x384_S4096x6_0_42
abbrev rc7 : Rect S4096x256 := Rect.unit (s := S4096x256) ![0, 28] S4096x4.size inb_S4096x256_S4096x4_0_28
abbrev rl7 : Rect S4096x384 := Rect.unit (s := S4096x384) ![0, 42] S4096x3.size inb_S4096x384_S4096x3_0_42
abbrev rh7 : Rect S4096x384 := Rect.unit (s := S4096x384) ![0, 45] S4096x3.size inb_S4096x384_S4096x3_0_45
abbrev ry8 : Rect S4096x384 := Rect.unit (s := S4096x384) ![0, 48] S4096x6.size inb_S4096x384_S4096x6_0_48
abbrev rc8 : Rect S4096x256 := Rect.unit (s := S4096x256) ![0, 32] S4096x4.size inb_S4096x256_S4096x4_0_32
abbrev rl8 : Rect S4096x384 := Rect.unit (s := S4096x384) ![0, 48] S4096x3.size inb_S4096x384_S4096x3_0_48
abbrev rh8 : Rect S4096x384 := Rect.unit (s := S4096x384) ![0, 51] S4096x3.size inb_S4096x384_S4096x3_0_51
abbrev ry9 : Rect S4096x384 := Rect.unit (s := S4096x384) ![0, 54] S4096x6.size inb_S4096x384_S4096x6_0_54
abbrev rc9 : Rect S4096x256 := Rect.unit (s := S4096x256) ![0, 36] S4096x4.size inb_S4096x256_S4096x4_0_36
abbrev rl9 : Rect S4096x384 := Rect.unit (s := S4096x384) ![0, 54] S4096x3.size inb_S4096x384_S4096x3_0_54
abbrev rh9 : Rect S4096x384 := Rect.unit (s := S4096x384) ![0, 57] S4096x3.size inb_S4096x384_S4096x3_0_57
abbrev ry10 : Rect S4096x384 := Rect.unit (s := S4096x384) ![0, 60] S4096x6.size inb_S4096x384_S4096x6_0_60
abbrev rc10 : Rect S4096x256 := Rect.unit (s := S4096x256) ![0, 40] S4096x4.size inb_S4096x256_S4096x4_0_40
abbrev rl10 : Rect S4096x384 := Rect.unit (s := S4096x384) ![0, 60] S4096x3.size inb_S4096x384_S4096x3_0_60
abbrev rh10 : Rect S4096x384 := Rect.unit (s := S4096x384) ![0, 63] S4096x3.size inb_S4096x384_S4096x3_0_63
abbrev ry11 : Rect S4096x384 := Rect.unit (s := S4096x384) ![0, 66] S4096x6.size inb_S4096x384_S4096x6_0_66
abbrev rc11 : Rect S4096x256 := Rect.unit (s := S4096x256) ![0, 44] S4096x4.size inb_S4096x256_S4096x4_0_44
abbrev rl11 : Rect S4096x384 := Rect.unit (s := S4096x384) ![0, 66] S4096x3.size inb_S4096x384_S4096x3_0_66
abbrev rh11 : Rect S4096x384 := Rect.unit (s := S4096x384) ![0, 69] S4096x3.size inb_S4096x384_S4096x3_0_69
abbrev ry12 : Rect S4096x384 := Rect.unit (s := S4096x384) ![0, 72] S4096x6.size inb_S4096x384_S4096x6_0_72
abbrev rc12 : Rect S4096x256 := Rect.unit (s := S4096x256) ![0, 48] S4096x4.size inb_S4096x256_S4096x4_0_48
abbrev rl12 : Rect S4096x384 := Rect.unit (s := S4096x384) ![0, 72] S4096x3.size inb_S4096x384_S4096x3_0_72
abbrev rh12 : Rect S4096x384 := Rect.unit (s := S4096x384) ![0, 75] S4096x3.size inb_S4096x384_S4096x3_0_75
abbrev ry13 : Rect S4096x384 := Rect.unit (s := S4096x384) ![0, 78] S4096x6.size inb_S4096x384_S4096x6_0_78
abbrev rc13 : Rect S4096x256 := Rect.unit (s := S4096x256) ![0, 52] S4096x4.size inb_S4096x256_S4096x4_0_52
abbrev rl13 : Rect S4096x384 := Rect.unit (s := S4096x384) ![0, 78] S4096x3.size inb_S4096x384_S4096x3_0_78
abbrev rh13 : Rect S4096x384 := Rect.unit (s := S4096x384) ![0, 81] S4096x3.size inb_S4096x384_S4096x3_0_81
abbrev ry14 : Rect S4096x384 := Rect.unit (s := S4096x384) ![0, 84] S4096x6.size inb_S4096x384_S4096x6_0_84
abbrev rc14 : Rect S4096x256 := Rect.unit (s := S4096x256) ![0, 56] S4096x4.size inb_S4096x256_S4096x4_0_56
abbrev rl14 : Rect S4096x384 := Rect.unit (s := S4096x384) ![0, 84] S4096x3.size inb_S4096x384_S4096x3_0_84
abbrev rh14 : Rect S4096x384 := Rect.unit (s := S4096x384) ![0, 87] S4096x3.size inb_S4096x384_S4096x3_0_87
abbrev ry15 : Rect S4096x384 := Rect.unit (s := S4096x384) ![0, 90] S4096x6.size inb_S4096x384_S4096x6_0_90
abbrev rc15 : Rect S4096x256 := Rect.unit (s := S4096x256) ![0, 60] S4096x4.size inb_S4096x256_S4096x4_0_60
abbrev rl15 : Rect S4096x384 := Rect.unit (s := S4096x384) ![0, 90] S4096x3.size inb_S4096x384_S4096x3_0_90
abbrev rh15 : Rect S4096x384 := Rect.unit (s := S4096x384) ![0, 93] S4096x3.size inb_S4096x384_S4096x3_0_93
abbrev ry16 : Rect S4096x384 := Rect.unit (s := S4096x384) ![0, 96] S4096x6.size inb_S4096x384_S4096x6_0_96
abbrev rc16 : Rect S4096x256 := Rect.unit (s := S4096x256) ![0, 64] S4096x4.size inb_S4096x256_S4096x4_0_64
abbrev rl16 : Rect S4096x384 := Rect.unit (s := S4096x384) ![0, 96] S4096x3.size inb_S4096x384_S4096x3_0_96
abbrev rh16 : Rect S4096x384 := Rect.unit (s := S4096x384) ![0, 99] S4096x3.size inb_S4096x384_S4096x3_0_99
abbrev ry17 : Rect S4096x384 := Rect.unit (s := S4096x384) ![0, 102] S4096x6.size inb_S4096x384_S4096x6_0_102
abbrev rc17 : Rect S4096x256 := Rect.unit (s := S4096x256) ![0, 68] S4096x4.size inb_S4096x256_S4096x4_0_68
abbrev rl17 : Rect S4096x384 := Rect.unit (s := S4096x384) ![0, 102] S4096x3.size inb_S4096x384_S4096x3_0_102
abbrev rh17 : Rect S4096x384 := Rect.unit (s := S4096x384) ![0, 105] S4096x3.size inb_S4096x384_S4096x3_0_105
abbrev ry18 : Rect S4096x384 := Rect.unit (s := S4096x384) ![0, 108] S4096x6.size inb_S4096x384_S4096x6_0_108
abbrev rc18 : Rect S4096x256 := Rect.unit (s := S4096x256) ![0, 72] S4096x4.size inb_S4096x256_S4096x4_0_72
abbrev rl18 : Rect S4096x384 := Rect.unit (s := S4096x384) ![0, 108] S4096x3.size inb_S4096x384_S4096x3_0_108
abbrev rh18 : Rect S4096x384 := Rect.unit (s := S4096x384) ![0, 111] S4096x3.size inb_S4096x384_S4096x3_0_111
abbrev ry19 : Rect S4096x384 := Rect.unit (s := S4096x384) ![0, 114] S4096x6.size inb_S4096x384_S4096x6_0_114
abbrev rc19 : Rect S4096x256 := Rect.unit (s := S4096x256) ![0, 76] S4096x4.size inb_S4096x256_S4096x4_0_76
abbrev rl19 : Rect S4096x384 := Rect.unit (s := S4096x384) ![0, 114] S4096x3.size inb_S4096x384_S4096x3_0_114
abbrev rh19 : Rect S4096x384 := Rect.unit (s := S4096x384) ![0, 117] S4096x3.size inb_S4096x384_S4096x3_0_117
abbrev ry20 : Rect S4096x384 := Rect.unit (s := S4096x384) ![0, 120] S4096x6.size inb_S4096x384_S4096x6_0_120
abbrev rc20 : Rect S4096x256 := Rect.unit (s := S4096x256) ![0, 80] S4096x4.size inb_S4096x256_S4096x4_0_80
abbrev rl20 : Rect S4096x384 := Rect.unit (s := S4096x384) ![0, 120] S4096x3.size inb_S4096x384_S4096x3_0_120
abbrev rh20 : Rect S4096x384 := Rect.unit (s := S4096x384) ![0, 123] S4096x3.size inb_S4096x384_S4096x3_0_123
abbrev ry21 : Rect S4096x384 := Rect.unit (s := S4096x384) ![0, 126] S4096x6.size inb_S4096x384_S4096x6_0_126
abbrev rc21 : Rect S4096x256 := Rect.unit (s := S4096x256) ![0, 84] S4096x4.size inb_S4096x256_S4096x4_0_84
abbrev rl21 : Rect S4096x384 := Rect.unit (s := S4096x384) ![0, 126] S4096x3.size inb_S4096x384_S4096x3_0_126
abbrev rh21 : Rect S4096x384 := Rect.unit (s := S4096x384) ![0, 129] S4096x3.size inb_S4096x384_S4096x3_0_129
abbrev ry22 : Rect S4096x384 := Rect.unit (s := S4096x384) ![0, 132] S4096x6.size inb_S4096x384_S4096x6_0_132
abbrev rc22 : Rect S4096x256 := Rect.unit (s := S4096x256) ![0, 88] S4096x4.size inb_S4096x256_S4096x4_0_88
abbrev rl22 : Rect S4096x384 := Rect.unit (s := S4096x384) ![0, 132] S4096x3.size inb_S4096x384_S4096x3_0_132
abbrev rh22 : Rect S4096x384 := Rect.unit (s := S4096x384) ![0, 135] S4096x3.size inb_S4096x384_S4096x3_0_135
abbrev ry23 : Rect S4096x384 := Rect.unit (s := S4096x384) ![0, 138] S4096x6.size inb_S4096x384_S4096x6_0_138
abbrev rc23 : Rect S4096x256 := Rect.unit (s := S4096x256) ![0, 92] S4096x4.size inb_S4096x256_S4096x4_0_92
abbrev rl23 : Rect S4096x384 := Rect.unit (s := S4096x384) ![0, 138] S4096x3.size inb_S4096x384_S4096x3_0_138
abbrev rh23 : Rect S4096x384 := Rect.unit (s := S4096x384) ![0, 141] S4096x3.size inb_S4096x384_S4096x3_0_141
abbrev ry24 : Rect S4096x384 := Rect.unit (s := S4096x384) ![0, 144] S4096x6.size inb_S4096x384_S4096x6_0_144
abbrev rc24 : Rect S4096x256 := Rect.unit (s := S4096x256) ![0, 96] S4096x4.size inb_S4096x256_S4096x4_0_96
abbrev rl24 : Rect S4096x384 := Rect.unit (s := S4096x384) ![0, 144] S4096x3.size inb_S4096x384_S4096x3_0_144
abbrev rh24 : Rect S4096x384 := Rect.unit (s := S4096x384) ![0, 147] S4096x3.size inb_S4096x384_S4096x3_0_147
abbrev ry25 : Rect S4096x384 := Rect.unit (s := S4096x384) ![0, 150] S4096x6.size inb_S4096x384_S4096x6_0_150
abbrev rc25 : Rect S4096x256 := Rect.unit (s := S4096x256) ![0, 100] S4096x4.size inb_S4096x256_S4096x4_0_100
abbrev rl25 : Rect S4096x384 := Rect.unit (s := S4096x384) ![0, 150] S4096x3.size inb_S4096x384_S4096x3_0_150
abbrev rh25 : Rect S4096x384 := Rect.unit (s := S4096x384) ![0, 153] S4096x3.size inb_S4096x384_S4096x3_0_153
abbrev ry26 : Rect S4096x384 := Rect.unit (s := S4096x384) ![0, 156] S4096x6.size inb_S4096x384_S4096x6_0_156
abbrev rc26 : Rect S4096x256 := Rect.unit (s := S4096x256) ![0, 104] S4096x4.size inb_S4096x256_S4096x4_0_104
abbrev rl26 : Rect S4096x384 := Rect.unit (s := S4096x384) ![0, 156] S4096x3.size inb_S4096x384_S4096x3_0_156
abbrev rh26 : Rect S4096x384 := Rect.unit (s := S4096x384) ![0, 159] S4096x3.size inb_S4096x384_S4096x3_0_159
abbrev ry27 : Rect S4096x384 := Rect.unit (s := S4096x384) ![0, 162] S4096x6.size inb_S4096x384_S4096x6_0_162
abbrev rc27 : Rect S4096x256 := Rect.unit (s := S4096x256) ![0, 108] S4096x4.size inb_S4096x256_S4096x4_0_108
abbrev rl27 : Rect S4096x384 := Rect.unit (s := S4096x384) ![0, 162] S4096x3.size inb_S4096x384_S4096x3_0_162
abbrev rh27 : Rect S4096x384 := Rect.unit (s := S4096x384) ![0, 165] S4096x3.size inb_S4096x384_S4096x3_0_165
abbrev ry28 : Rect S4096x384 := Rect.unit (s := S4096x384) ![0, 168] S4096x6.size inb_S4096x384_S4096x6_0_168
abbrev rc28 : Rect S4096x256 := Rect.unit (s := S4096x256) ![0, 112] S4096x4.size inb_S4096x256_S4096x4_0_112
abbrev rl28 : Rect S4096x384 := Rect.unit (s := S4096x384) ![0, 168] S4096x3.size inb_S4096x384_S4096x3_0_168
abbrev rh28 : Rect S4096x384 := Rect.unit (s := S4096x384) ![0, 171] S4096x3.size inb_S4096x384_S4096x3_0_171
abbrev ry29 : Rect S4096x384 := Rect.unit (s := S4096x384) ![0, 174] S4096x6.size inb_S4096x384_S4096x6_0_174
abbrev rc29 : Rect S4096x256 := Rect.unit (s := S4096x256) ![0, 116] S4096x4.size inb_S4096x256_S4096x4_0_116
abbrev rl29 : Rect S4096x384 := Rect.unit (s := S4096x384) ![0, 174] S4096x3.size inb_S4096x384_S4096x3_0_174
abbrev rh29 : Rect S4096x384 := Rect.unit (s := S4096x384) ![0, 177] S4096x3.size inb_S4096x384_S4096x3_0_177
abbrev ry30 : Rect S4096x384 := Rect.unit (s := S4096x384) ![0, 180] S4096x6.size inb_S4096x384_S4096x6_0_180
abbrev rc30 : Rect S4096x256 := Rect.unit (s := S4096x256) ![0, 120] S4096x4.size inb_S4096x256_S4096x4_0_120
abbrev rl30 : Rect S4096x384 := Rect.unit (s := S4096x384) ![0, 180] S4096x3.size inb_S4096x384_S4096x3_0_180
abbrev rh30 : Rect S4096x384 := Rect.unit (s := S4096x384) ![0, 183] S4096x3.size inb_S4096x384_S4096x3_0_183
abbrev ry31 : Rect S4096x384 := Rect.unit (s := S4096x384) ![0, 186] S4096x6.size inb_S4096x384_S4096x6_0_186
abbrev rc31 : Rect S4096x256 := Rect.unit (s := S4096x256) ![0, 124] S4096x4.size inb_S4096x256_S4096x4_0_124
abbrev rl31 : Rect S4096x384 := Rect.unit (s := S4096x384) ![0, 186] S4096x3.size inb_S4096x384_S4096x3_0_186
abbrev rh31 : Rect S4096x384 := Rect.unit (s := S4096x384) ![0, 189] S4096x3.size inb_S4096x384_S4096x3_0_189
abbrev ry32 : Rect S4096x384 := Rect.unit (s := S4096x384) ![0, 192] S4096x6.size inb_S4096x384_S4096x6_0_192
abbrev rc32 : Rect S4096x256 := Rect.unit (s := S4096x256) ![0, 128] S4096x4.size inb_S4096x256_S4096x4_0_128
abbrev rl32 : Rect S4096x384 := Rect.unit (s := S4096x384) ![0, 192] S4096x3.size inb_S4096x384_S4096x3_0_192
abbrev rh32 : Rect S4096x384 := Rect.unit (s := S4096x384) ![0, 195] S4096x3.size inb_S4096x384_S4096x3_0_195
abbrev ry33 : Rect S4096x384 := Rect.unit (s := S4096x384) ![0, 198] S4096x6.size inb_S4096x384_S4096x6_0_198
abbrev rc33 : Rect S4096x256 := Rect.unit (s := S4096x256) ![0, 132] S4096x4.size inb_S4096x256_S4096x4_0_132
abbrev rl33 : Rect S4096x384 := Rect.unit (s := S4096x384) ![0, 198] S4096x3.size inb_S4096x384_S4096x3_0_198
abbrev rh33 : Rect S4096x384 := Rect.unit (s := S4096x384) ![0, 201] S4096x3.size inb_S4096x384_S4096x3_0_201
abbrev ry34 : Rect S4096x384 := Rect.unit (s := S4096x384) ![0, 204] S4096x6.size inb_S4096x384_S4096x6_0_204
abbrev rc34 : Rect S4096x256 := Rect.unit (s := S4096x256) ![0, 136] S4096x4.size inb_S4096x256_S4096x4_0_136
abbrev rl34 : Rect S4096x384 := Rect.unit (s := S4096x384) ![0, 204] S4096x3.size inb_S4096x384_S4096x3_0_204
abbrev rh34 : Rect S4096x384 := Rect.unit (s := S4096x384) ![0, 207] S4096x3.size inb_S4096x384_S4096x3_0_207
abbrev ry35 : Rect S4096x384 := Rect.unit (s := S4096x384) ![0, 210] S4096x6.size inb_S4096x384_S4096x6_0_210
abbrev rc35 : Rect S4096x256 := Rect.unit (s := S4096x256) ![0, 140] S4096x4.size inb_S4096x256_S4096x4_0_140
abbrev rl35 : Rect S4096x384 := Rect.unit (s := S4096x384) ![0, 210] S4096x3.size inb_S4096x384_S4096x3_0_210
abbrev rh35 : Rect S4096x384 := Rect.unit (s := S4096x384) ![0, 213] S4096x3.size inb_S4096x384_S4096x3_0_213
abbrev ry36 : Rect S4096x384 := Rect.unit (s := S4096x384) ![0, 216] S4096x6.size inb_S4096x384_S4096x6_0_216
abbrev rc36 : Rect S4096x256 := Rect.unit (s := S4096x256) ![0, 144] S4096x4.size inb_S4096x256_S4096x4_0_144
abbrev rl36 : Rect S4096x384 := Rect.unit (s := S4096x384) ![0, 216] S4096x3.size inb_S4096x384_S4096x3_0_216
abbrev rh36 : Rect S4096x384 := Rect.unit (s := S4096x384) ![0, 219] S4096x3.size inb_S4096x384_S4096x3_0_219
abbrev ry37 : Rect S4096x384 := Rect.unit (s := S4096x384) ![0, 222] S4096x6.size inb_S4096x384_S4096x6_0_222
abbrev rc37 : Rect S4096x256 := Rect.unit (s := S4096x256) ![0, 148] S4096x4.size inb_S4096x256_S4096x4_0_148
abbrev rl37 : Rect S4096x384 := Rect.unit (s := S4096x384) ![0, 222] S4096x3.size inb_S4096x384_S4096x3_0_222
abbrev rh37 : Rect S4096x384 := Rect.unit (s := S4096x384) ![0, 225] S4096x3.size inb_S4096x384_S4096x3_0_225
abbrev ry38 : Rect S4096x384 := Rect.unit (s := S4096x384) ![0, 228] S4096x6.size inb_S4096x384_S4096x6_0_228
abbrev rc38 : Rect S4096x256 := Rect.unit (s := S4096x256) ![0, 152] S4096x4.size inb_S4096x256_S4096x4_0_152
abbrev rl38 : Rect S4096x384 := Rect.unit (s := S4096x384) ![0, 228] S4096x3.size inb_S4096x384_S4096x3_0_228
abbrev rh38 : Rect S4096x384 := Rect.unit (s := S4096x384) ![0, 231] S4096x3.size inb_S4096x384_S4096x3_0_231
abbrev ry39 : Rect S4096x384 := Rect.unit (s := S4096x384) ![0, 234] S4096x6.size inb_S4096x384_S4096x6_0_234
abbrev rc39 : Rect S4096x256 := Rect.unit (s := S4096x256) ![0, 156] S4096x4.size inb_S4096x256_S4096x4_0_156
abbrev rl39 : Rect S4096x384 := Rect.unit (s := S4096x384) ![0, 234] S4096x3.size inb_S4096x384_S4096x3_0_234
abbrev rh39 : Rect S4096x384 := Rect.unit (s := S4096x384) ![0, 237] S4096x3.size inb_S4096x384_S4096x3_0_237
abbrev ry40 : Rect S4096x384 := Rect.unit (s := S4096x384) ![0, 240] S4096x6.size inb_S4096x384_S4096x6_0_240
abbrev rc40 : Rect S4096x256 := Rect.unit (s := S4096x256) ![0, 160] S4096x4.size inb_S4096x256_S4096x4_0_160
abbrev rl40 : Rect S4096x384 := Rect.unit (s := S4096x384) ![0, 240] S4096x3.size inb_S4096x384_S4096x3_0_240
abbrev rh40 : Rect S4096x384 := Rect.unit (s := S4096x384) ![0, 243] S4096x3.size inb_S4096x384_S4096x3_0_243
abbrev ry41 : Rect S4096x384 := Rect.unit (s := S4096x384) ![0, 246] S4096x6.size inb_S4096x384_S4096x6_0_246
abbrev rc41 : Rect S4096x256 := Rect.unit (s := S4096x256) ![0, 164] S4096x4.size inb_S4096x256_S4096x4_0_164
abbrev rl41 : Rect S4096x384 := Rect.unit (s := S4096x384) ![0, 246] S4096x3.size inb_S4096x384_S4096x3_0_246
abbrev rh41 : Rect S4096x384 := Rect.unit (s := S4096x384) ![0, 249] S4096x3.size inb_S4096x384_S4096x3_0_249
abbrev ry42 : Rect S4096x384 := Rect.unit (s := S4096x384) ![0, 252] S4096x6.size inb_S4096x384_S4096x6_0_252
abbrev rc42 : Rect S4096x256 := Rect.unit (s := S4096x256) ![0, 168] S4096x4.size inb_S4096x256_S4096x4_0_168
abbrev rl42 : Rect S4096x384 := Rect.unit (s := S4096x384) ![0, 252] S4096x3.size inb_S4096x384_S4096x3_0_252
abbrev rh42 : Rect S4096x384 := Rect.unit (s := S4096x384) ![0, 255] S4096x3.size inb_S4096x384_S4096x3_0_255
abbrev ry43 : Rect S4096x384 := Rect.unit (s := S4096x384) ![0, 258] S4096x6.size inb_S4096x384_S4096x6_0_258
abbrev rc43 : Rect S4096x256 := Rect.unit (s := S4096x256) ![0, 172] S4096x4.size inb_S4096x256_S4096x4_0_172
abbrev rl43 : Rect S4096x384 := Rect.unit (s := S4096x384) ![0, 258] S4096x3.size inb_S4096x384_S4096x3_0_258
abbrev rh43 : Rect S4096x384 := Rect.unit (s := S4096x384) ![0, 261] S4096x3.size inb_S4096x384_S4096x3_0_261
abbrev ry44 : Rect S4096x384 := Rect.unit (s := S4096x384) ![0, 264] S4096x6.size inb_S4096x384_S4096x6_0_264
abbrev rc44 : Rect S4096x256 := Rect.unit (s := S4096x256) ![0, 176] S4096x4.size inb_S4096x256_S4096x4_0_176
abbrev rl44 : Rect S4096x384 := Rect.unit (s := S4096x384) ![0, 264] S4096x3.size inb_S4096x384_S4096x3_0_264
abbrev rh44 : Rect S4096x384 := Rect.unit (s := S4096x384) ![0, 267] S4096x3.size inb_S4096x384_S4096x3_0_267
abbrev ry45 : Rect S4096x384 := Rect.unit (s := S4096x384) ![0, 270] S4096x6.size inb_S4096x384_S4096x6_0_270
abbrev rc45 : Rect S4096x256 := Rect.unit (s := S4096x256) ![0, 180] S4096x4.size inb_S4096x256_S4096x4_0_180
abbrev rl45 : Rect S4096x384 := Rect.unit (s := S4096x384) ![0, 270] S4096x3.size inb_S4096x384_S4096x3_0_270
abbrev rh45 : Rect S4096x384 := Rect.unit (s := S4096x384) ![0, 273] S4096x3.size inb_S4096x384_S4096x3_0_273
abbrev ry46 : Rect S4096x384 := Rect.unit (s := S4096x384) ![0, 276] S4096x6.size inb_S4096x384_S4096x6_0_276
abbrev rc46 : Rect S4096x256 := Rect.unit (s := S4096x256) ![0, 184] S4096x4.size inb_S4096x256_S4096x4_0_184
abbrev rl46 : Rect S4096x384 := Rect.unit (s := S4096x384) ![0, 276] S4096x3.size inb_S4096x384_S4096x3_0_276
abbrev rh46 : Rect S4096x384 := Rect.unit (s := S4096x384) ![0, 279] S4096x3.size inb_S4096x384_S4096x3_0_279
abbrev ry47 : Rect S4096x384 := Rect.unit (s := S4096x384) ![0, 282] S4096x6.size inb_S4096x384_S4096x6_0_282
abbrev rc47 : Rect S4096x256 := Rect.unit (s := S4096x256) ![0, 188] S4096x4.size inb_S4096x256_S4096x4_0_188
abbrev rl47 : Rect S4096x384 := Rect.unit (s := S4096x384) ![0, 282] S4096x3.size inb_S4096x384_S4096x3_0_282
abbrev rh47 : Rect S4096x384 := Rect.unit (s := S4096x384) ![0, 285] S4096x3.size inb_S4096x384_S4096x3_0_285
abbrev ry48 : Rect S4096x384 := Rect.unit (s := S4096x384) ![0, 288] S4096x6.size inb_S4096x384_S4096x6_0_288
abbrev rc48 : Rect S4096x256 := Rect.unit (s := S4096x256) ![0, 192] S4096x4.size inb_S4096x256_S4096x4_0_192
abbrev rl48 : Rect S4096x384 := Rect.unit (s := S4096x384) ![0, 288] S4096x3.size inb_S4096x384_S4096x3_0_288
abbrev rh48 : Rect S4096x384 := Rect.unit (s := S4096x384) ![0, 291] S4096x3.size inb_S4096x384_S4096x3_0_291
abbrev ry49 : Rect S4096x384 := Rect.unit (s := S4096x384) ![0, 294] S4096x6.size inb_S4096x384_S4096x6_0_294
abbrev rc49 : Rect S4096x256 := Rect.unit (s := S4096x256) ![0, 196] S4096x4.size inb_S4096x256_S4096x4_0_196
abbrev rl49 : Rect S4096x384 := Rect.unit (s := S4096x384) ![0, 294] S4096x3.size inb_S4096x384_S4096x3_0_294
abbrev rh49 : Rect S4096x384 := Rect.unit (s := S4096x384) ![0, 297] S4096x3.size inb_S4096x384_S4096x3_0_297
abbrev ry50 : Rect S4096x384 := Rect.unit (s := S4096x384) ![0, 300] S4096x6.size inb_S4096x384_S4096x6_0_300
abbrev rc50 : Rect S4096x256 := Rect.unit (s := S4096x256) ![0, 200] S4096x4.size inb_S4096x256_S4096x4_0_200
abbrev rl50 : Rect S4096x384 := Rect.unit (s := S4096x384) ![0, 300] S4096x3.size inb_S4096x384_S4096x3_0_300
abbrev rh50 : Rect S4096x384 := Rect.unit (s := S4096x384) ![0, 303] S4096x3.size inb_S4096x384_S4096x3_0_303
abbrev ry51 : Rect S4096x384 := Rect.unit (s := S4096x384) ![0, 306] S4096x6.size inb_S4096x384_S4096x6_0_306
abbrev rc51 : Rect S4096x256 := Rect.unit (s := S4096x256) ![0, 204] S4096x4.size inb_S4096x256_S4096x4_0_204
abbrev rl51 : Rect S4096x384 := Rect.unit (s := S4096x384) ![0, 306] S4096x3.size inb_S4096x384_S4096x3_0_306
abbrev rh51 : Rect S4096x384 := Rect.unit (s := S4096x384) ![0, 309] S4096x3.size inb_S4096x384_S4096x3_0_309
abbrev ry52 : Rect S4096x384 := Rect.unit (s := S4096x384) ![0, 312] S4096x6.size inb_S4096x384_S4096x6_0_312
abbrev rc52 : Rect S4096x256 := Rect.unit (s := S4096x256) ![0, 208] S4096x4.size inb_S4096x256_S4096x4_0_208
abbrev rl52 : Rect S4096x384 := Rect.unit (s := S4096x384) ![0, 312] S4096x3.size inb_S4096x384_S4096x3_0_312
abbrev rh52 : Rect S4096x384 := Rect.unit (s := S4096x384) ![0, 315] S4096x3.size inb_S4096x384_S4096x3_0_315
abbrev ry53 : Rect S4096x384 := Rect.unit (s := S4096x384) ![0, 318] S4096x6.size inb_S4096x384_S4096x6_0_318
abbrev rc53 : Rect S4096x256 := Rect.unit (s := S4096x256) ![0, 212] S4096x4.size inb_S4096x256_S4096x4_0_212
abbrev rl53 : Rect S4096x384 := Rect.unit (s := S4096x384) ![0, 318] S4096x3.size inb_S4096x384_S4096x3_0_318
abbrev rh53 : Rect S4096x384 := Rect.unit (s := S4096x384) ![0, 321] S4096x3.size inb_S4096x384_S4096x3_0_321
abbrev ry54 : Rect S4096x384 := Rect.unit (s := S4096x384) ![0, 324] S4096x6.size inb_S4096x384_S4096x6_0_324
abbrev rc54 : Rect S4096x256 := Rect.unit (s := S4096x256) ![0, 216] S4096x4.size inb_S4096x256_S4096x4_0_216
abbrev rl54 : Rect S4096x384 := Rect.unit (s := S4096x384) ![0, 324] S4096x3.size inb_S4096x384_S4096x3_0_324
abbrev rh54 : Rect S4096x384 := Rect.unit (s := S4096x384) ![0, 327] S4096x3.size inb_S4096x384_S4096x3_0_327
abbrev ry55 : Rect S4096x384 := Rect.unit (s := S4096x384) ![0, 330] S4096x6.size inb_S4096x384_S4096x6_0_330
abbrev rc55 : Rect S4096x256 := Rect.unit (s := S4096x256) ![0, 220] S4096x4.size inb_S4096x256_S4096x4_0_220
abbrev rl55 : Rect S4096x384 := Rect.unit (s := S4096x384) ![0, 330] S4096x3.size inb_S4096x384_S4096x3_0_330
abbrev rh55 : Rect S4096x384 := Rect.unit (s := S4096x384) ![0, 333] S4096x3.size inb_S4096x384_S4096x3_0_333
abbrev ry56 : Rect S4096x384 := Rect.unit (s := S4096x384) ![0, 336] S4096x6.size inb_S4096x384_S4096x6_0_336
abbrev rc56 : Rect S4096x256 := Rect.unit (s := S4096x256) ![0, 224] S4096x4.size inb_S4096x256_S4096x4_0_224
abbrev rl56 : Rect S4096x384 := Rect.unit (s := S4096x384) ![0, 336] S4096x3.size inb_S4096x384_S4096x3_0_336
abbrev rh56 : Rect S4096x384 := Rect.unit (s := S4096x384) ![0, 339] S4096x3.size inb_S4096x384_S4096x3_0_339
abbrev ry57 : Rect S4096x384 := Rect.unit (s := S4096x384) ![0, 342] S4096x6.size inb_S4096x384_S4096x6_0_342
abbrev rc57 : Rect S4096x256 := Rect.unit (s := S4096x256) ![0, 228] S4096x4.size inb_S4096x256_S4096x4_0_228
abbrev rl57 : Rect S4096x384 := Rect.unit (s := S4096x384) ![0, 342] S4096x3.size inb_S4096x384_S4096x3_0_342
abbrev rh57 : Rect S4096x384 := Rect.unit (s := S4096x384) ![0, 345] S4096x3.size inb_S4096x384_S4096x3_0_345
abbrev ry58 : Rect S4096x384 := Rect.unit (s := S4096x384) ![0, 348] S4096x6.size inb_S4096x384_S4096x6_0_348
abbrev rc58 : Rect S4096x256 := Rect.unit (s := S4096x256) ![0, 232] S4096x4.size inb_S4096x256_S4096x4_0_232
abbrev rl58 : Rect S4096x384 := Rect.unit (s := S4096x384) ![0, 348] S4096x3.size inb_S4096x384_S4096x3_0_348
abbrev rh58 : Rect S4096x384 := Rect.unit (s := S4096x384) ![0, 351] S4096x3.size inb_S4096x384_S4096x3_0_351
abbrev ry59 : Rect S4096x384 := Rect.unit (s := S4096x384) ![0, 354] S4096x6.size inb_S4096x384_S4096x6_0_354
abbrev rc59 : Rect S4096x256 := Rect.unit (s := S4096x256) ![0, 236] S4096x4.size inb_S4096x256_S4096x4_0_236
abbrev rl59 : Rect S4096x384 := Rect.unit (s := S4096x384) ![0, 354] S4096x3.size inb_S4096x384_S4096x3_0_354
abbrev rh59 : Rect S4096x384 := Rect.unit (s := S4096x384) ![0, 357] S4096x3.size inb_S4096x384_S4096x3_0_357
abbrev ry60 : Rect S4096x384 := Rect.unit (s := S4096x384) ![0, 360] S4096x6.size inb_S4096x384_S4096x6_0_360
abbrev rc60 : Rect S4096x256 := Rect.unit (s := S4096x256) ![0, 240] S4096x4.size inb_S4096x256_S4096x4_0_240
abbrev rl60 : Rect S4096x384 := Rect.unit (s := S4096x384) ![0, 360] S4096x3.size inb_S4096x384_S4096x3_0_360
abbrev rh60 : Rect S4096x384 := Rect.unit (s := S4096x384) ![0, 363] S4096x3.size inb_S4096x384_S4096x3_0_363
abbrev ry61 : Rect S4096x384 := Rect.unit (s := S4096x384) ![0, 366] S4096x6.size inb_S4096x384_S4096x6_0_366
abbrev rc61 : Rect S4096x256 := Rect.unit (s := S4096x256) ![0, 244] S4096x4.size inb_S4096x256_S4096x4_0_244
abbrev rl61 : Rect S4096x384 := Rect.unit (s := S4096x384) ![0, 366] S4096x3.size inb_S4096x384_S4096x3_0_366
abbrev rh61 : Rect S4096x384 := Rect.unit (s := S4096x384) ![0, 369] S4096x3.size inb_S4096x384_S4096x3_0_369
abbrev ry62 : Rect S4096x384 := Rect.unit (s := S4096x384) ![0, 372] S4096x6.size inb_S4096x384_S4096x6_0_372
abbrev rc62 : Rect S4096x256 := Rect.unit (s := S4096x256) ![0, 248] S4096x4.size inb_S4096x256_S4096x4_0_248
abbrev rl62 : Rect S4096x384 := Rect.unit (s := S4096x384) ![0, 372] S4096x3.size inb_S4096x384_S4096x3_0_372
abbrev rh62 : Rect S4096x384 := Rect.unit (s := S4096x384) ![0, 375] S4096x3.size inb_S4096x384_S4096x3_0_375
abbrev ry63 : Rect S4096x384 := Rect.unit (s := S4096x384) ![0, 378] S4096x6.size inb_S4096x384_S4096x6_0_378
abbrev rc63 : Rect S4096x256 := Rect.unit (s := S4096x256) ![0, 252] S4096x4.size inb_S4096x256_S4096x4_0_252
abbrev rl63 : Rect S4096x384 := Rect.unit (s := S4096x384) ![0, 378] S4096x3.size inb_S4096x384_S4096x3_0_378
abbrev rh63 : Rect S4096x384 := Rect.unit (s := S4096x384) ![0, 381] S4096x3.size inb_S4096x384_S4096x3_0_381

/-! ## The stored strips -/

/-- The body's 128 stores as pieces, the LAST store first: group g's second strip then its first, g from 63 down to 0;
    each payload is the clamp of the group's three value columns between the group's bound columns. -/
def pieces (x0 : Vec F S4096x384 .f32) (x1 : Vec F S4096x256 .f32) : List (View.Piece (Elt F) S4096x384 .f32) :=
  [⟨rh63, k0_pay256 (View.ld x0 ry63) (View.ld x1 rc63)⟩,
   ⟨rl63, k0_pay255 (View.ld x0 ry63) (View.ld x1 rc63)⟩,
   ⟨rh62, k0_pay252 (View.ld x0 ry62) (View.ld x1 rc62)⟩,
   ⟨rl62, k0_pay251 (View.ld x0 ry62) (View.ld x1 rc62)⟩,
   ⟨rh61, k0_pay248 (View.ld x0 ry61) (View.ld x1 rc61)⟩,
   ⟨rl61, k0_pay247 (View.ld x0 ry61) (View.ld x1 rc61)⟩,
   ⟨rh60, k0_pay244 (View.ld x0 ry60) (View.ld x1 rc60)⟩,
   ⟨rl60, k0_pay243 (View.ld x0 ry60) (View.ld x1 rc60)⟩,
   ⟨rh59, k0_pay240 (View.ld x0 ry59) (View.ld x1 rc59)⟩,
   ⟨rl59, k0_pay239 (View.ld x0 ry59) (View.ld x1 rc59)⟩,
   ⟨rh58, k0_pay236 (View.ld x0 ry58) (View.ld x1 rc58)⟩,
   ⟨rl58, k0_pay235 (View.ld x0 ry58) (View.ld x1 rc58)⟩,
   ⟨rh57, k0_pay232 (View.ld x0 ry57) (View.ld x1 rc57)⟩,
   ⟨rl57, k0_pay231 (View.ld x0 ry57) (View.ld x1 rc57)⟩,
   ⟨rh56, k0_pay228 (View.ld x0 ry56) (View.ld x1 rc56)⟩,
   ⟨rl56, k0_pay227 (View.ld x0 ry56) (View.ld x1 rc56)⟩,
   ⟨rh55, k0_pay224 (View.ld x0 ry55) (View.ld x1 rc55)⟩,
   ⟨rl55, k0_pay223 (View.ld x0 ry55) (View.ld x1 rc55)⟩,
   ⟨rh54, k0_pay220 (View.ld x0 ry54) (View.ld x1 rc54)⟩,
   ⟨rl54, k0_pay219 (View.ld x0 ry54) (View.ld x1 rc54)⟩,
   ⟨rh53, k0_pay216 (View.ld x0 ry53) (View.ld x1 rc53)⟩,
   ⟨rl53, k0_pay215 (View.ld x0 ry53) (View.ld x1 rc53)⟩,
   ⟨rh52, k0_pay212 (View.ld x0 ry52) (View.ld x1 rc52)⟩,
   ⟨rl52, k0_pay211 (View.ld x0 ry52) (View.ld x1 rc52)⟩,
   ⟨rh51, k0_pay208 (View.ld x0 ry51) (View.ld x1 rc51)⟩,
   ⟨rl51, k0_pay207 (View.ld x0 ry51) (View.ld x1 rc51)⟩,
   ⟨rh50, k0_pay204 (View.ld x0 ry50) (View.ld x1 rc50)⟩,
   ⟨rl50, k0_pay203 (View.ld x0 ry50) (View.ld x1 rc50)⟩,
   ⟨rh49, k0_pay200 (View.ld x0 ry49) (View.ld x1 rc49)⟩,
   ⟨rl49, k0_pay199 (View.ld x0 ry49) (View.ld x1 rc49)⟩,
   ⟨rh48, k0_pay196 (View.ld x0 ry48) (View.ld x1 rc48)⟩,
   ⟨rl48, k0_pay195 (View.ld x0 ry48) (View.ld x1 rc48)⟩,
   ⟨rh47, k0_pay192 (View.ld x0 ry47) (View.ld x1 rc47)⟩,
   ⟨rl47, k0_pay191 (View.ld x0 ry47) (View.ld x1 rc47)⟩,
   ⟨rh46, k0_pay188 (View.ld x0 ry46) (View.ld x1 rc46)⟩,
   ⟨rl46, k0_pay187 (View.ld x0 ry46) (View.ld x1 rc46)⟩,
   ⟨rh45, k0_pay184 (View.ld x0 ry45) (View.ld x1 rc45)⟩,
   ⟨rl45, k0_pay183 (View.ld x0 ry45) (View.ld x1 rc45)⟩,
   ⟨rh44, k0_pay180 (View.ld x0 ry44) (View.ld x1 rc44)⟩,
   ⟨rl44, k0_pay179 (View.ld x0 ry44) (View.ld x1 rc44)⟩,
   ⟨rh43, k0_pay176 (View.ld x0 ry43) (View.ld x1 rc43)⟩,
   ⟨rl43, k0_pay175 (View.ld x0 ry43) (View.ld x1 rc43)⟩,
   ⟨rh42, k0_pay172 (View.ld x0 ry42) (View.ld x1 rc42)⟩,
   ⟨rl42, k0_pay171 (View.ld x0 ry42) (View.ld x1 rc42)⟩,
   ⟨rh41, k0_pay168 (View.ld x0 ry41) (View.ld x1 rc41)⟩,
   ⟨rl41, k0_pay167 (View.ld x0 ry41) (View.ld x1 rc41)⟩,
   ⟨rh40, k0_pay164 (View.ld x0 ry40) (View.ld x1 rc40)⟩,
   ⟨rl40, k0_pay163 (View.ld x0 ry40) (View.ld x1 rc40)⟩,
   ⟨rh39, k0_pay160 (View.ld x0 ry39) (View.ld x1 rc39)⟩,
   ⟨rl39, k0_pay159 (View.ld x0 ry39) (View.ld x1 rc39)⟩,
   ⟨rh38, k0_pay156 (View.ld x0 ry38) (View.ld x1 rc38)⟩,
   ⟨rl38, k0_pay155 (View.ld x0 ry38) (View.ld x1 rc38)⟩,
   ⟨rh37, k0_pay152 (View.ld x0 ry37) (View.ld x1 rc37)⟩,
   ⟨rl37, k0_pay151 (View.ld x0 ry37) (View.ld x1 rc37)⟩,
   ⟨rh36, k0_pay148 (View.ld x0 ry36) (View.ld x1 rc36)⟩,
   ⟨rl36, k0_pay147 (View.ld x0 ry36) (View.ld x1 rc36)⟩,
   ⟨rh35, k0_pay144 (View.ld x0 ry35) (View.ld x1 rc35)⟩,
   ⟨rl35, k0_pay143 (View.ld x0 ry35) (View.ld x1 rc35)⟩,
   ⟨rh34, k0_pay140 (View.ld x0 ry34) (View.ld x1 rc34)⟩,
   ⟨rl34, k0_pay139 (View.ld x0 ry34) (View.ld x1 rc34)⟩,
   ⟨rh33, k0_pay136 (View.ld x0 ry33) (View.ld x1 rc33)⟩,
   ⟨rl33, k0_pay135 (View.ld x0 ry33) (View.ld x1 rc33)⟩,
   ⟨rh32, k0_pay132 (View.ld x0 ry32) (View.ld x1 rc32)⟩,
   ⟨rl32, k0_pay131 (View.ld x0 ry32) (View.ld x1 rc32)⟩,
   ⟨rh31, k0_pay128 (View.ld x0 ry31) (View.ld x1 rc31)⟩,
   ⟨rl31, k0_pay127 (View.ld x0 ry31) (View.ld x1 rc31)⟩,
   ⟨rh30, k0_pay124 (View.ld x0 ry30) (View.ld x1 rc30)⟩,
   ⟨rl30, k0_pay123 (View.ld x0 ry30) (View.ld x1 rc30)⟩,
   ⟨rh29, k0_pay120 (View.ld x0 ry29) (View.ld x1 rc29)⟩,
   ⟨rl29, k0_pay119 (View.ld x0 ry29) (View.ld x1 rc29)⟩,
   ⟨rh28, k0_pay116 (View.ld x0 ry28) (View.ld x1 rc28)⟩,
   ⟨rl28, k0_pay115 (View.ld x0 ry28) (View.ld x1 rc28)⟩,
   ⟨rh27, k0_pay112 (View.ld x0 ry27) (View.ld x1 rc27)⟩,
   ⟨rl27, k0_pay111 (View.ld x0 ry27) (View.ld x1 rc27)⟩,
   ⟨rh26, k0_pay108 (View.ld x0 ry26) (View.ld x1 rc26)⟩,
   ⟨rl26, k0_pay107 (View.ld x0 ry26) (View.ld x1 rc26)⟩,
   ⟨rh25, k0_pay104 (View.ld x0 ry25) (View.ld x1 rc25)⟩,
   ⟨rl25, k0_pay103 (View.ld x0 ry25) (View.ld x1 rc25)⟩,
   ⟨rh24, k0_pay100 (View.ld x0 ry24) (View.ld x1 rc24)⟩,
   ⟨rl24, k0_pay99 (View.ld x0 ry24) (View.ld x1 rc24)⟩,
   ⟨rh23, k0_pay96 (View.ld x0 ry23) (View.ld x1 rc23)⟩,
   ⟨rl23, k0_pay95 (View.ld x0 ry23) (View.ld x1 rc23)⟩,
   ⟨rh22, k0_pay92 (View.ld x0 ry22) (View.ld x1 rc22)⟩,
   ⟨rl22, k0_pay91 (View.ld x0 ry22) (View.ld x1 rc22)⟩,
   ⟨rh21, k0_pay88 (View.ld x0 ry21) (View.ld x1 rc21)⟩,
   ⟨rl21, k0_pay87 (View.ld x0 ry21) (View.ld x1 rc21)⟩,
   ⟨rh20, k0_pay84 (View.ld x0 ry20) (View.ld x1 rc20)⟩,
   ⟨rl20, k0_pay83 (View.ld x0 ry20) (View.ld x1 rc20)⟩,
   ⟨rh19, k0_pay80 (View.ld x0 ry19) (View.ld x1 rc19)⟩,
   ⟨rl19, k0_pay79 (View.ld x0 ry19) (View.ld x1 rc19)⟩,
   ⟨rh18, k0_pay76 (View.ld x0 ry18) (View.ld x1 rc18)⟩,
   ⟨rl18, k0_pay75 (View.ld x0 ry18) (View.ld x1 rc18)⟩,
   ⟨rh17, k0_pay72 (View.ld x0 ry17) (View.ld x1 rc17)⟩,
   ⟨rl17, k0_pay71 (View.ld x0 ry17) (View.ld x1 rc17)⟩,
   ⟨rh16, k0_pay68 (View.ld x0 ry16) (View.ld x1 rc16)⟩,
   ⟨rl16, k0_pay67 (View.ld x0 ry16) (View.ld x1 rc16)⟩,
   ⟨rh15, k0_pay64 (View.ld x0 ry15) (View.ld x1 rc15)⟩,
   ⟨rl15, k0_pay63 (View.ld x0 ry15) (View.ld x1 rc15)⟩,
   ⟨rh14, k0_pay60 (View.ld x0 ry14) (View.ld x1 rc14)⟩,
   ⟨rl14, k0_pay59 (View.ld x0 ry14) (View.ld x1 rc14)⟩,
   ⟨rh13, k0_pay56 (View.ld x0 ry13) (View.ld x1 rc13)⟩,
   ⟨rl13, k0_pay55 (View.ld x0 ry13) (View.ld x1 rc13)⟩,
   ⟨rh12, k0_pay52 (View.ld x0 ry12) (View.ld x1 rc12)⟩,
   ⟨rl12, k0_pay51 (View.ld x0 ry12) (View.ld x1 rc12)⟩,
   ⟨rh11, k0_pay48 (View.ld x0 ry11) (View.ld x1 rc11)⟩,
   ⟨rl11, k0_pay47 (View.ld x0 ry11) (View.ld x1 rc11)⟩,
   ⟨rh10, k0_pay44 (View.ld x0 ry10) (View.ld x1 rc10)⟩,
   ⟨rl10, k0_pay43 (View.ld x0 ry10) (View.ld x1 rc10)⟩,
   ⟨rh9, k0_pay40 (View.ld x0 ry9) (View.ld x1 rc9)⟩,
   ⟨rl9, k0_pay39 (View.ld x0 ry9) (View.ld x1 rc9)⟩,
   ⟨rh8, k0_pay36 (View.ld x0 ry8) (View.ld x1 rc8)⟩,
   ⟨rl8, k0_pay35 (View.ld x0 ry8) (View.ld x1 rc8)⟩,
   ⟨rh7, k0_pay32 (View.ld x0 ry7) (View.ld x1 rc7)⟩,
   ⟨rl7, k0_pay31 (View.ld x0 ry7) (View.ld x1 rc7)⟩,
   ⟨rh6, k0_pay28 (View.ld x0 ry6) (View.ld x1 rc6)⟩,
   ⟨rl6, k0_pay27 (View.ld x0 ry6) (View.ld x1 rc6)⟩,
   ⟨rh5, k0_pay24 (View.ld x0 ry5) (View.ld x1 rc5)⟩,
   ⟨rl5, k0_pay23 (View.ld x0 ry5) (View.ld x1 rc5)⟩,
   ⟨rh4, k0_pay20 (View.ld x0 ry4) (View.ld x1 rc4)⟩,
   ⟨rl4, k0_pay19 (View.ld x0 ry4) (View.ld x1 rc4)⟩,
   ⟨rh3, k0_pay16 (View.ld x0 ry3) (View.ld x1 rc3)⟩,
   ⟨rl3, k0_pay15 (View.ld x0 ry3) (View.ld x1 rc3)⟩,
   ⟨rh2, k0_pay12 (View.ld x0 ry2) (View.ld x1 rc2)⟩,
   ⟨rl2, k0_pay11 (View.ld x0 ry2) (View.ld x1 rc2)⟩,
   ⟨rh1, k0_pay8 (View.ld x0 ry1) (View.ld x1 rc1)⟩,
   ⟨rl1, k0_pay7 (View.ld x0 ry1) (View.ld x1 rc1)⟩,
   ⟨rh0, k0_pay4 (View.ld x0 ry0) (View.ld x1 rc0)⟩,
   ⟨rl0, k0_pay3 (View.ld x0 ry0) (View.ld x1 rc0)⟩]

/-- The result block after the body, as a function of the two input blocks. -/
def out0_2 (x0 : Vec F S4096x384 .f32) (x1 : Vec F S4096x256 .f32) : Vec F S4096x384 .f32 :=
  View.canon (pieces x0 x1)

/-- The 128 strips tile the block (the offsets and sizes are compared, the payloads never looked at), so they cover it. -/
theorem cover0_2 (x0 : Vec F S4096x384 .f32) (x1 : Vec F S4096x256 .f32) (y : S4096x384.Idx) :
    ∃ pc ∈ pieces x0 x1, y ∈ pc.1.set :=
  View.cover_of_tiled (pieces x0 x1) S4096x3.size (by rfl) y

end Cert.KernelIdeal.Body

end
-- ==== Proof.KIKernelRun.lean ====
/-
  The clamp body as a triple: on whole staging blocks — the values' holding `x0`, the bounds' holding `x1`, the
  result's holding anything — the body terminates without a fault, leaves the two input blocks as they were, and
  leaves the result block at the overlay of its 128 stored strips (`out0_2 x0 x1`): every load reads an input block
  through a literal rectangle, every store writes a strip of the result block, and the strips cover it.
-/
import proofs.«178242_j27358941676275_2_alg».proof.Proof.KIPieces
import proofs.«178242_j27358941676275_2_alg».proof.Proof.Gen.KernelIdeal.Frame
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body on whole staging memrefs: inputs at `x0`, `x1`, the result's at anything; it runs to the continuation
    holding the inputs as they were and the result's block at `out0_2 x0 x1`. -/
theorem sound_kernel (c : Dev nD) (E : Set ℕ) (i : grid0.Coords)
    (arg1 : Memref sig .tc .vmem S4096x384 .f32) (harg1 : arg1.IsWhole)
    (arg2 : Memref sig .tc .vmem S4096x256 .f32) (harg2 : arg2.IsWhole)
    (arg3 : Memref sig .tc .vmem S4096x384 .f32) (harg3 : arg3.IsWhole)
    (x0 : Vec F S4096x384 .f32) (x1 : Vec F S4096x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__clamp_kernel i arg1 harg1 arg2 harg2 arg3 harg3) K := by
  simp only [cc0__clamp_kernel_eq_skeleton]; unfold cc0__clamp_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

end Cert.KernelIdeal.Body

end
-- ==== Proof.KIData.lean ====
/-
  The proof data of the clamp kernel's pipeline. At each of the 16 grid points the pipeline fetches 4096 packed lines of
  the values and of the bounds into staging blocks, runs the body, and writes the result block back; the last point's
  blocks overhang the 62500-line arrays (16 · 4096 = 65536), so its transfers move only the first lines of a block and
  the staging lines past the arrays' end hold words nothing names. Stated here: the part of each input block inside its
  array, the same filled out to a whole block, what each staging block holds after the body, and what the body finds.
-/
import proofs.«178242_j27358941676275_2_alg».proof.Proof.KIPieces
import proofs.«178242_j27358941676275_2_alg».proof.Proof.Gen.KernelIdeal.Frame
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The part of the values' block at point `t` that lies inside the packed array, as the fetch reads it; -/
def yblk (c : Dev nD) (t : Fin cfg0.N) : (win0_0.xblock (grid0.coords t)).Idx → Elt F .f32 :=
  (win0_0.blk t).view.read (Elt F) (V m c (Pipeline.arrRef spec0 0))
/-- the bounds' likewise. -/
def cblk (c : Dev nD) (t : Fin cfg0.N) : (win0_1.xblock (grid0.coords t)).Idx → Elt F .f32 :=
  (win0_1.blk t).view.read (Elt F) (V m c (Pipeline.arrRef spec0 1))

/-- Those parts filled out to whole 4096-line blocks with the zero word on the lines past the array's end (lines the
    transfers never move and nothing reads). -/
def y8 (c : Dev nD) (t : Fin cfg0.N) : S4096x384.Idx → Elt F .f32 :=
  win0_0.fill (grid0.coords t) (fun _ => Scalar.ofBits .f32 0#32) (yblk m c t)
def c8 (c : Dev nD) (t : Fin cfg0.N) : S4096x256.Idx → Elt F .f32 :=
  win0_1.fill (grid0.coords t) (fun _ => Scalar.ofBits .f32 0#32) (cblk m c t)

/-- The proof data of the one pipeline on core `c`: the arrays as the region finds them; after the body the inputs'
    staging blocks at their filled-out blocks and the result's at the clamp of the two; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => y8 m c t
    | ⟨1, _⟩ => c8 m c t
    | ⟨2, _⟩ => out0_2 (y8 m c t) (c8 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = y8 m c t := by dsimp only [dats]
theorem after0_1 (c : Dev nD) (t : Fin cfg0.N) : (dats m 0 c).after 1 t = c8 m c t := by dsimp only [dats]
theorem after0_2 (c : Dev nD) (t : Fin cfg0.N) : (dats m 0 c).after 2 t = out0_2 (y8 m c t) (c8 m c t) := by dsimp only [dats]

/-- The result's window is never fetched. -/
theorem fetch0_2 : ∀ t : Fin cfg0.N, (cfg0.win 2).fetch t = false :=
  (by decide +kernel : ∀ t : Fin grid0.N, win0_2.fetch t = false)

/-- What the body finds: the two inputs' blocks just fetched — the array's part on the moved lines, `d` elsewhere —, -/
theorem before_0 (c : Dev nD) (t : Fin cfg0.N) (d) :
    (dats m 0 c).before (0 : Fin 3) t d = win0_0.fill (grid0.coords t) d (yblk m c t) := by
  unfold Dat.before; rw [if_pos (fetch0_0 t)]; rfl
theorem before_1 (c : Dev nD) (t : Fin cfg0.N) (d) :
    (dats m 0 c).before (1 : Fin 3) t d = win0_1.fill (grid0.coords t) d (cblk m c t) := by
  unfold Dat.before; rw [if_pos (fetch0_1 t)]; rfl
/-- and the result's block at contents nothing names (it was written back at the point before, or never filled). -/
theorem before_2 (c : Dev nD) (t : Fin cfg0.N) (d) : (dats m 0 c).before (2 : Fin 3) t d = d := by
  by_cases ht : t.val = 0
  · unfold Dat.before
    rw [if_neg (by rw [fetch0_2 t]; exact Bool.false_ne_true), if_pos ht]
  · rw [(dats m 0 c).before_of_pos (2 : Fin 3) t ht (fetch0_2 t) d, if_pos (flush0_2 _)]

end Cert.KernelIdeal.Body

end
-- ==== Proof.KIBlockValue.lean ====
/-
  The result block in closed form. The body stores, for each of the 64 groups g of a packed line, two strips of three
  columns: columns [6g, 6g+3) hold min (c[:, 4g+1], max (c[:, 4g], y[:, 6g .. 6g+3))) and columns [6g+3, 6g+6) hold
  min (c[:, 4g+3], max (c[:, 4g+2], y[:, 6g+3 .. 6g+6))), the single bound columns broadcast across the three. Column
  q = 6g + j of a strip has q / 6 = g and q % 6 = j (first strip, j < 3) or 3 + j (second strip), so every stored strip
  is the packed clamp of the specification read on the strip's rectangle; the strips tile the block, hence the block is
  the packed clamp.
-/
import proofs.«178242_j27358941676275_2_alg».proof.Proof.KIPieces
import proofs.«178242_j27358941676275_2_alg».proof.Proof.ClampSpec
import Idealize.ShloMosaic.Lib.Pipeline.Value
import Idealize.ShloMosaic.Lib.ValueIdx

set_option maxRecDepth 16384

noncomputable section

namespace Cert.KernelIdeal.Body

open Cert.KernelIdeal Cert.KernelIdeal.Gen Cert.ClampSpec
open Idealize.ShloMosaic Idealize.SL.Sem Idealize.ShloMosaic.ValueIdx

variable {F : FTy → Type} [FloatOps F]

/-! ## One group's two payloads at an entry -/

/-- The first strip's payload at (r, j): the value (r, j) held between the bounds (r, 0) and (r, 1). -/
theorem pay3_at (v0 : Vec F S4096x6 .f32) (v2 : Vec F S4096x4 .f32) (r : Fin 4096) (j : Fin 3) :
    k0_pay3 v0 v2 (ix2 r j)
      = clamp1 (v2 (ix2 r (0 : Fin 4))) (v2 (ix2 r (1 : Fin 4))) (v0 (ix2 r (⟨j.val, by omega⟩ : Fin 6))) := by
  unfold k0_pay3 k0_pay2 k0_pay1
  simp only [shapeCast_self]
  show FloatOps.minimumf (broadcastTo S4096x3 _ _ (ix2 r j))
      (FloatOps.maximumf (broadcastTo S4096x3 _ _ (ix2 r j)) (extractStridedSlice S4096x3 _ _ _ (ix2 r j))) = _
  rw [broadcastTo_apply _ broadcasts_S4096x1_S4096x3 (ix2 r j) (ix2 r (0 : Fin 1)) (fun a => match a with
      | ⟨0, _⟩ => by show r.val = if (4096 : Nat) = 1 then 0 else r.val; rw [if_neg (by decide)]
      | ⟨1, _⟩ => by show 0 = if (1 : Nat) = 1 then 0 else _; rw [if_pos rfl]),
    broadcastTo_apply _ broadcasts_S4096x1_S4096x3 (ix2 r j) (ix2 r (0 : Fin 1)) (fun a => match a with
      | ⟨0, _⟩ => by show r.val = if (4096 : Nat) = 1 then 0 else r.val; rw [if_neg (by decide)]
      | ⟨1, _⟩ => by show 0 = if (1 : Nat) = 1 then 0 else _; rw [if_pos rfl]),
    extractStridedSlice_apply ![0, 1] v2 slices_S4096x4_o0_1_S4096x1 (ix2 r (0 : Fin 1)) (ix2 r (1 : Fin 4)) (fun a => match a with
      | ⟨0, _⟩ => by show r.val = 0 + r.val; omega
      | ⟨1, _⟩ => by show 1 = 1 + 0; rfl),
    extractStridedSlice_apply ![0, 0] v2 slices_S4096x4_o0_0_S4096x1 (ix2 r (0 : Fin 1)) (ix2 r (0 : Fin 4)) (fun a => match a with
      | ⟨0, _⟩ => by show r.val = 0 + r.val; omega
      | ⟨1, _⟩ => by show 0 = 0 + 0; rfl),
    extractStridedSlice_apply ![0, 0] v0 slices_S4096x6_o0_0_S4096x3 (ix2 r j) (ix2 r (⟨j.val, by omega⟩ : Fin 6)) (fun a => match a with
      | ⟨0, _⟩ => by show r.val = 0 + r.val; omega
      | ⟨1, _⟩ => by show j.val = 0 + j.val; omega)]
  rfl

/-- The second strip's payload at (r, j): the value (r, 3 + j) held between the bounds (r, 2) and (r, 3). -/
theorem pay4_at (v0 : Vec F S4096x6 .f32) (v2 : Vec F S4096x4 .f32) (r : Fin 4096) (j : Fin 3) :
    k0_pay4 v0 v2 (ix2 r j)
      = clamp1 (v2 (ix2 r (2 : Fin 4))) (v2 (ix2 r (3 : Fin 4))) (v0 (ix2 r (⟨3 + j.val, by omega⟩ : Fin 6))) := by
  unfold k0_pay4 k0_pay2 k0_pay1
  simp only [shapeCast_self]
  show FloatOps.minimumf (broadcastTo S4096x3 _ _ (ix2 r j))
      (FloatOps.maximumf (broadcastTo S4096x3 _ _ (ix2 r j)) (extractStridedSlice S4096x3 _ _ _ (ix2 r j))) = _
  rw [broadcastTo_apply _ broadcasts_S4096x1_S4096x3 (ix2 r j) (ix2 r (0 : Fin 1)) (fun a => match a with
      | ⟨0, _⟩ => by show r.val = if (4096 : Nat) = 1 then 0 else r.val; rw [if_neg (by decide)]
      | ⟨1, _⟩ => by show 0 = if (1 : Nat) = 1 then 0 else _; rw [if_pos rfl]),
    broadcastTo_apply _ broadcasts_S4096x1_S4096x3 (ix2 r j) (ix2 r (0 : Fin 1)) (fun a => match a with
      | ⟨0, _⟩ => by show r.val = if (4096 : Nat) = 1 then 0 else r.val; rw [if_neg (by decide)]
      | ⟨1, _⟩ => by show 0 = if (1 : Nat) = 1 then 0 else _; rw [if_pos rfl]),
    extractStridedSlice_apply ![0, 3] v2 slices_S4096x4_o0_3_S4096x1 (ix2 r (0 : Fin 1)) (ix2 r (3 : Fin 4)) (fun a => match a with
      | ⟨0, _⟩ => by show r.val = 0 + r.val; omega
      | ⟨1, _⟩ => by show 3 = 3 + 0; rfl),
    extractStridedSlice_apply ![0, 2] v2 slices_S4096x4_o0_2_S4096x1 (ix2 r (0 : Fin 1)) (ix2 r (2 : Fin 4)) (fun a => match a with
      | ⟨0, _⟩ => by show r.val = 0 + r.val; omega
      | ⟨1, _⟩ => by show 2 = 2 + 0; rfl),
    extractStridedSlice_apply ![0, 3] v0 slices_S4096x6_o0_3_S4096x3 (ix2 r j) (ix2 r (⟨3 + j.val, by omega⟩ : Fin 6)) (fun a => match a with
      | ⟨0, _⟩ => by show r.val = 0 + r.val; omega
      | ⟨1, _⟩ => by show 3 + j.val = 3 + j.val; omega)]
  rfl

/-! ## The rectangles of group g, from its number -/

/-- Group g's six value columns [6g, 6g+6) of all 4096 lines. -/
abbrev ryG (g : Nat) (hg : g < 64) : Rect S4096x384 :=
  Rect.unit (s := S4096x384) ![0, 6 * g] S4096x6.size (fun a => match a with
    | ⟨0, _⟩ => by show 0 + 4096 ≤ 4096; omega
    | ⟨1, _⟩ => by show 6 * g + 6 ≤ 384; omega)
/-- Group g's four bound columns [4g, 4g+4) of all 4096 lines. -/
abbrev rcG (g : Nat) (hg : g < 64) : Rect S4096x256 :=
  Rect.unit (s := S4096x256) ![0, 4 * g] S4096x4.size (fun a => match a with
    | ⟨0, _⟩ => by show 0 + 4096 ≤ 4096; omega
    | ⟨1, _⟩ => by show 4 * g + 4 ≤ 256; omega)
/-- Group g's first strip, columns [6g, 6g+3). -/
abbrev rlG (g : Nat) (hg : g < 64) : Rect S4096x384 :=
  Rect.unit (s := S4096x384) ![0, 6 * g] S4096x3.size (fun a => match a with
    | ⟨0, _⟩ => by show 0 + 4096 ≤ 4096; omega
    | ⟨1, _⟩ => by show 6 * g + 3 ≤ 384; omega)
/-- Group g's second strip, columns [6g+3, 6g+6). -/
abbrev rhG (g : Nat) (hg : g < 64) : Rect S4096x384 :=
  Rect.unit (s := S4096x384) ![0, 6 * g + 3] S4096x3.size (fun a => match a with
    | ⟨0, _⟩ => by show 0 + 4096 ≤ 4096; omega
    | ⟨1, _⟩ => by show 6 * g + 3 + 3 ≤ 384; omega)

/-- Equal bounds and equal values clamp alike. -/
theorem clamp1_congr {lo lo' hi hi' y y' : F .f32} (h1 : lo = lo') (h2 : hi = hi') (h3 : y = y') :
    clamp1 lo hi y = clamp1 lo' hi' y' := by rw [h1, h2, h3]

/-! ## One group's two strips are the packed clamp on their rectangles -/

/-- Column 6g + j, j < 3, is in group g at place j: its bounds are columns 4g and 4g + 1. -/
theorem lo_at (g : Nat) (hg : g < 64) (x0 : Vec F S4096x384 .f32) (x1 : Vec F S4096x256 .f32) (x : S4096x3.Idx) :
    k0_pay3 (View.ld x0 (ryG g hg)) (View.ld x1 (rcG g hg)) x = GP (n := 4096) x0 x1 ((rlG g hg).emb x) := by
  obtain ⟨r, j, rfl⟩ : ∃ (r : Fin 4096) (j : Fin 3), x = ix2 r j := ⟨x 0, x 1, eq_ix2 x⟩
  have hj := j.isLt
  rw [pay3_at]
  unfold GP
  have hlt : (((rlG g hg).emb (ix2 r j)) 1).val % 6 < 3 := by
    show (6 * g + 1 * j.val) % 6 < 3; omega
  rw [if_pos hlt]
  refine clamp1_congr (congrArg x1 (funext fun a => ?_)) (congrArg x1 (funext fun a => ?_)) (congrArg x0 (funext fun a => ?_))
  · match a with
    | ⟨0, _⟩ => exact Fin.ext (by show 0 + 1 * r.val = 0 + 1 * r.val; rfl)
    | ⟨1, _⟩ => exact Fin.ext (by show 4 * g + 1 * 0 = 4 * ((6 * g + 1 * j.val) / 6) + 0; omega)
  · match a with
    | ⟨0, _⟩ => exact Fin.ext (by show 0 + 1 * r.val = 0 + 1 * r.val; rfl)
    | ⟨1, _⟩ => exact Fin.ext (by show 4 * g + 1 * 1 = 4 * ((6 * g + 1 * j.val) / 6) + 1; omega)
  · match a with
    | ⟨0, _⟩ => exact Fin.ext (by show 0 + 1 * r.val = 0 + 1 * r.val; rfl)
    | ⟨1, _⟩ => exact Fin.ext (by show 6 * g + 1 * j.val = 6 * g + 1 * j.val; rfl)

/-- Column 6g + 3 + j, j < 3, is in group g at place 3 + j: its bounds are columns 4g + 2 and 4g + 3. -/
theorem hi_at (g : Nat) (hg : g < 64) (x0 : Vec F S4096x384 .f32) (x1 : Vec F S4096x256 .f32) (x : S4096x3.Idx) :
    k0_pay4 (View.ld x0 (ryG g hg)) (View.ld x1 (rcG g hg)) x = GP (n := 4096) x0 x1 ((rhG g hg).emb x) := by
  obtain ⟨r, j, rfl⟩ : ∃ (r : Fin 4096) (j : Fin 3), x = ix2 r j := ⟨x 0, x 1, eq_ix2 x⟩
  have hj := j.isLt
  rw [pay4_at]
  unfold GP
  have hge : ¬ (((rhG g hg).emb (ix2 r j)) 1).val % 6 < 3 := by
    show ¬ (6 * g + 3 + 1 * j.val) % 6 < 3; omega
  rw [if_neg hge]
  refine clamp1_congr (congrArg x1 (funext fun a => ?_)) (congrArg x1 (funext fun a => ?_)) (congrArg x0 (funext fun a => ?_))
  · match a with
    | ⟨0, _⟩ => exact Fin.ext (by show 0 + 1 * r.val = 0 + 1 * r.val; rfl)
    | ⟨1, _⟩ => exact Fin.ext (by show 4 * g + 1 * 2 = 4 * ((6 * g + 3 + 1 * j.val) / 6) + 2; omega)
  · match a with
    | ⟨0, _⟩ => exact Fin.ext (by show 0 + 1 * r.val = 0 + 1 * r.val; rfl)
    | ⟨1, _⟩ => exact Fin.ext (by show 4 * g + 1 * 3 = 4 * ((6 * g + 3 + 1 * j.val) / 6) + 3; omega)
  · match a with
    | ⟨0, _⟩ => exact Fin.ext (by show 0 + 1 * r.val = 0 + 1 * r.val; rfl)
    | ⟨1, _⟩ => exact Fin.ext (by show 6 * g + 1 * (3 + j.val) = 6 * g + 3 + 1 * j.val; omega)

/-! ## The 128 stored strips, and the block -/

/-- Every stored strip is the packed clamp read on the strip's rectangle: the strips of group g, g from 63 down to 0,
    are the two strips above at that g (the literal offsets 6g, 6g + 3, 4g are those products computed). -/
theorem pieces_agree (x0 : Vec F S4096x384 .f32) (x1 : Vec F S4096x256 .f32) :
    ∀ p ∈ pieces x0 x1, ∀ x : p.1.shape.Idx, p.2 x = GP (n := 4096) x0 x1 (p.1.emb x) := by
  unfold pieces
  refine List.forall_mem_cons.2 ⟨fun x => hi_at 63 (by omega) x0 x1 x, ?_⟩
  refine List.forall_mem_cons.2 ⟨fun x => lo_at 63 (by omega) x0 x1 x, ?_⟩
  refine List.forall_mem_cons.2 ⟨fun x => hi_at 62 (by omega) x0 x1 x, ?_⟩
  refine List.forall_mem_cons.2 ⟨fun x => lo_at 62 (by omega) x0 x1 x, ?_⟩
  refine List.forall_mem_cons.2 ⟨fun x => hi_at 61 (by omega) x0 x1 x, ?_⟩
  refine List.forall_mem_cons.2 ⟨fun x => lo_at 61 (by omega) x0 x1 x, ?_⟩
  refine List.forall_mem_cons.2 ⟨fun x => hi_at 60 (by omega) x0 x1 x, ?_⟩
  refine List.forall_mem_cons.2 ⟨fun x => lo_at 60 (by omega) x0 x1 x, ?_⟩
  refine List.forall_mem_cons.2 ⟨fun x => hi_at 59 (by omega) x0 x1 x, ?_⟩
  refine List.forall_mem_cons.2 ⟨fun x => lo_at 59 (by omega) x0 x1 x, ?_⟩
  refine List.forall_mem_cons.2 ⟨fun x => hi_at 58 (by omega) x0 x1 x, ?_⟩
  refine List.forall_mem_cons.2 ⟨fun x => lo_at 58 (by omega) x0 x1 x, ?_⟩
  refine List.forall_mem_cons.2 ⟨fun x => hi_at 57 (by omega) x0 x1 x, ?_⟩
  refine List.forall_mem_cons.2 ⟨fun x => lo_at 57 (by omega) x0 x1 x, ?_⟩
  refine List.forall_mem_cons.2 ⟨fun x => hi_at 56 (by omega) x0 x1 x, ?_⟩
  refine List.forall_mem_cons.2 ⟨fun x => lo_at 56 (by omega) x0 x1 x, ?_⟩
  refine List.forall_mem_cons.2 ⟨fun x => hi_at 55 (by omega) x0 x1 x, ?_⟩
  refine List.forall_mem_cons.2 ⟨fun x => lo_at 55 (by omega) x0 x1 x, ?_⟩
  refine List.forall_mem_cons.2 ⟨fun x => hi_at 54 (by omega) x0 x1 x, ?_⟩
  refine List.forall_mem_cons.2 ⟨fun x => lo_at 54 (by omega) x0 x1 x, ?_⟩
  refine List.forall_mem_cons.2 ⟨fun x => hi_at 53 (by omega) x0 x1 x, ?_⟩
  refine List.forall_mem_cons.2 ⟨fun x => lo_at 53 (by omega) x0 x1 x, ?_⟩
  refine List.forall_mem_cons.2 ⟨fun x => hi_at 52 (by omega) x0 x1 x, ?_⟩
  refine List.forall_mem_cons.2 ⟨fun x => lo_at 52 (by omega) x0 x1 x, ?_⟩
  refine List.forall_mem_cons.2 ⟨fun x => hi_at 51 (by omega) x0 x1 x, ?_⟩
  refine List.forall_mem_cons.2 ⟨fun x => lo_at 51 (by omega) x0 x1 x, ?_⟩
  refine List.forall_mem_cons.2 ⟨fun x => hi_at 50 (by omega) x0 x1 x, ?_⟩
  refine List.forall_mem_cons.2 ⟨fun x => lo_at 50 (by omega) x0 x1 x, ?_⟩
  refine List.forall_mem_cons.2 ⟨fun x => hi_at 49 (by omega) x0 x1 x, ?_⟩
  refine List.forall_mem_cons.2 ⟨fun x => lo_at 49 (by omega) x0 x1 x, ?_⟩
  refine List.forall_mem_cons.2 ⟨fun x => hi_at 48 (by omega) x0 x1 x, ?_⟩
  refine List.forall_mem_cons.2 ⟨fun x => lo_at 48 (by omega) x0 x1 x, ?_⟩
  refine List.forall_mem_cons.2 ⟨fun x => hi_at 47 (by omega) x0 x1 x, ?_⟩
  refine List.forall_mem_cons.2 ⟨fun x => lo_at 47 (by omega) x0 x1 x, ?_⟩
  refine List.forall_mem_cons.2 ⟨fun x => hi_at 46 (by omega) x0 x1 x, ?_⟩
  refine List.forall_mem_cons.2 ⟨fun x => lo_at 46 (by omega) x0 x1 x, ?_⟩
  refine List.forall_mem_cons.2 ⟨fun x => hi_at 45 (by omega) x0 x1 x, ?_⟩
  refine List.forall_mem_cons.2 ⟨fun x => lo_at 45 (by omega) x0 x1 x, ?_⟩
  refine List.forall_mem_cons.2 ⟨fun x => hi_at 44 (by omega) x0 x1 x, ?_⟩
  refine List.forall_mem_cons.2 ⟨fun x => lo_at 44 (by omega) x0 x1 x, ?_⟩
  refine List.forall_mem_cons.2 ⟨fun x => hi_at 43 (by omega) x0 x1 x, ?_⟩
  refine List.forall_mem_cons.2 ⟨fun x => lo_at 43 (by omega) x0 x1 x, ?_⟩
  refine List.forall_mem_cons.2 ⟨fun x => hi_at 42 (by omega) x0 x1 x, ?_⟩
  refine List.forall_mem_cons.2 ⟨fun x => lo_at 42 (by omega) x0 x1 x, ?_⟩
  refine List.forall_mem_cons.2 ⟨fun x => hi_at 41 (by omega) x0 x1 x, ?_⟩
  refine List.forall_mem_cons.2 ⟨fun x => lo_at 41 (by omega) x0 x1 x, ?_⟩
  refine List.forall_mem_cons.2 ⟨fun x => hi_at 40 (by omega) x0 x1 x, ?_⟩
  refine List.forall_mem_cons.2 ⟨fun x => lo_at 40 (by omega) x0 x1 x, ?_⟩
  refine List.forall_mem_cons.2 ⟨fun x => hi_at 39 (by omega) x0 x1 x, ?_⟩
  refine List.forall_mem_cons.2 ⟨fun x => lo_at 39 (by omega) x0 x1 x, ?_⟩
  refine List.forall_mem_cons.2 ⟨fun x => hi_at 38 (by omega) x0 x1 x, ?_⟩
  refine List.forall_mem_cons.2 ⟨fun x => lo_at 38 (by omega) x0 x1 x, ?_⟩
  refine List.forall_mem_cons.2 ⟨fun x => hi_at 37 (by omega) x0 x1 x, ?_⟩
  refine List.forall_mem_cons.2 ⟨fun x => lo_at 37 (by omega) x0 x1 x, ?_⟩
  refine List.forall_mem_cons.2 ⟨fun x => hi_at 36 (by omega) x0 x1 x, ?_⟩
  refine List.forall_mem_cons.2 ⟨fun x => lo_at 36 (by omega) x0 x1 x, ?_⟩
  refine List.forall_mem_cons.2 ⟨fun x => hi_at 35 (by omega) x0 x1 x, ?_⟩
  refine List.forall_mem_cons.2 ⟨fun x => lo_at 35 (by omega) x0 x1 x, ?_⟩
  refine List.forall_mem_cons.2 ⟨fun x => hi_at 34 (by omega) x0 x1 x, ?_⟩
  refine List.forall_mem_cons.2 ⟨fun x => lo_at 34 (by omega) x0 x1 x, ?_⟩
  refine List.forall_mem_cons.2 ⟨fun x => hi_at 33 (by omega) x0 x1 x, ?_⟩
  refine List.forall_mem_cons.2 ⟨fun x => lo_at 33 (by omega) x0 x1 x, ?_⟩
  refine List.forall_mem_cons.2 ⟨fun x => hi_at 32 (by omega) x0 x1 x, ?_⟩
  refine List.forall_mem_cons.2 ⟨fun x => lo_at 32 (by omega) x0 x1 x, ?_⟩
  refine List.forall_mem_cons.2 ⟨fun x => hi_at 31 (by omega) x0 x1 x, ?_⟩
  refine List.forall_mem_cons.2 ⟨fun x => lo_at 31 (by omega) x0 x1 x, ?_⟩
  refine List.forall_mem_cons.2 ⟨fun x => hi_at 30 (by omega) x0 x1 x, ?_⟩
  refine List.forall_mem_cons.2 ⟨fun x => lo_at 30 (by omega) x0 x1 x, ?_⟩
  refine List.forall_mem_cons.2 ⟨fun x => hi_at 29 (by omega) x0 x1 x, ?_⟩
  refine List.forall_mem_cons.2 ⟨fun x => lo_at 29 (by omega) x0 x1 x, ?_⟩
  refine List.forall_mem_cons.2 ⟨fun x => hi_at 28 (by omega) x0 x1 x, ?_⟩
  refine List.forall_mem_cons.2 ⟨fun x => lo_at 28 (by omega) x0 x1 x, ?_⟩
  refine List.forall_mem_cons.2 ⟨fun x => hi_at 27 (by omega) x0 x1 x, ?_⟩
  refine List.forall_mem_cons.2 ⟨fun x => lo_at 27 (by omega) x0 x1 x, ?_⟩
  refine List.forall_mem_cons.2 ⟨fun x => hi_at 26 (by omega) x0 x1 x, ?_⟩
  refine List.forall_mem_cons.2 ⟨fun x => lo_at 26 (by omega) x0 x1 x, ?_⟩
  refine List.forall_mem_cons.2 ⟨fun x => hi_at 25 (by omega) x0 x1 x, ?_⟩
  refine List.forall_mem_cons.2 ⟨fun x => lo_at 25 (by omega) x0 x1 x, ?_⟩
  refine List.forall_mem_cons.2 ⟨fun x => hi_at 24 (by omega) x0 x1 x, ?_⟩
  refine List.forall_mem_cons.2 ⟨fun x => lo_at 24 (by omega) x0 x1 x, ?_⟩
  refine List.forall_mem_cons.2 ⟨fun x => hi_at 23 (by omega) x0 x1 x, ?_⟩
  refine List.forall_mem_cons.2 ⟨fun x => lo_at 23 (by omega) x0 x1 x, ?_⟩
  refine List.forall_mem_cons.2 ⟨fun x => hi_at 22 (by omega) x0 x1 x, ?_⟩
  refine List.forall_mem_cons.2 ⟨fun x => lo_at 22 (by omega) x0 x1 x, ?_⟩
  refine List.forall_mem_cons.2 ⟨fun x => hi_at 21 (by omega) x0 x1 x, ?_⟩
  refine List.forall_mem_cons.2 ⟨fun x => lo_at 21 (by omega) x0 x1 x, ?_⟩
  refine List.forall_mem_cons.2 ⟨fun x => hi_at 20 (by omega) x0 x1 x, ?_⟩
  refine List.forall_mem_cons.2 ⟨fun x => lo_at 20 (by omega) x0 x1 x, ?_⟩
  refine List.forall_mem_cons.2 ⟨fun x => hi_at 19 (by omega) x0 x1 x, ?_⟩
  refine List.forall_mem_cons.2 ⟨fun x => lo_at 19 (by omega) x0 x1 x, ?_⟩
  refine List.forall_mem_cons.2 ⟨fun x => hi_at 18 (by omega) x0 x1 x, ?_⟩
  refine List.forall_mem_cons.2 ⟨fun x => lo_at 18 (by omega) x0 x1 x, ?_⟩
  refine List.forall_mem_cons.2 ⟨fun x => hi_at 17 (by omega) x0 x1 x, ?_⟩
  refine List.forall_mem_cons.2 ⟨fun x => lo_at 17 (by omega) x0 x1 x, ?_⟩
  refine List.forall_mem_cons.2 ⟨fun x => hi_at 16 (by omega) x0 x1 x, ?_⟩
  refine List.forall_mem_cons.2 ⟨fun x => lo_at 16 (by omega) x0 x1 x, ?_⟩
  refine List.forall_mem_cons.2 ⟨fun x => hi_at 15 (by omega) x0 x1 x, ?_⟩
  refine List.forall_mem_cons.2 ⟨fun x => lo_at 15 (by omega) x0 x1 x, ?_⟩
  refine List.forall_mem_cons.2 ⟨fun x => hi_at 14 (by omega) x0 x1 x, ?_⟩
  refine List.forall_mem_cons.2 ⟨fun x => lo_at 14 (by omega) x0 x1 x, ?_⟩
  refine List.forall_mem_cons.2 ⟨fun x => hi_at 13 (by omega) x0 x1 x, ?_⟩
  refine List.forall_mem_cons.2 ⟨fun x => lo_at 13 (by omega) x0 x1 x, ?_⟩
  refine List.forall_mem_cons.2 ⟨fun x => hi_at 12 (by omega) x0 x1 x, ?_⟩
  refine List.forall_mem_cons.2 ⟨fun x => lo_at 12 (by omega) x0 x1 x, ?_⟩
  refine List.forall_mem_cons.2 ⟨fun x => hi_at 11 (by omega) x0 x1 x, ?_⟩
  refine List.forall_mem_cons.2 ⟨fun x => lo_at 11 (by omega) x0 x1 x, ?_⟩
  refine List.forall_mem_cons.2 ⟨fun x => hi_at 10 (by omega) x0 x1 x, ?_⟩
  refine List.forall_mem_cons.2 ⟨fun x => lo_at 10 (by omega) x0 x1 x, ?_⟩
  refine List.forall_mem_cons.2 ⟨fun x => hi_at 9 (by omega) x0 x1 x, ?_⟩
  refine List.forall_mem_cons.2 ⟨fun x => lo_at 9 (by omega) x0 x1 x, ?_⟩
  refine List.forall_mem_cons.2 ⟨fun x => hi_at 8 (by omega) x0 x1 x, ?_⟩
  refine List.forall_mem_cons.2 ⟨fun x => lo_at 8 (by omega) x0 x1 x, ?_⟩
  refine List.forall_mem_cons.2 ⟨fun x => hi_at 7 (by omega) x0 x1 x, ?_⟩
  refine List.forall_mem_cons.2 ⟨fun x => lo_at 7 (by omega) x0 x1 x, ?_⟩
  refine List.forall_mem_cons.2 ⟨fun x => hi_at 6 (by omega) x0 x1 x, ?_⟩
  refine List.forall_mem_cons.2 ⟨fun x => lo_at 6 (by omega) x0 x1 x, ?_⟩
  refine List.forall_mem_cons.2 ⟨fun x => hi_at 5 (by omega) x0 x1 x, ?_⟩
  refine List.forall_mem_cons.2 ⟨fun x => lo_at 5 (by omega) x0 x1 x, ?_⟩
  refine List.forall_mem_cons.2 ⟨fun x => hi_at 4 (by omega) x0 x1 x, ?_⟩
  refine List.forall_mem_cons.2 ⟨fun x => lo_at 4 (by omega) x0 x1 x, ?_⟩
  refine List.forall_mem_cons.2 ⟨fun x => hi_at 3 (by omega) x0 x1 x, ?_⟩
  refine List.forall_mem_cons.2 ⟨fun x => lo_at 3 (by omega) x0 x1 x, ?_⟩
  refine List.forall_mem_cons.2 ⟨fun x => hi_at 2 (by omega) x0 x1 x, ?_⟩
  refine List.forall_mem_cons.2 ⟨fun x => lo_at 2 (by omega) x0 x1 x, ?_⟩
  refine List.forall_mem_cons.2 ⟨fun x => hi_at 1 (by omega) x0 x1 x, ?_⟩
  refine List.forall_mem_cons.2 ⟨fun x => lo_at 1 (by omega) x0 x1 x, ?_⟩
  refine List.forall_mem_cons.2 ⟨fun x => hi_at 0 (by omega) x0 x1 x, ?_⟩
  refine List.forall_mem_cons.2 ⟨fun x => lo_at 0 (by omega) x0 x1 x, ?_⟩
  exact fun _ h => absurd h List.not_mem_nil

/-- **The result block is the packed clamp of the two input blocks**: the strips agree with it and cover the block. -/
theorem out0_2_eq (x0 : Vec F S4096x384 .f32) (x1 : Vec F S4096x256 .f32) :
    out0_2 x0 x1 = Cert.ClampSpec.GP (n := 4096) x0 x1 := by
  funext y
  exact View.canon_apply_of_pieces (Cert.ClampSpec.GP (n := 4096) x0 x1) (pieces x0 x1) (pieces_agree x0 x1) y
    (cover0_2 x0 x1 y)

end Cert.KernelIdeal.Body

end
-- ==== Proof.KIFrame.lean ====
/-
  The frame of the clamp kernel's program. The clamp acts line by line, so on the lines a transfer moves the result
  block depends only on the moved lines of the inputs: that is all the body owes for windows whose last blocks overhang
  their arrays. With the body's triple this gives the pipeline's body obligation, the run of the whole program, and its
  frame: it terminates, faults nowhere, and leaves its argument arrays as launched.
-/
import proofs.«178242_j27358941676275_2_alg».proof.Proof.KIKernelRun
import proofs.«178242_j27358941676275_2_alg».proof.Proof.KIData
import proofs.«178242_j27358941676275_2_alg».proof.Proof.KIBlockValue
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The clamp is line by line -/

/-- Two pairs of blocks that agree at an index's own entry (values) and along its whole line (bounds) clamp alike
    there: an entry of the packed clamp reads its own value and four bounds of the same line. -/
theorem GP_congr_line (x0 x0' : S4096x384.Idx → F .f32) (x1 x1' : S4096x256.Idx → F .f32) (k : S4096x384.Idx)
    (e0 : x0 k = x0' k) (e1 : ∀ col : Fin 256, x1 (ValueIdx.ix2 (k 0) col) = x1' (ValueIdx.ix2 (k 0) col)) :
    Cert.ClampSpec.GP (n := 4096) x0 x1 k = Cert.ClampSpec.GP (n := 4096) x0' x1' k := by
  unfold Cert.ClampSpec.GP
  simp only [e0, e1]

/-- At an index the transfer moves, a filled block holds the fetched part whatever filled the rest. -/
theorem fill_eq_of_moved {G : Pipeline.Grid} {α : Type} (w : Pipeline.Window sig G) (i : G.Coords) (d d' : w.block.Idx → α)
    (g : (w.xblock i).Idx → α) (k : w.block.Idx) (hk : w.moved i k = true) : w.fill i d g k = w.fill i d' g k := by
  unfold Pipeline.Window.fill; rw [dif_pos hk, dif_pos hk]

/-- On the lines the transfer at `i` moves, the clamp of two filled blocks does not depend on what filled the lines
    past the array's end: the three windows cut their blocks alike, along the lines only. -/
theorem cut_out_fill (i : grid0.Coords) (d0 d0' : S4096x384.Idx → Elt F .f32) (d1 d1' : S4096x256.Idx → Elt F .f32)
    (g0 : (win0_0.xblock i).Idx → Elt F .f32) (g1 : (win0_1.xblock i).Idx → Elt F .f32) :
    win0_2.cut i (out0_2 (win0_0.fill i d0 g0) (win0_1.fill i d1 g1))
      = win0_2.cut i (out0_2 (win0_0.fill i d0' g0) (win0_1.fill i d1' g1)) := by
  funext j
  show out0_2 _ _ (win0_2.xinj i j) = out0_2 _ _ (win0_2.xinj i j)
  rw [out0_2_eq, out0_2_eq]
  have h0 : win0_0.moved i (win0_2.xinj i j) = true := (win0_0.moved_iff i _).mpr fun a => (j a).isLt
  have h1 : ∀ col : Fin 256, win0_1.moved i (ValueIdx.ix2 (win0_2.xinj i j 0) col : S4096x256.Idx) = true := fun col =>
    (win0_1.moved_iff i _).mpr fun a => match a with
      | ⟨0, _⟩ => (j 0).isLt
      | ⟨1, _⟩ => col.isLt
  exact GP_congr_line _ _ _ _ _ (fill_eq_of_moved win0_0 i d0 d0' g0 _ h0)
    (fun col => fill_eq_of_moved win0_1 i d1 d1' g1 _ (h1 col))

/-! ## The body obligation -/

/-- The library's body obligation in its form for cut windows: the inputs' blocks arrive holding the arrays' parts on
    the moved lines and anything past them, the result's holding anything; the inputs leave as they came and the result
    leaves at the clamp of what came, which on the moved lines is the clamp of the arrays' parts. -/
theorem body_obligation (c : Dev nD) :
    BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := F) c Set.univ (grid0.coords t) _ _ _ _ _ _
    (win0_0.fill (grid0.coords t) d0 (yblk m c t)) (win0_1.fill (grid0.coords t) d1 (cblk m c t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (y8 m c t)))
    rw [show win0_0.cut (grid0.coords t) (y8 m c t) = yblk m c t from win0_0.cut_fill _ _ _]
    try iexact H0
  isplitl [H1]
  · iexists d1
    change _ ⊢ owns (c : Thread nD τ) (stage0_1 (cfg0.slots t 1)) fullShare
      (win0_1.fill (grid0.coords t) d1 (win0_1.cut (grid0.coords t) (c8 m c t)))
    rw [show win0_1.cut (grid0.coords t) (c8 m c t) = cblk m c t from win0_1.cut_fill _ _ _]
    try iexact H1
  · rw [after0_2 m c t]
    iexists out0_2 (win0_0.fill (grid0.coords t) d0 (yblk m c t)) (win0_1.fill (grid0.coords t) d1 (cblk m c t))
    have h : (win0 2).cut (grid0.coords t) (out0_2 (win0_0.fill (grid0.coords t) d0 (yblk m c t)) (win0_1.fill (grid0.coords t) d1 (cblk m c t)))
        = (win0 2).cut (grid0.coords t) (out0_2 (y8 m c t) (c8 m c t)) :=
      cut_out_fill (grid0.coords t) d0 _ d1 _ (yblk m c t) (cblk m c t)
    rw [(win0 2).fill_congr_cut (grid0.coords t) h]
    try iexact H2

/-! ## The run and the frame -/

set_option backward.isDefEq.respectTransparency.types false in
/-- For any values, from any memory with zero counters: every weakly fair execution of the program terminates, and every
    final state has every array of the pipeline at what the proof data computes and every other unscoped buffer as the
    host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KIValue.lean ====
/-
  The result array of the clamp pipeline, in closed form. Each of the 16 grid points writes back the moved lines of its
  result block, which is the packed clamp of the two input blocks filled out to whole blocks. The packed clamp reads, at
  an entry, the value there and four bounds on the same line; on a moved line the filled-out blocks are the packed
  arrays' own lines (block line r of point t is array line 4096 * t + r, every column). So what a point writes back is
  the packed clamp of the WHOLE packed arrays read through the point's block, and since the sixteen blocks' moved
  lines (4096 each, 1060 for the last: 15 * 4096 + 1060 = 62500) cover the array, the array ends holding that clamp.
-/
import proofs.«178242_j27358941676275_2_alg».proof.Proof.KIData
import proofs.«178242_j27358941676275_2_alg».proof.Proof.KIBlockValue
import proofs.«178242_j27358941676275_2_alg».proof.Proof.ClampSpec
import Idealize.ShloMosaic.Lib.Pipeline.Value
import Idealize.ShloMosaic.Lib.ValueIdx

set_option maxRecDepth 16384

noncomputable section

namespace Cert.KernelIdeal.Body

open Cert.KernelIdeal Cert.KernelIdeal.Gen Cert.ClampSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-! ## The packed clamp at an entry -/

/-- The packed clamp reads, at an entry, its own value and the bounds on its own line only: two packed clamps agree
    at two entries in the same column whenever the values there agree and the two lines of bounds agree. -/
theorem GP_at_eq {n n' : Nat} (y : (⟨2, ![n, 384]⟩ : Shape).Idx → F .f32) (b : (⟨2, ![n, 256]⟩ : Shape).Idx → F .f32)
    (y' : (⟨2, ![n', 384]⟩ : Shape).Idx → F .f32) (b' : (⟨2, ![n', 256]⟩ : Shape).Idx → F .f32)
    (i : (⟨2, ![n, 384]⟩ : Shape).Idx) (i' : (⟨2, ![n', 384]⟩ : Shape).Idx)
    (h1 : i 1 = i' 1) (hy : y i = y' i') (hb : ∀ p : Fin 256, b (ix2 (i 0) p) = b' (ix2 (i' 0) p)) :
    GP y b i = GP y' b' i' := by
  unfold GP
  simp only [h1, hy, hb]

/-! ## The windows over the grid -/

/-- The three index maps over the 16 grid points: block index (t, 0). -/
theorem idx_facts : ∀ t : Fin cfg0.N, win0_2.index t 0 = t.val ∧ win0_2.index t 1 = 0
    ∧ win0_1.index t 0 = t.val ∧ win0_1.index t 1 = 0 :=
  (by decide +kernel : ∀ t : Fin grid0.N, win0_2.index t 0 = t.val ∧ win0_2.index t 1 = 0
    ∧ win0_1.index t 0 = t.val ∧ win0_1.index t 1 = 0)

/-- What the transfers move: 4096 lines at the first fifteen points, 1060 at the last (15 * 4096 + 1060 = 62500);
    every column. -/
theorem xsize_facts : ∀ t : Fin cfg0.N, win0_2.xsize (grid0.coords t) 0 = (if t.val < 15 then 4096 else 1060)
    ∧ win0_2.xsize (grid0.coords t) 1 = 384 ∧ win0_1.xsize (grid0.coords t) 1 = 256 :=
  (by decide +kernel : ∀ t : Fin grid0.N, win0_2.xsize (grid0.coords t) 0 = (if t.val < 15 then 4096 else 1060)
    ∧ win0_2.xsize (grid0.coords t) 1 = 384 ∧ win0_1.xsize (grid0.coords t) 1 = 256)

/-! ## The filled-out blocks on the moved lines -/

/-- On the lines a point's transfer moves, the filled-out block of values is the packed array of values read through
    the result's block at that point (the values' window and the result's move together). -/
theorem y8_at (c : Dev nD) (t : Fin cfg0.N) (j : (win0_2.xblock (grid0.coords t)).Idx) :
    y8 m c t (win0_2.xinj (grid0.coords t) j) = V m c main_v0 ((win0_2.blk t).view.emb j) :=
  (win0_0.fill_xinj (grid0.coords t) (fun _ => Scalar.ofBits .f32 0#32) (yblk m c t) j).trans rfl

/-- On the lines a point's transfer moves, the filled-out block of bounds is the packed array of bounds at the same
    line of the array, every column (the bounds' window moves with the result's along the lines and is never cut
    along the columns). -/
theorem c8_at (c : Dev nD) (t : Fin cfg0.N) (j : (win0_2.xblock (grid0.coords t)).Idx) (p : Fin 256) :
    c8 m c t (ix2 ((win0_2.xinj (grid0.coords t) j) 0) p) = V m c main_v1 (ix2 (((win0_2.blk t).view.emb j) 0) p) := by
  obtain ⟨i20, i21, i10, i11⟩ := idx_facts t
  obtain ⟨x20, x21, x11⟩ := xsize_facts t
  have hm : win0_1.moved (grid0.coords t) (ix2 ((win0_2.xinj (grid0.coords t) j) 0) p) = true := by
    rw [Window.moved_iff]
    intro a
    match a with
    | ⟨0, _⟩ => exact (j 0).isLt
    | ⟨1, _⟩ =>
      show p.val < win0_1.xsize (grid0.coords t) 1
      rw [x11]; exact p.isLt
  unfold c8 Window.fill
  rw [dif_pos hm]
  show V m c main_v1 ((win0_1.blk t).view.emb _) = _
  refine congrArg (V m c main_v1) (funext fun a => Fin.ext ?_)
  match a with
  | ⟨0, _⟩ => rfl
  | ⟨1, _⟩ =>
    show win0_1.index t 1 * 256 + 1 * p.val = p.val
    rw [i11]; omega

/-! ## What a point writes back, the cover, and the array after the run -/

/-- What point `t` writes back is the packed clamp of the whole packed arrays, read through the point's block: entry
    (r, q) of the moved lines is the clamp of the filled-out blocks at (r, q), which reads the value at (r, q) and the
    bounds on line r; on a moved line these are the packed arrays' entries on the line of the array that the block's
    line r is, which is what the packed clamp of the whole arrays reads there. -/
theorem flushed2_eq (c : Dev nD) (t : Fin cfg0.N) :
    (dats m 0 c).flushed 2 t
      = ((cfg0.win 2).blk t).view.read (Elt F) (Cert.ClampSpec.GP (n := 62500) (V m c main_v0) (V m c main_v1)) := by
  show (cfg0.win 2).cut (grid0.coords t) ((dats m 0 c).after 2 t) = _
  rw [after0_2, out0_2_eq]
  funext j
  show GP (n := 4096) (y8 m c t) (c8 m c t) (win0_2.xinj (grid0.coords t) j)
    = GP (n := 62500) (V m c main_v0) (V m c main_v1) ((win0_2.blk t).view.emb j)
  obtain ⟨i20, i21, -, -⟩ := idx_facts t
  refine GP_at_eq _ _ _ _ _ _ (Fin.ext ?_) (y8_at m c t j) (c8_at m c t j)
  show (j 1).val = win0_2.index t 1 * 384 + 1 * (j 1).val
  rw [i21]; omega

/-- An entry of the packed array is in point `t`'s block iff each coordinate is within the part of the block the
    transfer moves. -/
theorem mem_blk2 (t : Fin cfg0.N) (i : S62500x384.Idx) :
    i ∈ ((cfg0.win 2).blk t).view.set ↔ ∀ a : Fin 2, win0_2.index t a * S4096x384.size a ≤ (i a).val
      ∧ (i a).val < win0_2.index t a * S4096x384.size a + win0_2.xsize (grid0.coords t) a := by
  show i ∈ ((View.whole main_v2).slice (win0_2.rect t)).set ↔ _
  rw [View.set_slice_whole, Rect.mem_set_unit]
  exact Iff.rfl

/-- Line R of the packed array is among the moved lines of the block of point R / 4096: below 15 * 4096 the blocks
    are whole, and the last block's 1060 moved lines are lines 61440 to 62499. -/
theorem mem_blk2_of_line (t : Fin cfg0.N) (i : S62500x384.Idx) (ht : t.val = (i 0).val / 4096) :
    i ∈ ((cfg0.win 2).blk t).view.set := by
  have h0 : (i 0).val < 62500 := (i 0).isLt
  have h1 : (i 1).val < 384 := (i 1).isLt
  obtain ⟨i20, i21, -, -⟩ := idx_facts t
  obtain ⟨x20, x21, -⟩ := xsize_facts t
  rw [mem_blk2]
  intro a
  match a with
  | ⟨0, _⟩ =>
    show win0_2.index t 0 * 4096 ≤ (i 0).val ∧ (i 0).val < win0_2.index t 0 * 4096 + win0_2.xsize (grid0.coords t) 0
    rw [i20, x20]; split <;> omega
  | ⟨1, _⟩ =>
    show win0_2.index t 1 * 384 ≤ (i 1).val ∧ (i 1).val < win0_2.index t 1 * 384 + win0_2.xsize (grid0.coords t) 1
    rw [i21, x21]; omega

/-- The sixteen blocks' moved lines cover the packed array. -/
theorem cover2 (i : S62500x384.Idx) : ∃ t : Fin cfg0.N, (cfg0.win 2).flush t = true ∧ i ∈ ((cfg0.win 2).blk t).view.set := by
  have h0 : (i 0).val < 62500 := (i 0).isLt
  have hN : cfg0.N = 16 := N_0
  exact ⟨⟨(i 0).val / 4096, by rw [hN]; omega⟩, flush0_2 _, mem_blk2_of_line _ i rfl⟩

/-- The result array after the run is the packed clamp of the packed arrays as the run finds them. -/
theorem final2 (c : Dev nD) :
    (dats m 0 c).arrAt 2 cfg0.N = Cert.ClampSpec.GP (n := 62500) (V m c main_v0) (V m c main_v1) :=
  (dats m 0 c).arrAt_eq_of_cover 2 _ (fun t _ => flushed2_eq m c t) cover2

end Cert.KernelIdeal.Body

end
-- ==== Proof.PackedClamp.lean ====
/-
  The packing algebra. A row-major reshape keeps every entry's row-major position. The rows of six, packed sixty-four
  to a line of 384, put entry (n, k) at line n / 64, column 6 * (n % 64) + k; the rows of four, packed sixty-four to a
  line of 256, put entry (n, b) at line n / 64, column 4 * (n % 64) + b. So the packed clamp, which holds column q of a
  line between the bounds at columns 4 * (q / 6) + 0..3 of the matching line, is the clamp of the rows of six by the
  rows of four, read through the reshape; reshaping its result back gives that clamp itself.
-/
import proofs.«178242_j27358941676275_2_alg».proof.Proof.ClampSpec
import Idealize.ShloMosaic.Lib.Pipeline.Value
import Idealize.ShloMosaic.Lib.ValueIdx

noncomputable section

namespace Cert.ClampSpec

open Idealize.ShloMosaic Idealize.ShloMosaic.ValueIdx

variable {F : FTy → Type} [FloatOps F]

/-- Two rank-2 indices with equal coordinates are equal. -/
theorem ix2_congr {n0 n1 : Nat} {a a' : Fin n0} {b b' : Fin n1} (ha : a.val = a'.val) (hb : b.val = b'.val) :
    ix2 a b = ix2 a' b' := by
  obtain rfl := Fin.ext ha
  obtain rfl := Fin.ext hb
  rfl

/-- The packed values at line R, column q: the value of row 64 * R + q / 6 at place q % 6 (both sit at row-major
    position 384 * R + q, since 6 * (q / 6) + q % 6 = q). -/
theorem packY_apply (y : SY.Idx → F .f32) (hY : SY.ShapeCasts PY) (R : Fin 62500) (q : Fin 384) :
    shapeCast PY y hY (ix2 R q)
      = y (ix2 (⟨64 * R.val + q.val / 6, by have := R.isLt; have := q.isLt; omega⟩ : Fin 4000000)
               (⟨q.val % 6, by omega⟩ : Fin 6)) := by
  apply shapeCast_apply
  rw [Shape.rowMajor_val_two, Shape.rowMajor_val_two]
  show (64 * R.val + q.val / 6) * 6 + q.val % 6 = R.val * 384 + q.val
  omega

/-- The packed bounds at line R, at bound b of the group of column q (column 4 * (q / 6) + b): bound b of row
    64 * R + q / 6 (both sit at row-major position 256 * R + 4 * (q / 6) + b). -/
theorem packC_bcol (c : SC.Idx → F .f32) (hC : SC.ShapeCasts PC) (R : Fin 62500) (q : Fin 384) (b : Nat) (hb : b < 4) :
    shapeCast PC c hC (ix2 R (bcol q b hb))
      = c (ix2 (⟨64 * R.val + q.val / 6, by have := R.isLt; have := q.isLt; omega⟩ : Fin 4000000)
               (⟨b, hb⟩ : Fin 4)) := by
  apply shapeCast_apply
  rw [Shape.rowMajor_val_two, Shape.rowMajor_val_two]
  show (64 * R.val + q.val / 6) * 4 + b = R.val * 256 + (4 * (q.val / 6) + b)
  omega

/-- The packed clamp of the packed arrays at line R, column q is the clamp of the rows at row 64 * R + q / 6, place
    q % 6: the two split on the same condition (q % 6 < 3), the value is the same entry of y, and the four bounds of
    the group of column q are the four bounds of that row. -/
theorem GP_pack_apply (y : SY.Idx → F .f32) (c : SC.Idx → F .f32) (hY : SY.ShapeCasts PY) (hC : SC.ShapeCasts PC)
    (R : Fin 62500) (q : Fin 384) :
    GP (shapeCast PY y hY) (shapeCast PC c hC) (ix2 R q)
      = G y c (ix2 (⟨64 * R.val + q.val / 6, by have := R.isLt; have := q.isLt; omega⟩ : Fin 4000000)
                   (⟨q.val % 6, by omega⟩ : Fin 6)) := by
  by_cases h : q.val % 6 < 3
  · have e1 : GP (shapeCast PY y hY) (shapeCast PC c hC) (ix2 R q)
        = clamp1 (shapeCast PC c hC (ix2 R (bcol q 0 (by omega)))) (shapeCast PC c hC (ix2 R (bcol q 1 (by omega))))
            (shapeCast PY y hY (ix2 R q)) := if_pos h
    have e2 : G y c (ix2 (⟨64 * R.val + q.val / 6, by have := R.isLt; have := q.isLt; omega⟩ : Fin 4000000)
                   (⟨q.val % 6, by omega⟩ : Fin 6))
        = clamp1 (c (ix2 (⟨64 * R.val + q.val / 6, by have := R.isLt; have := q.isLt; omega⟩ : Fin 4000000) (0 : Fin 4)))
            (c (ix2 (⟨64 * R.val + q.val / 6, by have := R.isLt; have := q.isLt; omega⟩ : Fin 4000000) (1 : Fin 4)))
            (y (ix2 (⟨64 * R.val + q.val / 6, by have := R.isLt; have := q.isLt; omega⟩ : Fin 4000000)
                   (⟨q.val % 6, by omega⟩ : Fin 6))) := if_pos h
    rw [e1, e2, packY_apply, packC_bcol, packC_bcol]
    rfl
  · have e1 : GP (shapeCast PY y hY) (shapeCast PC c hC) (ix2 R q)
        = clamp1 (shapeCast PC c hC (ix2 R (bcol q 2 (by omega)))) (shapeCast PC c hC (ix2 R (bcol q 3 (by omega))))
            (shapeCast PY y hY (ix2 R q)) := if_neg h
    have e2 : G y c (ix2 (⟨64 * R.val + q.val / 6, by have := R.isLt; have := q.isLt; omega⟩ : Fin 4000000)
                   (⟨q.val % 6, by omega⟩ : Fin 6))
        = clamp1 (c (ix2 (⟨64 * R.val + q.val / 6, by have := R.isLt; have := q.isLt; omega⟩ : Fin 4000000) (2 : Fin 4)))
            (c (ix2 (⟨64 * R.val + q.val / 6, by have := R.isLt; have := q.isLt; omega⟩ : Fin 4000000) (3 : Fin 4)))
            (y (ix2 (⟨64 * R.val + q.val / 6, by have := R.isLt; have := q.isLt; omega⟩ : Fin 4000000)
                   (⟨q.val % 6, by omega⟩ : Fin 6))) := if_neg h
    rw [e1, e2, packY_apply, packC_bcol, packC_bcol]
    rfl

/-- A packed array reshaped back to rows of six, at row n, place k: the packed entry at line n / 64, column
    6 * (n % 64) + k (both sit at row-major position 6 * n + k, since 64 * (n / 64) + n % 64 = n). -/
theorem unpack_apply (Z : PY.Idx → F .f32) (hB : PY.ShapeCasts SY) (n : Fin 4000000) (k : Fin 6) :
    shapeCast SY Z hB (ix2 n k)
      = Z (ix2 (⟨n.val / 64, by have := n.isLt; omega⟩ : Fin 62500)
               (⟨6 * (n.val % 64) + k.val, by have := k.isLt; omega⟩ : Fin 384)) := by
  apply shapeCast_apply
  rw [Shape.rowMajor_val_two, Shape.rowMajor_val_two]
  show (n.val / 64) * 384 + (6 * (n.val % 64) + k.val) = n.val * 6 + k.val
  omega

/-- Packing the rows, clamping the packed lines and unpacking is clamping the rows: at row n, place k the unpacked
    result is the packed clamp at line n / 64, column q = 6 * (n % 64) + k, which is the clamp of the rows at row
    64 * (n / 64) + q / 6 = n, place q % 6 = k (k < 6). -/
theorem unpack_GP (y : SY.Idx → F .f32) (c : SC.Idx → F .f32) (hY : SY.ShapeCasts PY) (hC : SC.ShapeCasts PC)
    (hB : PY.ShapeCasts SY) :
    shapeCast SY (GP (shapeCast PY y hY) (shapeCast PC c hC)) hB = G y c := by
  funext i
  obtain ⟨n, k, rfl⟩ : ∃ (n : Fin 4000000) (k : Fin 6), i = ix2 n k := ⟨i 0, i 1, eq_ix2 i⟩
  have hk := k.isLt
  rw [unpack_apply, GP_pack_apply]
  refine congrArg (G y c) (ix2_congr ?_ ?_)
  · show 64 * (n.val / 64) + (6 * (n.val % 64) + k.val) / 6 = n.val
    omega
  · show (6 * (n.val % 64) + k.val) % 6 = k.val
    omega

end Cert.ClampSpec

end
-- ==== Proof.KIRun.lean ====
/-
  The idealized kernel's result. Around its one region the program reshapes: the values [4000000, 6] and the bounds
  [4000000, 4] are packed 64 rows to a line before it, and the packed result [62500, 384] is unpacked after it. The
  region leaves the packed result at the packed clamp of the packed inputs (every line is in some grid point's block);
  a row-major reshape keeps row-major positions, so unpacking the packed clamp of the packed arrays is the clamp of the
  arrays themselves, row by row.
-/
import proofs.«178242_j27358941676275_2_alg».proof.Proof.KIFrame
import proofs.«178242_j27358941676275_2_alg».proof.Proof.KIValue
import proofs.«178242_j27358941676275_2_alg».proof.Proof.PackedClamp
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## The packed arrays the region finds -/

/-- The region finds the values packed: the first host line is a row-major reshape of the first argument. -/
theorem V_main_v0 (c : Dev nD) : (V m c main_v0 : S62500x384.Idx → Elt F .f32)
    = shapeCast S62500x384 (m ((c : Thread nD τ).loc main_arg0)) shapeCasts_S4000000x6_S62500x384 := by
  show StableHlo.after hostOps0 (fun b => m (c, b)) (Proc.devRef .tc main_v0) = _
  after_results; rfl
/-- And the bounds packed: the second host line reshapes the second argument. -/
theorem V_main_v1 (c : Dev nD) : (V m c main_v1 : S62500x256.Idx → Elt F .f32)
    = shapeCast S62500x256 (m ((c : Thread nD τ).loc main_arg1)) shapeCasts_S4000000x4_S62500x256 := by
  show StableHlo.after hostOps0 (fun b => m (c, b)) (Proc.devRef .tc main_v1) = _
  after_results; rfl

/-! ## The result after the host line that follows the region -/

/-- The program's result array: the unpacked packed clamp, which is the clamp of the arguments row by row. -/
theorem result_eq (c : Dev nD) :
    Pipeline.afterTail₀ cfgs (dats m) 0 (V0 m) [hostOps1] c main_v3
      = Cert.ClampSpec.G (m ((c : Thread nD τ).loc main_arg0)) (m ((c : Thread nD τ).loc main_arg1)) := by
  unfold Pipeline.afterTail₀
  show StableHlo.after hostOps1 _ (Proc.devRef .tc main_v3) = _
  after_results
  rw [(Pipeline.withArrays_arr spec0 launch0.win.arr_inj c _ _ 2).trans (final2 m c), V_main_v0, V_main_v1]
  exact Cert.ClampSpec.unpack_GP _ _ _ _ _

/-- For any values, from any memory with zero counters: every weakly fair execution of the program terminates with the
    result array at the clamp of the arguments and the arguments as launched. -/
theorem run_value : θ_run defs (onTc (τ := τ) (main (F := F))) ⟨m, fun _ => 0, ρ⟩ (fun r => ∀ c : Dev nD,
      r.2.mem ((c.tc : Thread nD τ).loc main_v3)
        = Cert.ClampSpec.G (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Body

end
-- ==== Proof.RefIsClamp.lean ====
/-
  The reference program computes the clamp of the specification: its last stage joins, along the columns, two pieces of
  three columns each; the first piece is min (c[:,1], max (c[:,0], y[:,0:3])) and the second min (c[:,3], max (c[:,2], y[:,3:6])),
  the bounds' single columns broadcast across the three. Read at an entry (n, k) this is y (n, k) clamped between
  c (n, 0) and c (n, 1) when k < 3, and between c (n, 2) and c (n, 3) when k ≥ 3.
-/
import proofs.«178242_j27358941676275_2_alg».proof.Proof.Gen.ReferenceIdeal.Read
import proofs.«178242_j27358941676275_2_alg».proof.Proof.ClampSpec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Cert.ClampSpec
open Idealize.ShloMosaic Idealize.ShloMosaic.ValueIdx

variable {F : FTy → Type} [FloatOps F]

/-- The first piece at (n, k), k < 3: y (n, k) held between c (n, 0) and c (n, 1). -/
theorem v5_at (x0 : (⟨S4000000x6, .f32⟩ : BufTy).Contents (Elt F)) (x1 : (⟨S4000000x4, .f32⟩ : BufTy).Contents (Elt F))
    (n : Fin 4000000) (k : Fin 3) :
    val_main_v5 (F := F) x0 x1 (ix2 n k)
      = clamp1 (x1 (ix2 n (0 : Fin 4))) (x1 (ix2 n (1 : Fin 4))) (x0 (ix2 n (⟨k.val, by omega⟩ : Fin 6))) := by
  rw [val_main_v5_apply, val_main_call0_v2_apply, val_main_v1_apply, val_main_call0_v1_apply,
    val_main_call0_v0_apply, val_main_v0_apply, val_main_v4_apply]
  have e1 : idx_main_v1 (idx_main_call0_v2 (ix2 n k)) = ix2 n (1 : Fin 4) := by
    funext a; match a with | ⟨0, _⟩ => rfl | ⟨1, _⟩ => rfl
  have e0 : idx_main_v0 (idx_main_call0_v0 (ix2 n k)) = ix2 n (0 : Fin 4) := by
    funext a; match a with | ⟨0, _⟩ => rfl | ⟨1, _⟩ => rfl
  have e4 : idx_main_v4 (ix2 n k) = ix2 n (⟨k.val, by omega⟩ : Fin 6) := by
    funext a; match a with | ⟨0, _⟩ => rfl | ⟨1, _⟩ => rfl
  rw [e1, e0, e4]
  rfl

/-- The second piece at (n, k), k < 3: y (n, 3 + k) held between c (n, 2) and c (n, 3). -/
theorem v7_at (x0 : (⟨S4000000x6, .f32⟩ : BufTy).Contents (Elt F)) (x1 : (⟨S4000000x4, .f32⟩ : BufTy).Contents (Elt F))
    (n : Fin 4000000) (k : Fin 3) :
    val_main_v7 (F := F) x0 x1 (ix2 n k)
      = clamp1 (x1 (ix2 n (2 : Fin 4))) (x1 (ix2 n (3 : Fin 4))) (x0 (ix2 n (⟨3 + k.val, by omega⟩ : Fin 6))) := by
  rw [val_main_v7_apply, val_main_call1_v2_apply, val_main_v3_apply, val_main_call1_v1_apply,
    val_main_call1_v0_apply, val_main_v2_apply, val_main_v6_apply]
  have e3 : idx_main_v3 (idx_main_call1_v2 (ix2 n k)) = ix2 n (3 : Fin 4) := by
    funext a; match a with | ⟨0, _⟩ => rfl | ⟨1, _⟩ => rfl
  have e2 : idx_main_v2 (idx_main_call1_v0 (ix2 n k)) = ix2 n (2 : Fin 4) := by
    funext a; match a with | ⟨0, _⟩ => rfl | ⟨1, _⟩ => rfl
  have e6 : idx_main_v6 (ix2 n k) = ix2 n (⟨3 + k.val, by omega⟩ : Fin 6) := by
    funext a; match a with | ⟨0, _⟩ => rfl | ⟨1, _⟩ => rfl
  rw [e3, e2, e6]
  rfl

/-- The joined result at (n, k): the first piece at (n, k) when k < 3 … -/
theorem v8_at_lt (x0 : (⟨S4000000x6, .f32⟩ : BufTy).Contents (Elt F)) (x1 : (⟨S4000000x4, .f32⟩ : BufTy).Contents (Elt F))
    (n : Fin 4000000) (k : Fin 6) (hk : k.val < 3) :
    val_main_v8 (F := F) x0 x1 (ix2 n k) = val_main_v5 (F := F) x0 x1 (ix2 n (⟨k.val, hk⟩ : Fin 3)) := by
  unfold val_main_v8
  refine concatenate_pair_apply_left (1 : Fin S4000000x6.rank) _ _ concatenates_S4000000x3_S4000000x3_S4000000x6_d1
    (ix2 n k) rfl (ix2 n (⟨k.val, hk⟩ : Fin 3)) (fun b => ?_)
  match b with
  | ⟨0, _⟩ => rfl
  | ⟨1, _⟩ => rfl

/-- … and the second piece at (n, k - 3) when k ≥ 3. -/
theorem v8_at_ge (x0 : (⟨S4000000x6, .f32⟩ : BufTy).Contents (Elt F)) (x1 : (⟨S4000000x4, .f32⟩ : BufTy).Contents (Elt F))
    (n : Fin 4000000) (k : Fin 6) (hk : ¬ k.val < 3) :
    val_main_v8 (F := F) x0 x1 (ix2 n k)
      = val_main_v7 (F := F) x0 x1 (ix2 n (⟨k.val - 3, by have := k.isLt; omega⟩ : Fin 3)) := by
  unfold val_main_v8
  refine concatenate_pair_apply_right (1 : Fin S4000000x6.rank) _ _ concatenates_S4000000x3_S4000000x3_S4000000x6_d1
    (ix2 n k) rfl rfl (ix2 n (⟨k.val - 3, by have := k.isLt; omega⟩ : Fin 3)) (fun b hb => ?_) ?_
  · match b with
    | ⟨0, _⟩ => rfl
    | ⟨1, _⟩ => exact absurd rfl hb
  · show k.val - 3 + 3 = k.val
    omega

/-- **The reference is the clamp of the specification.** -/
theorem ref_eq (x0 : (⟨S4000000x6, .f32⟩ : BufTy).Contents (Elt F)) (x1 : (⟨S4000000x4, .f32⟩ : BufTy).Contents (Elt F)) :
    val_main_v8 (F := F) x0 x1 = G x0 x1 := by
  funext j
  obtain ⟨n, k, rfl⟩ : ∃ (n : Fin 4000000) (k : Fin 6), j = ix2 n k := ⟨j 0, j 1, eq_ix2 j⟩
  unfold G
  show _ = if k.val < 3 then _ else _
  by_cases hk : k.val < 3
  · rw [if_pos hk, v8_at_lt x0 x1 n k hk, v5_at]
  · rw [if_neg hk, v8_at_ge x0 x1 n k hk, v7_at]
    have e : (⟨3 + (k.val - 3), by have := k.isLt; omega⟩ : Fin 6) = k := Fin.ext (by show 3 + (k.val - 3) = k.val; omega)
    rw [e]

end Cert.ReferenceIdeal.RefValue

end
-- ==== Proof.lean ====
/-
  The clamp kernel against its reference, over the extended reals.

  Both programs compute, for each of 4,000,000 rows, the six values of the row held between bounds read from the
  matching row of four: the first three between entries 0 and 1, the last three between entries 2 and 3, each as
  min (upper, max (lower, value)). The reference does it on the arrays as given. The kernel first packs 64 consecutive
  rows to a line (a row-major reshape to 62500 lines of 384 values and of 256 bounds), clamps the packed lines block by
  block — 16 blocks of 4096 lines, the last one overhanging the arrays, 64 groups of columns per line — and unpacks.
  A row-major reshape keeps positions, so the packed clamp of the packed arrays, unpacked, is the clamp of the arrays:
  the two results are the same function of the arguments, entry by entry, with no law of arithmetic needed beyond the
  definitions (the same min and max of the same three entries on both sides), hence no use of finiteness.

  The kernel's two frames (at the machine's words and at the extended reals) come from one body proof, generic in the
  float instance: the body's 128 stores tile its result block, and on the lines a clipped transfer moves, the result
  depends only on the moved lines of the inputs. The idealization rewrote nothing, so `preserves` is trivial.
-/
import proofs.«178242_j27358941676275_2_alg».proof.Defs
import proofs.«178242_j27358941676275_2_alg».proof.Proof.Gen.Kernel
import proofs.«178242_j27358941676275_2_alg».proof.Proof.Gen.KernelIdeal
import proofs.«178242_j27358941676275_2_alg».proof.Proof.Gen.ReferenceIdeal
import proofs.«178242_j27358941676275_2_alg».proof.Proof.Gen.ReferenceIdeal.Run
import proofs.«178242_j27358941676275_2_alg».proof.Proof.Gen.ReferenceIdeal.Read
import proofs.«178242_j27358941676275_2_alg».proof.Proof.Gen.Pre_finite_inputs
import proofs.«178242_j27358941676275_2_alg».proof.Proof.KFrame
import proofs.«178242_j27358941676275_2_alg».proof.Proof.KIRun
import proofs.«178242_j27358941676275_2_alg».proof.Proof.RefIsClamp
import Idealize.ShloMosaic.Adequacy
import Idealize.ShloMosaic.Init

noncomputable section

namespace Cert.Proof

open Idealize.ShloMosaic Idealize.ShloMosaic.TcCoe Idealize.SL.Sem

/-- The kernel as printed runs to the end, faults nowhere and keeps its arguments. -/
theorem frame_k : Cert.frame_Kernel := fun m ρ _ => Cert.Kernel.Body.frame (F := Bits) m ρ

/-- So does its idealization. -/
theorem frame_ki : Cert.frame_KernelIdeal := fun m ρ _ => Cert.KernelIdeal.Body.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the clamp of the arguments, row by row: the kernel's packed clamp
    unpacked, and the reference's two clamped halves joined along the columns. -/
theorem algebraic : Cert.algebraic_KernelIdeal_ReferenceIdeal := by
  intro m ρ m' ρ' _ hagree
  refine ⟨_, Cert.KernelIdeal.Body.run_value (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
